-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S512 .f32) (main_arg6 : FVec F S512x256 .f32) (main_arg7 : FVec F S256 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg6
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8192x512 .f32) (main_arg1 : IVec S2x262144 32) (main_arg2 : FVec F S512x512 .f32) (main_arg3 : FVec F S512 .f32) (main_arg4 : FVec F S512x512 .f32) (main_arg5 : FVec F S512 .f32) (main_arg6 : FVec F S512x256 .f32) (main_arg7 : FVec F S256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_v13 main_v16
-- ==== Kernel.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x262144 : Shape := ⟨2, ![1, 262144]⟩
abbrev S262144 : Shape := ⟨1, ![262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S8192x2 : Shape := ⟨2, ![8192, 2]⟩
abbrev S1x8192 : Shape := ⟨2, ![1, 8192]⟩
abbrev S1024x512 : Shape := ⟨2, ![1024, 512]⟩
abbrev S1x512 : Shape := ⟨2, ![1, 512]⟩
abbrev S1024x1024 : Shape := ⟨2, ![1024, 1024]⟩
abbrev S8192x256 : Shape := ⟨2, ![8192, 256]⟩
abbrev S1024x256 : Shape := ⟨2, ![1024, 256]⟩
abbrev S1x256 : Shape := ⟨2, ![1, 256]⟩

abbrev nBuf : Space → Nat
  | .hbm => 97
  | .vmem => 39
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S1x262144, .i32⟩
  | .hbm, ⟨9, _⟩ => ⟨S262144, .i32⟩
  | .hbm, ⟨10, _⟩ => ⟨S1x262144, .i32⟩
  | .hbm, ⟨11, _⟩ => ⟨S262144, .i32⟩
  | .hbm, ⟨12, _⟩ => ⟨S_, .f32⟩
  | .hbm, ⟨13, _⟩ => ⟨S8192x8192, .f32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S_, .i32⟩
  | .hbm, ⟨22, _⟩ => ⟨S262144, .i32⟩
  | .hbm, ⟨23, _⟩ => ⟨S262144, .i1⟩
  | .hbm, ⟨24, _⟩ => ⟨S_, .i32⟩
  | .hbm, ⟨25, _⟩ => ⟨S262144, .i32⟩
  | .hbm, ⟨26, _⟩ => ⟨S262144, .i32⟩
  | .hbm, ⟨27, _⟩ => ⟨S262144, .i32⟩
  | .hbm, ⟨28, _⟩ => ⟨S262144x1, .i32⟩
  | .hbm, ⟨29, _⟩ => ⟨S262144x1, .i32⟩
  | .hbm, ⟨30, _⟩ => ⟨S262144x2, .i32⟩
  | .hbm, ⟨31, _⟩ => ⟨S_, .f32⟩
  | .hbm, ⟨32, _⟩ => ⟨S262144, .f32⟩
  | .hbm, ⟨33, _⟩ => ⟨S8192x8192, .f32⟩
  | .hbm, ⟨34, _⟩ => ⟨S_, .i32⟩
  | .hbm, ⟨35, _⟩ => ⟨S262144, .i32⟩
  | .hbm, ⟨36, _⟩ => ⟨S262144, .i1⟩
  | .hbm, ⟨37, _⟩ => ⟨S_, .i32⟩
  | .hbm, ⟨38, _⟩ => ⟨S262144, .i32⟩
  | .hbm, ⟨39, _⟩ => ⟨S262144, .i32⟩
  | .hbm, ⟨40, _⟩ => ⟨S262144, .i32⟩
  | .hbm, ⟨41, _⟩ => ⟨S_, .i32⟩
  | .hbm, ⟨42, _⟩ => ⟨S262144, .i32⟩
  | .hbm, ⟨43, _⟩ => ⟨S262144, .i1⟩
  | .hbm, ⟨44, _⟩ => ⟨S_, .i32⟩
  | .hbm, ⟨45, _⟩ => ⟨S262144, .i32⟩
  | .hbm, ⟨46, _⟩ => ⟨S262144, .i32⟩
  | .hbm, ⟨47, _⟩ => ⟨S262144, .i32⟩
  | .hbm, ⟨48, _⟩ => ⟨S262144x1, .i32⟩
  | .hbm, ⟨49, _⟩ => ⟨S262144x1, .i32⟩
  | .hbm, ⟨50, _⟩ => ⟨S262144x2, .i32⟩
  | .hbm, ⟨51, _⟩ => ⟨S_, .f32⟩
  | .hbm, ⟨52, _⟩ => ⟨S262144, .f32⟩
  | .hbm, ⟨53, _⟩ => ⟨S8192x8192, .f32⟩
  | .hbm, ⟨54, _⟩ => ⟨S8192, .i32⟩
  | .hbm, ⟨55, _⟩ => ⟨S_, .i32⟩
  | .hbm, ⟨56, _⟩ => ⟨S8192, .i32⟩
  | .hbm, ⟨57, _⟩ => ⟨S8192, .i1⟩
  | .hbm, ⟨58, _⟩ => ⟨S_, .i32⟩
  | .hbm, ⟨59, _⟩ => ⟨S8192, .i32⟩
  | .hbm, ⟨60, _⟩ => ⟨S8192, .i32⟩
  | .hbm, ⟨61, _⟩ => ⟨S8192, .i32⟩
  | .hbm, ⟨62, _⟩ => ⟨S_, .i32⟩
  | .hbm, ⟨63, _⟩ => ⟨S8192, .i32⟩
  | .hbm, ⟨64, _⟩ => ⟨S8192, .i1⟩
  | .hbm, ⟨65, _⟩ => ⟨S_, .i32⟩
  | .hbm, ⟨66, _⟩ => ⟨S8192, .i32⟩
  | .hbm, ⟨67, _⟩ => ⟨S8192, .i32⟩
  | .hbm, ⟨68, _⟩ => ⟨S8192, .i32⟩
  | .hbm, ⟨69, _⟩ => ⟨S8192x1, .i32⟩
  | .hbm, ⟨70, _⟩ => ⟨S8192x1, .i32⟩
  | .hbm, ⟨71, _⟩ => ⟨S8192x2, .i32⟩
  | .hbm, ⟨72, _⟩ => ⟨S_, .f32⟩
  | .hbm, ⟨73, _⟩ => ⟨S8192, .f32⟩
  | .hbm, ⟨74, _⟩ => ⟨S8192x8192, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S8192x1, .f32⟩
  | .hbm, ⟨82, _⟩ => ⟨S8192x8192, .f32⟩
  | .hbm, ⟨83, _⟩ => ⟨S8192x8192, .f32⟩
  | .hbm, ⟨84, _⟩ => ⟨S1x8192, .f32⟩
  | .hbm, ⟨85, _⟩ => ⟨S8192x8192, .f32⟩
  | .hbm, ⟨86, _⟩ => ⟨S8192x8192, .f32⟩
  | .hbm, ⟨87, _⟩ => ⟨S8192x8192, .bf16⟩
  | .hbm, ⟨88, _⟩ => ⟨S8192x512, .bf16⟩
  | .hbm, ⟨89, _⟩ => ⟨S1x512, .f32⟩
  | .hbm, ⟨90, _⟩ => ⟨S8192x512, .bf16⟩
  | .hbm, ⟨91, _⟩ => ⟨S8192x512, .bf16⟩
  | .hbm, ⟨92, _⟩ => ⟨S1x512, .f32⟩
  | .hbm, ⟨93, _⟩ => ⟨S8192x512, .bf16⟩
  | .hbm, ⟨94, _⟩ => ⟨S8192x256, .bf16⟩
  | .hbm, ⟨95, _⟩ => ⟨S1x256, .f32⟩
  | .hbm, ⟨96, _⟩ => ⟨S8192x256, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1024x512, .bf16⟩
  | .local _ .vmem, ⟨4, _⟩ => ⟨S1024x512, .bf16⟩
  | .local _ .vmem, ⟨5, _⟩ => ⟨S1024x1024, .bf16⟩
  | .local _ .vmem, ⟨6, _⟩ => ⟨S1024x1024, .bf16⟩
  | .local _ .vmem, ⟨7, _⟩ => ⟨S1024x512, .bf16⟩
  | .local _ .vmem, ⟨8, _⟩ => ⟨S1024x512, .bf16⟩
  | .local _ .vmem, ⟨9, _⟩ => ⟨S1x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | .local _ .vmem, ⟨13, _⟩ => ⟨S1024x512, .bf16⟩
  | .local _ .vmem, ⟨14, _⟩ => ⟨S1024x512, .bf16⟩
  | .local _ .vmem, ⟨15, _⟩ => ⟨S512x512, .f32⟩
  | .local _ .vmem, ⟨16, _⟩ => ⟨S1024x512, .bf16⟩
  | .local _ .vmem, ⟨17, _⟩ => ⟨S1024x512, .bf16⟩
  | .local _ .vmem, ⟨18, _⟩ => ⟨S1024x1024, .bf16⟩
  | .local _ .vmem, ⟨19, _⟩ => ⟨S1024x1024, .bf16⟩
  | .local _ .vmem, ⟨20, _⟩ => ⟨S1024x512, .bf16⟩
  | .local _ .vmem, ⟨21, _⟩ => ⟨S1024x512, .bf16⟩
  | .local _ .vmem, ⟨22, _⟩ => ⟨S1x512, .f32⟩
  | .local _ .vmem, ⟨23, _⟩ => ⟨S1024x512, .bf16⟩
  | .local _ .vmem, ⟨24, _⟩ => ⟨S1024x512, .bf16⟩
  | .local _ .vmem, ⟨25, _⟩ => ⟨S1024x512, .f32⟩
  | .local _ .vmem, ⟨26, _⟩ => ⟨S1024x512, .bf16⟩
  | .local _ .vmem, ⟨27, _⟩ => ⟨S1024x512, .bf16⟩
  | .local _ .vmem, ⟨28, _⟩ => ⟨S512x256, .f32⟩
  | .local _ .vmem, ⟨29, _⟩ => ⟨S1024x256, .bf16⟩
  | .local _ .vmem, ⟨30, _⟩ => ⟨S1024x256, .bf16⟩
  | .local _ .vmem, ⟨31, _⟩ => ⟨S1024x1024, .bf16⟩
  | .local _ .vmem, ⟨32, _⟩ => ⟨S1024x1024, .bf16⟩
  | .local _ .vmem, ⟨33, _⟩ => ⟨S1024x256, .bf16⟩
  | .local _ .vmem, ⟨34, _⟩ => ⟨S1024x256, .bf16⟩
  | .local _ .vmem, ⟨35, _⟩ => ⟨S1x256, .f32⟩
  | .local _ .vmem, ⟨36, _⟩ => ⟨S1024x256, .f32⟩
  | .local _ .vmem, ⟨37, _⟩ => ⟨S1024x256, .f32⟩
  | .local _ .vmem, ⟨38, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_11 : Ref sig .tc := ⟨.hbm, 62, rfl⟩
abbrev main_v41 : Ref sig .tc := ⟨.hbm, 63, rfl⟩
abbrev main_v42 : Ref sig .tc := ⟨.hbm, 64, rfl⟩
abbrev main_c_12 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_13 : Ref sig .tc := ⟨.hbm, 72, rfl⟩
abbrev main_v49 : Ref sig .tc := ⟨.hbm, 73, rfl⟩
abbrev main_v50 : Ref sig .tc := ⟨.hbm, 74, rfl⟩
abbrev main_cst_14 : Ref sig .tc := ⟨.hbm, 75, rfl⟩
abbrev main_v51 : Ref sig .tc := ⟨.hbm, 76, rfl⟩
abbrev main_v52 : Ref sig .tc := ⟨.hbm, 77, rfl⟩
abbrev main_cst_15 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc5_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1024x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![8, 8], ![false, false]⟩

def k5_cond2 (i : grid5.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1024x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S1024x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d1 : S8192x8192.ReducesTo [1] S8192
  h_S_ : 0 < S_.numel
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  packedbf16_S1024x512_S1024x512_0_0 : (Rect.unit (s := S1024x512) ![0, 0] S1024x512.size inb_S1024x512_S1024x512_0_0).PackedRows (EltTy.packing .bf16)
  shapeCasts_S512_S1x512 : S512.ShapeCasts S1x512
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  shapeCasts_S256_S1x256 : S256.ShapeCasts S1x256
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  scatter_S8192x8192_S262144x2_S262144_n_01_01_1_wf : ScatterDims.WF S8192x8192 S262144x2 S262144 [] [0, 1] [0, 1] 1
  scatter_S8192x8192_S8192x2_S8192_n_01_01_1_wf : ScatterDims.WF S8192x8192 S8192x2 S8192 [] [0, 1] [0, 1] 1
  dot_S1024x512_S512x512_S1024x512_1_0_0_1_n_n_wf : DotDims.WF S1024x512 S512x512 S1024x512 [1] [0] [0] [1] [] []
  dot_S1024x1024_S1024x512_S1024x512_1_0_0_1_n_n_wf : DotDims.WF S1024x1024 S1024x512 S1024x512 [1] [0] [0] [1] [] []
  dot_S1024x512_S512x256_S1024x256_1_0_0_1_n_n_wf : DotDims.WF S1024x512 S512x256 S1024x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .bf16 = 32 ∨ (Rect.block (s := S8192x512) S1024x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .bf16 = 32 ∨ (Rect.block (s := S8192x512) S1024x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .bf16 = 32 ∨ (Rect.block (s := S8192x512) S1024x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .bf16 = 32 ∨ (Rect.block (s := S8192x512) S1024x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S8192x512.size a
  hwx2_2 : ∀ i : grid2.Coords, EltTy.bits .bf16 = 32 ∨ (Rect.block (s := S8192x512) S1024x512.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x8192.size a
  hwx3_0 : ∀ i : grid3.Coords, EltTy.bits .bf16 = 32 ∨ (Rect.block (s := S8192x8192) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x512.size a ≤ S8192x512.size a
  hwx3_1 : ∀ i : grid3.Coords, EltTy.bits .bf16 = 32 ∨ (Rect.block (s := S8192x512) S1024x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x512.size a ≤ S8192x512.size a
  hwx3_3 : ∀ i : grid3.Coords, EltTy.bits .bf16 = 32 ∨ (Rect.block (s := S8192x512) S1024x512.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S8192x512.size a
  hwx4_0 : ∀ i : grid4.Coords, EltTy.bits .bf16 = 32 ∨ (Rect.block (s := S8192x512) S1024x512.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x256.size a ≤ S512x256.size a
  hwx4_1 : ∀ i : grid4.Coords, EltTy.bits .f32 = 32 ∨ (Rect.block (s := S512x256) S512x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x256.size a ≤ S8192x256.size a
  hwx4_2 : ∀ i : grid4.Coords, EltTy.bits .bf16 = 32 ∨ (Rect.block (s := S8192x256) S1024x256.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1024.size a ≤ S8192x8192.size a
  hwx5_0 : ∀ i : grid5.Coords, EltTy.bits .bf16 = 32 ∨ (Rect.block (s := S8192x8192) S1024x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x256.size a ≤ S8192x256.size a
  hwx5_1 : ∀ i : grid5.Coords, EltTy.bits .bf16 = 32 ∨ (Rect.block (s := S8192x256) S1024x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x256.size a ≤ S8192x256.size a
  hwx5_3 : ∀ i : grid5.Coords, EltTy.bits .f32 = 32 ∨ (Rect.block (s := S8192x256) S1024x256.size (cc5_transform_3 i) (hinb5_3 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v62) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v61) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v62) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v63) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v64) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1024x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S1024x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1024x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v67) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S512x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v68) S1024x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v61) S1024x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S1024x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v69) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v70) S1024x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S2x262144 : Shape := ⟨2, ![2, 262144]⟩
abbrev S512x512 : Shape := ⟨2, ![512, 512]⟩
abbrev S512 : Shape := ⟨1, ![512]⟩
abbrev S512x256 : Shape := ⟨2, ![512, 256]⟩
abbrev S256 : Shape := ⟨1, ![256]⟩
abbrev S1x262144 : Shape := ⟨2, ![1, 262144]⟩
abbrev S262144 : Shape := ⟨1, ![262144]⟩
abbrev S_ : Shape := ⟨0, ![]⟩
abbrev S8192x8192 : Shape := ⟨2, ![8192, 8192]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1x8192 : Shape := ⟨2, ![1, 8192]⟩
abbrev S1x512 : Shape := ⟨2, ![1, 512]⟩
abbrev S8192x256 : Shape := ⟨2, ![8192, 256]⟩
abbrev S1x256 : Shape := ⟨2, ![1, 256]⟩

abbrev nBuf : Space → Nat
  | .hbm => 219
  | .vmem => 0
  | .smem => 0
  | _ => 0

abbrev hbmTy0_0 (i : Nat) : BufTy := match i % 128 with
  | 0 => ⟨S8192x512, .f32⟩
  | 1 => ⟨S2x262144, .i32⟩
  | 2 => ⟨S512x512, .f32⟩
  | 3 => ⟨S512, .f32⟩
  | 4 => ⟨S512x512, .f32⟩
  | 5 => ⟨S512, .f32⟩
  | 6 => ⟨S512x256, .f32⟩
  | 7 => ⟨S256, .f32⟩
  | 8 => ⟨S1x262144, .i32⟩
  | 9 => ⟨S262144, .i32⟩
  | 10 => ⟨S1x262144, .i32⟩
  | 11 => ⟨S262144, .i32⟩
  | 12 => ⟨S_, .f32⟩
  | 13 => ⟨S8192x8192, .f32⟩
  | 14 => ⟨S_, .i32⟩
  | 15 => ⟨S262144, .i32⟩
  | 16 => ⟨S262144, .i1⟩
  | 17 => ⟨S_, .i32⟩
  | 18 => ⟨S262144, .i32⟩
  | 19 => ⟨S262144, .i32⟩
  | 20 => ⟨S262144, .i32⟩
  | 21 => ⟨S_, .i32⟩
  | 22 => ⟨S262144, .i32⟩
  | 23 => ⟨S262144, .i1⟩
  | 24 => ⟨S_, .i32⟩
  | 25 => ⟨S262144, .i32⟩
  | 26 => ⟨S262144, .i32⟩
  | 27 => ⟨S262144, .i32⟩
  | 28 => ⟨S262144x1, .i32⟩
  | 29 => ⟨S262144x1, .i32⟩
  | 30 => ⟨S262144x2, .i32⟩
  | 31 => ⟨S_, .f32⟩
  | 32 => ⟨S262144, .f32⟩
  | 33 => ⟨S8192x8192, .f32⟩
  | 34 => ⟨S_, .i32⟩
  | 35 => ⟨S262144, .i32⟩
  | 36 => ⟨S262144, .i1⟩
  | 37 => ⟨S_, .i32⟩
  | 38 => ⟨S262144, .i32⟩
  | 39 => ⟨S262144, .i32⟩
  | 40 => ⟨S262144, .i32⟩
  | 41 => ⟨S_, .i32⟩
  | 42 => ⟨S262144, .i32⟩
  | 43 => ⟨S262144, .i1⟩
  | 44 => ⟨S_, .i32⟩
  | 45 => ⟨S262144, .i32⟩
  | 46 => ⟨S262144, .i32⟩
  | 47 => ⟨S262144, .i32⟩
  | 48 => ⟨S262144x1, .i32⟩
  | 49 => ⟨S262144x1, .i32⟩
  | 50 => ⟨S262144x2, .i32⟩
  | 51 => ⟨S_, .f32⟩
  | 52 => ⟨S262144, .f32⟩
  | 53 => ⟨S8192x8192, .f32⟩
  | 54 => ⟨S8192x8192, .i32⟩
  | 55 => ⟨S8192x8192, .i32⟩
  | 56 => ⟨S_, .i32⟩
  | 57 => ⟨S8192x8192, .i32⟩
  | 58 => ⟨S8192x8192, .i32⟩
  | 59 => ⟨S8192x8192, .i1⟩
  | 60 => ⟨S8192x8192, .f32⟩
  | 61 => ⟨S8192x8192, .f32⟩
  | 62 => ⟨S_, .f32⟩
  | 63 => ⟨S8192, .f32⟩
  | 64 => ⟨S8192, .f32⟩
  | 65 => ⟨S_, .f32⟩
  | 66 => ⟨S8192, .f32⟩
  | 67 => ⟨S8192, .f32⟩
  | 68 => ⟨S8192x1, .f32⟩
  | 69 => ⟨S8192x8192, .f32⟩
  | 70 => ⟨S8192x8192, .f32⟩
  | 71 => ⟨S1x8192, .f32⟩
  | 72 => ⟨S8192x8192, .f32⟩
  | 73 => ⟨S8192x8192, .f32⟩
  | 74 => ⟨S8192x512, .f32⟩
  | 75 => ⟨S8192x512, .f32⟩
  | 76 => ⟨S1x512, .f32⟩
  | 77 => ⟨S8192x512, .f32⟩
  | 78 => ⟨S8192x512, .f32⟩
  | 79 => ⟨S_, .f32⟩
  | 80 => ⟨S8192x512, .f32⟩
  | 81 => ⟨S8192x512, .f32⟩
  | 82 => ⟨S_, .f32⟩
  | 83 => ⟨S8192x8192, .f32⟩
  | 84 => ⟨S_, .i32⟩
  | 85 => ⟨S262144, .i32⟩
  | 86 => ⟨S262144, .i1⟩
  | 87 => ⟨S_, .i32⟩
  | 88 => ⟨S262144, .i32⟩
  | 89 => ⟨S262144, .i32⟩
  | 90 => ⟨S262144, .i32⟩
  | 91 => ⟨S_, .i32⟩
  | 92 => ⟨S262144, .i32⟩
  | 93 => ⟨S262144, .i1⟩
  | 94 => ⟨S_, .i32⟩
  | 95 => ⟨S262144, .i32⟩
  | 96 => ⟨S262144, .i32⟩
  | 97 => ⟨S262144, .i32⟩
  | 98 => ⟨S262144x1, .i32⟩
  | 99 => ⟨S262144x1, .i32⟩
  | 100 => ⟨S262144x2, .i32⟩
  | 101 => ⟨S_, .f32⟩
  | 102 => ⟨S262144, .f32⟩
  | 103 => ⟨S8192x8192, .f32⟩
  | 104 => ⟨S_, .i32⟩
  | 105 => ⟨S262144, .i32⟩
  | 106 => ⟨S262144, .i1⟩
  | 107 => ⟨S_, .i32⟩
  | 108 => ⟨S262144, .i32⟩
  | 109 => ⟨S262144, .i32⟩
  | 110 => ⟨S262144, .i32⟩
  | 111 => ⟨S_, .i32⟩
  | 112 => ⟨S262144, .i32⟩
  | 113 => ⟨S262144, .i1⟩
  | 114 => ⟨S_, .i32⟩
  | 115 => ⟨S262144, .i32⟩
  | 116 => ⟨S262144, .i32⟩
  | 117 => ⟨S262144, .i32⟩
  | 118 => ⟨S262144x1, .i32⟩
  | 119 => ⟨S262144x1, .i32⟩
  | 120 => ⟨S262144x2, .i32⟩
  | 121 => ⟨S_, .f32⟩
  | 122 => ⟨S262144, .f32⟩
  | 123 => ⟨S8192x8192, .f32⟩
  | 124 => ⟨S8192x8192, .i32⟩
  | 125 => ⟨S8192x8192, .i32⟩
  | 126 => ⟨S_, .i32⟩
  | 127 => ⟨S8192x8192, .i32⟩
  | _ => ⟨S8192x512, .f32⟩

abbrev hbmTy0_1 (i : Nat) : BufTy := match i % 128 with
  | 0 => ⟨S8192x8192, .i32⟩
  | 1 => ⟨S8192x8192, .i1⟩
  | 2 => ⟨S8192x8192, .f32⟩
  | 3 => ⟨S8192x8192, .f32⟩
  | 4 => ⟨S_, .f32⟩
  | 5 => ⟨S8192, .f32⟩
  | 6 => ⟨S8192, .f32⟩
  | 7 => ⟨S_, .f32⟩
  | 8 => ⟨S8192, .f32⟩
  | 9 => ⟨S8192, .f32⟩
  | 10 => ⟨S8192x1, .f32⟩
  | 11 => ⟨S8192x8192, .f32⟩
  | 12 => ⟨S8192x8192, .f32⟩
  | 13 => ⟨S1x8192, .f32⟩
  | 14 => ⟨S8192x8192, .f32⟩
  | 15 => ⟨S8192x8192, .f32⟩
  | 16 => ⟨S8192x512, .f32⟩
  | 17 => ⟨S8192x512, .f32⟩
  | 18 => ⟨S1x512, .f32⟩
  | 19 => ⟨S8192x512, .f32⟩
  | 20 => ⟨S8192x512, .f32⟩
  | 21 => ⟨S_, .f32⟩
  | 22 => ⟨S8192x512, .f32⟩
  | 23 => ⟨S8192x512, .f32⟩
  | 24 => ⟨S_, .f32⟩
  | 25 => ⟨S8192x8192, .f32⟩
  | 26 => ⟨S_, .i32⟩
  | 27 => ⟨S262144, .i32⟩
  | 28 => ⟨S262144, .i1⟩
  | 29 => ⟨S_, .i32⟩
  | 30 => ⟨S262144, .i32⟩
  | 31 => ⟨S262144, .i32⟩
  | 32 => ⟨S262144, .i32⟩
  | 33 => ⟨S_, .i32⟩
  | 34 => ⟨S262144, .i32⟩
  | 35 => ⟨S262144, .i1⟩
  | 36 => ⟨S_, .i32⟩
  | 37 => ⟨S262144, .i32⟩
  | 38 => ⟨S262144, .i32⟩
  | 39 => ⟨S262144, .i32⟩
  | 40 => ⟨S262144x1, .i32⟩
  | 41 => ⟨S262144x1, .i32⟩
  | 42 => ⟨S262144x2, .i32⟩
  | 43 => ⟨S_, .f32⟩
  | 44 => ⟨S262144, .f32⟩
  | 45 => ⟨S8192x8192, .f32⟩
  | 46 => ⟨S_, .i32⟩
  | 47 => ⟨S262144, .i32⟩
  | 48 => ⟨S262144, .i1⟩
  | 49 => ⟨S_, .i32⟩
  | 50 => ⟨S262144, .i32⟩
  | 51 => ⟨S262144, .i32⟩
  | 52 => ⟨S262144, .i32⟩
  | 53 => ⟨S_, .i32⟩
  | 54 => ⟨S262144, .i32⟩
  | 55 => ⟨S262144, .i1⟩
  | 56 => ⟨S_, .i32⟩
  | 57 => ⟨S262144, .i32⟩
  | 58 => ⟨S262144, .i32⟩
  | 59 => ⟨S262144, .i32⟩
  | 60 => ⟨S262144x1, .i32⟩
  | 61 => ⟨S262144x1, .i32⟩
  | 62 => ⟨S262144x2, .i32⟩
  | 63 => ⟨S_, .f32⟩
  | 64 => ⟨S262144, .f32⟩
  | 65 => ⟨S8192x8192, .f32⟩
  | 66 => ⟨S8192x8192, .i32⟩
  | 67 => ⟨S8192x8192, .i32⟩
  | 68 => ⟨S_, .i32⟩
  | 69 => ⟨S8192x8192, .i32⟩
  | 70 => ⟨S8192x8192, .i32⟩
  | 71 => ⟨S8192x8192, .i1⟩
  | 72 => ⟨S8192x8192, .f32⟩
  | 73 => ⟨S8192x8192, .f32⟩
  | 74 => ⟨S_, .f32⟩
  | 75 => ⟨S8192, .f32⟩
  | 76 => ⟨S8192, .f32⟩
  | 77 => ⟨S_, .f32⟩
  | 78 => ⟨S8192, .f32⟩
  | 79 => ⟨S8192, .f32⟩
  | 80 => ⟨S8192x1, .f32⟩
  | 81 => ⟨S8192x8192, .f32⟩
  | 82 => ⟨S8192x8192, .f32⟩
  | 83 => ⟨S1x8192, .f32⟩
  | 84 => ⟨S8192x8192, .f32⟩
  | 85 => ⟨S8192x8192, .f32⟩
  | 86 => ⟨S8192x256, .f32⟩
  | 87 => ⟨S8192x256, .f32⟩
  | 88 => ⟨S1x256, .f32⟩
  | 89 => ⟨S8192x256, .f32⟩
  | 90 => ⟨S8192x256, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call0_cst : Ref sig .tc := ⟨.hbm, 79, rfl⟩
abbrev main_call0_v0 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_15 : Ref sig .tc := ⟨.hbm, 91, rfl⟩
abbrev main_v64 : Ref sig .tc := ⟨.hbm, 92, rfl⟩
abbrev main_v65 : Ref sig .tc := ⟨.hbm, 93, rfl⟩
abbrev main_c_16 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_17 : Ref sig .tc := ⟨.hbm, 101, rfl⟩
abbrev main_v72 : Ref sig .tc := ⟨.hbm, 102, rfl⟩
abbrev main_v73 : Ref sig .tc := ⟨.hbm, 103, rfl⟩
abbrev main_c_18 : Ref sig .tc := ⟨.hbm, 104, rfl⟩
abbrev main_v74 : Ref sig .tc := ⟨.hbm, 105, rfl⟩
abbrev main_v75 : Ref sig .tc := ⟨.hbm, 106, rfl⟩
abbrev main_c_19 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_20 : Ref sig .tc := ⟨.hbm, 111, rfl⟩
abbrev main_v79 : Ref sig .tc := ⟨.hbm, 112, rfl⟩
abbrev main_v80 : Ref sig .tc := ⟨.hbm, 113, rfl⟩
abbrev main_c_21 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_22 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_23 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_24 : Ref sig .tc := ⟨.hbm, 132, rfl⟩
abbrev main_v96 : Ref sig .tc := ⟨.hbm, 133, rfl⟩
abbrev main_v97 : Ref sig .tc := ⟨.hbm, 134, rfl⟩
abbrev main_cst_25 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_call1_cst : Ref sig .tc := ⟨.hbm, 149, rfl⟩
abbrev main_call1_v0 : Ref sig .tc := ⟨.hbm, 150, rfl⟩
abbrev main_v111 : Ref sig .tc := ⟨.hbm, 151, rfl⟩
abbrev main_cst_26 : Ref sig .tc := ⟨.hbm, 152, rfl⟩
abbrev main_v112 : Ref sig .tc := ⟨.hbm, 153, rfl⟩
abbrev main_c_27 : Ref sig .tc := ⟨.hbm, 154, rfl⟩
abbrev main_v113 : Ref sig .tc := ⟨.hbm, 155, rfl⟩
abbrev main_v114 : Ref sig .tc := ⟨.hbm, 156, rfl⟩
abbrev main_c_28 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_c_29 : Ref sig .tc := ⟨.hbm, 161, rfl⟩
abbrev main_v118 : Ref sig .tc := ⟨.hbm, 162, rfl⟩
abbrev main_v119 : Ref sig .tc := ⟨.hbm, 163, rfl⟩
abbrev main_c_30 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_cst_31 : Ref sig .tc := ⟨.hbm, 171, rfl⟩
abbrev main_v126 : Ref sig .tc := ⟨.hbm, 172, rfl⟩
abbrev main_v127 : Ref sig .tc := ⟨.hbm, 173, rfl⟩
abbrev main_c_32 : Ref sig .tc := ⟨.hbm, 174, rfl⟩
abbrev main_v128 : Ref sig .tc := ⟨.hbm, 175, rfl⟩
abbrev main_v129 : Ref sig .tc := ⟨.hbm, 176, rfl⟩
abbrev main_c_33 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_c_34 : Ref sig .tc := ⟨.hbm, 181, rfl⟩
abbrev main_v133 : Ref sig .tc := ⟨.hbm, 182, rfl⟩
abbrev main_v134 : Ref sig .tc := ⟨.hbm, 183, rfl⟩
abbrev main_c_35 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_36 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_c_37 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_cst_38 : Ref sig .tc := ⟨.hbm, 202, rfl⟩
abbrev main_v150 : Ref sig .tc := ⟨.hbm, 203, rfl⟩
abbrev main_v151 : Ref sig .tc := ⟨.hbm, 204, rfl⟩
abbrev main_cst_39 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  scatter_S8192x8192_S262144x2_S262144_n_01_01_1_wf : ScatterDims.WF S8192x8192 S262144x2 S262144 [] [0, 1] [0, 1] 1
  dot_S8192x512_S512x512_S8192x512_1_0_0_1_n_n_wf : DotDims.WF S8192x512 S512x512 S8192x512 [1] [0] [0] [1] [] []
  dot_S8192x8192_S8192x512_S8192x512_1_0_0_1_n_n_wf : DotDims.WF S8192x8192 S8192x512 S8192x512 [1] [0] [0] [1] [] []
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.FrProjB.lean ====
import proofs.«148437_j67826123538777_1_alg».proof.Proof.Gen.Kernel.Launch
import proofs.«148437_j67826123538777_1_alg».proof.Proof.Gen.Kernel.Skeleton
import proofs.«148437_j67826123538777_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-
  The three projection regions of the network (h · W on blocks of 1024 rows), each at a PARAMETER `V`: the TensorCore's
  buffer contents when the region is entered. Per region: the windows' blocks, what the body leaves in the output block,
  the body's triple, the proof data and the body obligation at every grid point.
-/
section Regions
variable (V : (c : Dev nD) → (b : Ref sig .tc) → Buf (Elt F) ((c : Thread nD τ).loc b))

/-! # Region 0: a projection h · W on a block of 1024 rows (class A: one control case) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rX0 : Rect S1024x512 := Rect.unit (s := S1024x512) ![0, 0] S1024x512.size inb_S1024x512_S1024x512_0_0
abbrev rW0 : Rect S512x512 := Rect.unit (s := S512x512) ![0, 0] S512x512.size inb_S512x512_S512x512_0_0
abbrev rO0 : Rect S1024x512 := Rect.unit (s := S1024x512) ![0, 0] S1024x512.size inb_S1024x512_S1024x512_0_0

/-- The output block after the body: the product of the row block and the weights, stored whole. -/
def out0_2 (x0 : Vec F S1024x512 .f32) (x1 : Vec F S512x512 .f32) : Vec F S1024x512 .bf16 :=
  View.canon [⟨rO0, k0_pay1 (View.ld x0 rX0) (View.ld x1 rW0)⟩]

theorem cover0_2 (p0 : Vec F S1024x512 .bf16) (y : S1024x512.Idx) :
    ∃ pc ∈ ([⟨rO0, p0⟩] : List (View.Piece (Elt F) S1024x512 .bf16)), y ∈ pc.1.set :=
  View.cover_of_tiled [⟨rO0, p0⟩] S1024x512.size (by rfl) y

set_option maxHeartbeats 1000000 in
/-- The body on whole staging memrefs: the inputs kept, the output block left at the product. -/
theorem sound_kernel0 (c : Dev nD) (E : Set ℕ) (i : grid0.Coords) (arg1 : Memref sig .tc .vmem S1024x512 .f32) (harg1 : arg1.IsWhole) (arg2 : Memref sig .tc .vmem S512x512 .f32) (harg2 : arg2.IsWhole) (arg3 : Memref sig .tc .vmem S1024x512 .bf16) (harg3 : arg3.IsWhole)
    (x0 : Vec F S1024x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region on core `c`: the arrays as the region finds them; after the body each input's buffer at
    its block and the output's at the product of the two; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # Region 2: a projection h · W on a block of 1024 rows (class A: one control case) -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix's staging buffer holds the whole matrix at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev rX2 : Rect S1024x512 := Rect.unit (s := S1024x512) ![0, 0] S1024x512.size inb_S1024x512_S1024x512_0_0
abbrev rW2 : Rect S512x512 := Rect.unit (s := S512x512) ![0, 0] S512x512.size inb_S512x512_S512x512_0_0
abbrev rO2 : Rect S1024x512 := Rect.unit (s := S1024x512) ![0, 0] S1024x512.size inb_S1024x512_S1024x512_0_0

/-- The output block after the body: the product of the row block and the weights, stored whole. -/
def out2_2 (x0 : Vec F S1024x512 .bf16) (x1 : Vec F S512x512 .f32) : Vec F S1024x512 .bf16 :=
  View.canon [⟨rO2, k2_pay1 (View.ld x0 rX2) (View.ld x1 rW2)⟩]

theorem cover2_2 (p0 : Vec F S1024x512 .bf16) (y : S1024x512.Idx) :
    ∃ pc ∈ ([⟨rO2, p0⟩] : List (View.Piece (Elt F) S1024x512 .bf16)), y ∈ pc.1.set :=
  View.cover_of_tiled [⟨rO2, p0⟩] S1024x512.size (by rfl) y

set_option maxHeartbeats 1000000 in
/-- The body on whole staging memrefs: the inputs kept, the output block left at the product. -/
theorem sound_kernel2 (c : Dev nD) (E : Set ℕ) (i : grid2.Coords) (arg1 : Memref sig .tc .vmem S1024x512 .bf16) (harg1 : arg1.IsWhole) (arg2 : Memref sig .tc .vmem S512x512 .f32) (harg2 : arg2.IsWhole) (arg3 : Memref sig .tc .vmem S1024x512 .bf16) (harg3 : arg3.IsWhole)
    (x0 : Vec F S1024x512 .bf16) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__proj_kernel i arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the region on core `c`: the arrays as the region finds them; after the body each input's buffer at
    its block and the output's at the product of the two; the class invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

/-! # Region 4: a projection h · W on a block of 1024 rows (class A: one control case) -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row block's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight matrix's staging buffer holds the whole matrix at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev rX4 : Rect S1024x512 := Rect.unit (s := S1024x512) ![0, 0] S1024x512.size inb_S1024x512_S1024x512_0_0
abbrev rW4 : Rect S512x256 := Rect.unit (s := S512x256) ![0, 0] S512x256.size inb_S512x256_S512x256_0_0
abbrev rO4 : Rect S1024x256 := Rect.unit (s := S1024x256) ![0, 0] S1024x256.size inb_S1024x256_S1024x256_0_0

/-- The output block after the body: the product of the row block and the weights, stored whole. -/
def out4_2 (x0 : Vec F S1024x512 .bf16) (x1 : Vec F S512x256 .f32) : Vec F S1024x256 .bf16 :=
  View.canon [⟨rO4, k4_pay1 (View.ld x0 rX4) (View.ld x1 rW4)⟩]

theorem cover4_2 (p0 : Vec F S1024x256 .bf16) (y : S1024x256.Idx) :
    ∃ pc ∈ ([⟨rO4, p0⟩] : List (View.Piece (Elt F) S1024x256 .bf16)), y ∈ pc.1.set :=
  View.cover_of_tiled [⟨rO4, p0⟩] S1024x256.size (by rfl) y

set_option maxHeartbeats 1000000 in
/-- The body on whole staging memrefs: the inputs kept, the output block left at the product. -/
theorem sound_kernel4 (c : Dev nD) (E : Set ℕ) (i : grid4.Coords) (arg1 : Memref sig .tc .vmem S1024x512 .bf16) (harg1 : arg1.IsWhole) (arg2 : Memref sig .tc .vmem S512x256 .f32) (harg2 : arg2.IsWhole) (arg3 : Memref sig .tc .vmem S1024x256 .bf16) (harg3 : arg3.IsWhole)
    (x0 : Vec F S1024x512 .bf16) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__proj_kernel i arg1 harg1 arg2 harg2 arg3 harg3) K := by
  simp only [cc4__proj_kernel_eq_skeleton]; unfold cc4__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of the region on core `c`: the arrays as the region finds them; after the body each input's buffer at
    its block and the output's at the product of the two; the class invariant; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Regions

end Cert.Kernel.Fr

end
-- ==== Proof.FrAggRuns1B.lean ====
import proofs.«148437_j67826123538777_1_alg».proof.Proof.Gen.Kernel.Launch
import proofs.«148437_j67826123538777_1_alg».proof.Proof.Gen.Kernel.Skeleton
import proofs.«148437_j67826123538777_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 1: an aggregation A · P + b accumulated over 8 column blocks of A (class R: a scratch carried between points) -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's first condition: the column-block coordinate is 0 (the accumulator is cleared). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The body's second condition: the column-block coordinate is the last one (the result is stored). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

abbrev VO1_3 : View sig .tc .vmem S1024x512 .bf16 := (Memref.whole cc1_stg3_0 : Memref sig .tc .vmem S1024x512 .bf16).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .bf16 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1024x512 .f32 := Memref.whole cc1_scratch0
abbrev VS1_0 : View sig .tc .vmem S1024x512 .f32 := scM1_0.view

/-- The class invariant with the accumulator split off as a memref owned at some contents. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

set_option maxHeartbeats 2000000 in
/-- The body at a FIRST column block (the accumulator cleared, then the block's product added; nothing stored into the
    output, which is handed back untouched): the pieces the accumulator ends with, found by the run. -/
noncomputable def kernelRun1_A (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : cond1_0 i) (hc1 : ¬cond1_1 i)
    (x0 : Vec F S1024x1024 .bf16) (x1 : Vec F S1024x512 .bf16) (x2 : Vec F S1x512 .f32) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_agg_kernel i arg2 harg2 arg3 harg3 arg4 harg4 arg5 harg5 arg6 harg6) K } := by
  refine ⟨[], ?_, fun xi3 E K => ?run⟩
  case run =>
    simp only [cc1_agg_kernel_eq_skeleton]; unfold cc1_agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- The body at a MIDDLE column block (the block's product added to what the point before left in the accumulator). -/
noncomputable def kernelRun1_B (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond1_0 i) (hc1 : ¬cond1_1 i)
    (x0 : Vec F S1024x1024 .bf16) (x1 : Vec F S1024x512 .bf16) (x2 : Vec F S1x512 .f32) (xs0 : Vec F S1024x512 .f32) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_agg_kernel i arg2 harg2 arg3 harg3 arg4 harg4 arg5 harg5 arg6 harg6) K } := by
  refine ⟨[], ?_, fun xi3 E K => ?run⟩
  case run =>
    simp only [cc1_agg_kernel_eq_skeleton]; unfold cc1_agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- The body at a LAST column block (the block's product added, then the bias, and the result stored into the output). -/
noncomputable def kernelRun1_C (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond1_0 i) (hc1 : cond1_1 i)
    (x0 : Vec F S1024x1024 .bf16) (x1 : Vec F S1024x512 .bf16) (x2 : Vec F S1x512 .f32) (xs0 : Vec F S1024x512 .f32) :
    Σ' (L3 : List (View.Piece (Elt F) S1024x512 .bf16)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_agg_kernel i arg2 harg2 arg3 harg3 arg4 harg4 arg5 harg5 arg6 harg6) K } := by
  refine ⟨?_, ?_, fun E K => ?run⟩
  case run =>
    simp only [cc1_agg_kernel_eq_skeleton]; unfold cc1_agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Regions

end Cert.Kernel.Fr

end
-- ==== Proof.FrAgg1B.lean ====
import proofs.«148437_j67826123538777_1_alg».proof.Proof.FrAggRuns1B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- What case A leaves in the output block's buffer: its pieces read back (none: the window is idle there; a placeholder nothing consults). -/
def out1_A_3 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : cond1_0 i) (hc1 : ¬cond1_1 i)
    (x0 : Vec F S1024x1024 .bf16) (x1 : Vec F S1024x512 .bf16) (x2 : Vec F S1x512 .f32) : Vec F S1024x512 .bf16 :=
  VO1_3.read (Elt F) (VO1_3.writes (Elt F) VO1_3.junk (kernelRun1_A c i arg2 harg2 arg3 harg3 arg4 harg4 arg5 harg5 arg6 harg6 hc0 hc1 x0 x1 x2).1)

/-- Case A's pieces for the accumulator cover it. -/
theorem scover1_A_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : cond1_0 i) (hc1 : ¬cond1_1 i)
    (x0 : Vec F S1024x1024 .bf16) (x1 : Vec F S1024x512 .bf16) (x2 : Vec F S1x512 .f32) (y : S1024x512.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x512.size (by sl_kernel_rfl) y

/-- What case A leaves in the accumulator: its pieces read back. -/
def sout1_A_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : cond1_0 i) (hc1 : ¬cond1_1 i)
    (x0 : Vec F S1024x1024 .bf16) (x1 : Vec F S1024x512 .bf16) (x2 : Vec F S1x512 .f32) : Vec F S1024x512 .f32 :=
  VS1_0.read (Elt F) (VS1_0.writes (Elt F) VS1_0.junk (kernelRun1_A c i arg2 harg2 arg3 harg3 arg4 harg4 arg5 harg5 arg6 harg6 hc0 hc1 x0 x1 x2).2.1)

/-- What case B leaves in the output block's buffer: its pieces read back (none: the window is idle there; a placeholder nothing consults). -/
def out1_B_3 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond1_0 i) (hc1 : ¬cond1_1 i)
    (x0 : Vec F S1024x1024 .bf16) (x1 : Vec F S1024x512 .bf16) (x2 : Vec F S1x512 .f32) (xs0 : Vec F S1024x512 .f32) : Vec F S1024x512 .bf16 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the accumulator cover it. -/
theorem scover1_B_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond1_0 i) (hc1 : ¬cond1_1 i)
    (x0 : Vec F S1024x1024 .bf16) (x1 : Vec F S1024x512 .bf16) (x2 : Vec F S1x512 .f32) (xs0 : Vec F S1024x512 .f32) (y : S1024x512.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x512.size (by sl_kernel_rfl) y

/-- What case B leaves in the accumulator: its pieces read back. -/
def sout1_B_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond1_0 i) (hc1 : ¬cond1_1 i)
    (x0 : Vec F S1024x1024 .bf16) (x1 : Vec F S1024x512 .bf16) (x2 : Vec F S1x512 .f32) (xs0 : Vec F S1024x512 .f32) : Vec F S1024x512 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- What case C leaves in the output block's buffer: its pieces read back. -/
def out1_C_3 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond1_0 i) (hc1 : cond1_1 i)
    (x0 : Vec F S1024x1024 .bf16) (x1 : Vec F S1024x512 .bf16) (x2 : Vec F S1x512 .f32) (xs0 : Vec F S1024x512 .f32) : Vec F S1024x512 .bf16 :=
  VO1_3.read (Elt F) (VO1_3.writes (Elt F) VO1_3.junk (kernelRun1_C c i arg2 harg2 arg3 harg3 arg4 harg4 arg5 harg5 arg6 harg6 hc0 hc1 x0 x1 x2 xs0).1)

theorem cover1_C_3 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond1_0 i) (hc1 : cond1_1 i)
    (x0 : Vec F S1024x1024 .bf16) (x1 : Vec F S1024x512 .bf16) (x2 : Vec F S1x512 .f32) (xs0 : Vec F S1024x512 .f32) (y : S1024x512.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x512.size (by sl_kernel_rfl) y

/-- Case C's pieces for the accumulator cover it. -/
theorem scover1_C_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond1_0 i) (hc1 : cond1_1 i)
    (x0 : Vec F S1024x1024 .bf16) (x1 : Vec F S1024x512 .bf16) (x2 : Vec F S1x512 .f32) (xs0 : Vec F S1024x512 .f32) (y : S1024x512.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x512.size (by sl_kernel_rfl) y

/-- What case C leaves in the accumulator: its pieces read back. -/
def sout1_C_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond1_0 i) (hc1 : cond1_1 i)
    (x0 : Vec F S1024x1024 .bf16) (x1 : Vec F S1024x512 .bf16) (x2 : Vec F S1x512 .f32) (xs0 : Vec F S1024x512 .f32) : Vec F S1024x512 .f32 :=
  VS1_0.read (Elt F) (VS1_0.writes (Elt F) VS1_0.junk (kernelRun1_C c i arg2 harg2 arg3 harg3 arg4 harg4 arg5 harg5 arg6 harg6 hc0 hc1 x0 x1 x2 xs0).2.1)

/-- THE ACCUMULATION: what the output block's buffer and the accumulator hold after the body at position `n` — the case
    the column-block coordinate selects, run on the point's blocks, over what the point before left in the accumulator. -/
def outsAt1 (c : Dev nD) : (n : ℕ) → n < cfg1.N → Vec F S1024x512 .bf16 × Vec F S1024x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left in it, the other scoped buffers at anything, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2))
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2))
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the column-block coordinate says which case the point is
    in; the invariant hands the body the accumulator at what the point before left and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 8 = 0
  · by_cases h1 : t.val % 8 = 7
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hrest⟩, Hg⟩
  isplitl [HS0 Hrest]
  · isplitl [HS0]
    · iexists _; iexact HS0
    iexact Hrest
  iexact Hg

end Regions

end Cert.Kernel.Fr

end
-- ==== Proof.FrAggRuns3B.lean ====
import proofs.«148437_j67826123538777_1_alg».proof.Proof.Gen.Kernel.Launch
import proofs.«148437_j67826123538777_1_alg».proof.Proof.Gen.Kernel.Skeleton
import proofs.«148437_j67826123538777_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 3: an aggregation A · P + b accumulated over 8 column blocks of A (class R: a scratch carried between points) -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The body's first condition: the column-block coordinate is 0 (the accumulator is cleared). -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)
/-- The body's second condition: the column-block coordinate is the last one (the result is stored). -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
theorem liveAt3_3_C : ∀ t : Fin cfg3.N, ¬cond3_0 (grid3.coords t) → cond3_1 (grid3.coords t) → cfg3.idle 3 (grid3.coords t) = false := by decide +kernel

abbrev VO3_3 : View sig .tc .vmem S1024x512 .bf16 := (Memref.whole cc3_stg3_0 : Memref sig .tc .vmem S1024x512 .bf16).view
abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x512 .bf16 := win3_3.stage (cfg3.slots t 3)
abbrev hs3_3 (t : Fin cfg3.N) : (ms3_3 t).IsWhole := hstage3_3 ((cfg3.slots t 3).cast nbuf3_3)
/-- The accumulator: a whole scoped buffer of the kernel's own, passed beside the windows. -/
abbrev scM3_0 : Memref sig .tc .vmem S1024x512 .f32 := Memref.whole cc3_scratch0
abbrev VS3_0 : View sig .tc .vmem S1024x512 .f32 := scM3_0.view

/-- The class invariant with the accumulator split off as a memref owned at some contents. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

set_option maxHeartbeats 2000000 in
/-- The body at a FIRST column block (the accumulator cleared, then the block's product added; nothing stored into the
    output, which is handed back untouched): the pieces the accumulator ends with, found by the run. -/
noncomputable def kernelRun3_A (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : cond3_0 i) (hc1 : ¬cond3_1 i)
    (x0 : Vec F S1024x1024 .bf16) (x1 : Vec F S1024x512 .bf16) (x2 : Vec F S1x512 .f32) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3_agg_kernel i arg2 harg2 arg3 harg3 arg4 harg4 arg5 harg5 arg6 harg6) K } := by
  refine ⟨[], ?_, fun xi3 E K => ?run⟩
  case run =>
    simp only [cc3_agg_kernel_eq_skeleton]; unfold cc3_agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- The body at a MIDDLE column block (the block's product added to what the point before left in the accumulator). -/
noncomputable def kernelRun3_B (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond3_0 i) (hc1 : ¬cond3_1 i)
    (x0 : Vec F S1024x1024 .bf16) (x1 : Vec F S1024x512 .bf16) (x2 : Vec F S1x512 .f32) (xs0 : Vec F S1024x512 .f32) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3_agg_kernel i arg2 harg2 arg3 harg3 arg4 harg4 arg5 harg5 arg6 harg6) K } := by
  refine ⟨[], ?_, fun xi3 E K => ?run⟩
  case run =>
    simp only [cc3_agg_kernel_eq_skeleton]; unfold cc3_agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- The body at a LAST column block (the block's product added, then the bias, and the result stored into the output). -/
noncomputable def kernelRun3_C (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond3_0 i) (hc1 : cond3_1 i)
    (x0 : Vec F S1024x1024 .bf16) (x1 : Vec F S1024x512 .bf16) (x2 : Vec F S1x512 .f32) (xs0 : Vec F S1024x512 .f32) :
    Σ' (L3 : List (View.Piece (Elt F) S1024x512 .bf16)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3_agg_kernel i arg2 harg2 arg3 harg3 arg4 harg4 arg5 harg5 arg6 harg6) K } := by
  refine ⟨?_, ?_, fun E K => ?run⟩
  case run =>
    simp only [cc3_agg_kernel_eq_skeleton]; unfold cc3_agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Regions

end Cert.Kernel.Fr

end
-- ==== Proof.FrAgg3B.lean ====
import proofs.«148437_j67826123538777_1_alg».proof.Proof.FrAggRuns3B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- What case A leaves in the output block's buffer: its pieces read back (none: the window is idle there; a placeholder nothing consults). -/
def out3_A_3 (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : cond3_0 i) (hc1 : ¬cond3_1 i)
    (x0 : Vec F S1024x1024 .bf16) (x1 : Vec F S1024x512 .bf16) (x2 : Vec F S1x512 .f32) : Vec F S1024x512 .bf16 :=
  VO3_3.read (Elt F) (VO3_3.writes (Elt F) VO3_3.junk (kernelRun3_A c i arg2 harg2 arg3 harg3 arg4 harg4 arg5 harg5 arg6 harg6 hc0 hc1 x0 x1 x2).1)

/-- Case A's pieces for the accumulator cover it. -/
theorem scover3_A_0 (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : cond3_0 i) (hc1 : ¬cond3_1 i)
    (x0 : Vec F S1024x1024 .bf16) (x1 : Vec F S1024x512 .bf16) (x2 : Vec F S1x512 .f32) (y : S1024x512.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S1024x512.size (by sl_kernel_rfl) y

/-- What case A leaves in the accumulator: its pieces read back. -/
def sout3_A_0 (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : cond3_0 i) (hc1 : ¬cond3_1 i)
    (x0 : Vec F S1024x1024 .bf16) (x1 : Vec F S1024x512 .bf16) (x2 : Vec F S1x512 .f32) : Vec F S1024x512 .f32 :=
  VS3_0.read (Elt F) (VS3_0.writes (Elt F) VS3_0.junk (kernelRun3_A c i arg2 harg2 arg3 harg3 arg4 harg4 arg5 harg5 arg6 harg6 hc0 hc1 x0 x1 x2).2.1)

/-- What case B leaves in the output block's buffer: its pieces read back (none: the window is idle there; a placeholder nothing consults). -/
def out3_B_3 (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond3_0 i) (hc1 : ¬cond3_1 i)
    (x0 : Vec F S1024x1024 .bf16) (x1 : Vec F S1024x512 .bf16) (x2 : Vec F S1x512 .f32) (xs0 : Vec F S1024x512 .f32) : Vec F S1024x512 .bf16 :=
  VO3_3.read (Elt F) (VO3_3.writes (Elt F) VO3_3.junk (kernelRun3_B c i arg2 harg2 arg3 harg3 arg4 harg4 arg5 harg5 arg6 harg6 hc0 hc1 x0 x1 x2 xs0).1)

/-- Case B's pieces for the accumulator cover it. -/
theorem scover3_B_0 (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond3_0 i) (hc1 : ¬cond3_1 i)
    (x0 : Vec F S1024x1024 .bf16) (x1 : Vec F S1024x512 .bf16) (x2 : Vec F S1x512 .f32) (xs0 : Vec F S1024x512 .f32) (y : S1024x512.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S1024x512.size (by sl_kernel_rfl) y

/-- What case B leaves in the accumulator: its pieces read back. -/
def sout3_B_0 (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond3_0 i) (hc1 : ¬cond3_1 i)
    (x0 : Vec F S1024x1024 .bf16) (x1 : Vec F S1024x512 .bf16) (x2 : Vec F S1x512 .f32) (xs0 : Vec F S1024x512 .f32) : Vec F S1024x512 .f32 :=
  VS3_0.read (Elt F) (VS3_0.writes (Elt F) VS3_0.junk (kernelRun3_B c i arg2 harg2 arg3 harg3 arg4 harg4 arg5 harg5 arg6 harg6 hc0 hc1 x0 x1 x2 xs0).2.1)

/-- What case C leaves in the output block's buffer: its pieces read back. -/
def out3_C_3 (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond3_0 i) (hc1 : cond3_1 i)
    (x0 : Vec F S1024x1024 .bf16) (x1 : Vec F S1024x512 .bf16) (x2 : Vec F S1x512 .f32) (xs0 : Vec F S1024x512 .f32) : Vec F S1024x512 .bf16 :=
  VO3_3.read (Elt F) (VO3_3.writes (Elt F) VO3_3.junk (kernelRun3_C c i arg2 harg2 arg3 harg3 arg4 harg4 arg5 harg5 arg6 harg6 hc0 hc1 x0 x1 x2 xs0).1)

theorem cover3_C_3 (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond3_0 i) (hc1 : cond3_1 i)
    (x0 : Vec F S1024x1024 .bf16) (x1 : Vec F S1024x512 .bf16) (x2 : Vec F S1x512 .f32) (xs0 : Vec F S1024x512 .f32) (y : S1024x512.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S1024x512.size (by sl_kernel_rfl) y

/-- Case C's pieces for the accumulator cover it. -/
theorem scover3_C_0 (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond3_0 i) (hc1 : cond3_1 i)
    (x0 : Vec F S1024x1024 .bf16) (x1 : Vec F S1024x512 .bf16) (x2 : Vec F S1x512 .f32) (xs0 : Vec F S1024x512 .f32) (y : S1024x512.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S1024x512.size (by sl_kernel_rfl) y

/-- What case C leaves in the accumulator: its pieces read back. -/
def sout3_C_0 (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond3_0 i) (hc1 : cond3_1 i)
    (x0 : Vec F S1024x1024 .bf16) (x1 : Vec F S1024x512 .bf16) (x2 : Vec F S1x512 .f32) (xs0 : Vec F S1024x512 .f32) : Vec F S1024x512 .f32 :=
  VS3_0.read (Elt F) (VS3_0.writes (Elt F) VS3_0.junk (kernelRun3_C c i arg2 harg2 arg3 harg3 arg4 harg4 arg5 harg5 arg6 harg6 hc0 hc1 x0 x1 x2 xs0).2.1)

/-- THE ACCUMULATION: what the output block's buffer and the accumulator hold after the body at position `n` — the case
    the column-block coordinate selects, run on the point's blocks, over what the point before left in the accumulator. -/
def outsAt3 (c : Dev nD) : (n : ℕ) → n < cfg3.N → Vec F S1024x512 .bf16 × Vec F S1024x512 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      if h1 : (n + 1) % 8 = 7 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 8 = 0) (h1 : ¬t.val % 8 = 7) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left in it, the other scoped buffers at anything, the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2))
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2))
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The proof data of the region on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 8000000 in
/-- The body at any point: the inputs' memrefs hold their blocks; the column-block coordinate says which case the point is
    in; the invariant hands the body the accumulator at what the point before left and takes it back at this point's. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hN : t.val < 64 := lt_of_lt_of_eq t.isLt (show cfg3.N = 64 from N_3)
  by_cases h0 : t.val % 8 = 0
  · by_cases h1 : t.val % 8 = 7
    · exfalso; omega
    · rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, Hrest⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover3_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, Hrest⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover3_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    · rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the accumulator's named contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 64 := N_3; omega), PhiA3_eq]
  iintro ⟨⟨HS0, Hrest⟩, Hg⟩
  isplitl [HS0 Hrest]
  · isplitl [HS0]
    · iexists _; iexact HS0
    iexact Hrest
  iexact Hg

end Regions

end Cert.Kernel.Fr

end
-- ==== Proof.FrAggRuns5B.lean ====
import proofs.«148437_j67826123538777_1_alg».proof.Proof.Gen.Kernel.Launch
import proofs.«148437_j67826123538777_1_alg».proof.Proof.Gen.Kernel.Skeleton
import proofs.«148437_j67826123538777_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 5: an aggregation A · P + b accumulated over 8 column blocks of A (class R: a scratch carried between points) -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The body's first condition: the column-block coordinate is 0 (the accumulator is cleared). -/
abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 8 = 0 :=
  (by decide +kernel : ∀ t : Fin grid5.N, cond5_0 (grid5.coords t) ↔ t.val % 8 = 0)
/-- The body's second condition: the column-block coordinate is the last one (the result is stored). -/
abbrev cond5_1 (i : grid5.Coords) : Prop := k5_cond2 i = 1#1
theorem hcond5_1 : ∀ t : Fin cfg5.N, cond5_1 (grid5.coords t) ↔ t.val % 8 = 7 :=
  (by decide +kernel : ∀ t : Fin grid5.N, cond5_1 (grid5.coords t) ↔ t.val % 8 = 7)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem idleAt5_3_A : ∀ t : Fin cfg5.N, cond5_0 (grid5.coords t) → ¬cond5_1 (grid5.coords t) → cfg5.idle 3 (grid5.coords t) = true := by decide +kernel
theorem noFlush5_3_A : ∀ t : Fin cfg5.N, cond5_0 (grid5.coords t) → ¬cond5_1 (grid5.coords t) → (cfg5.win 3).flush t = false := by decide +kernel
theorem idleAt5_3_B : ∀ t : Fin cfg5.N, ¬cond5_0 (grid5.coords t) → ¬cond5_1 (grid5.coords t) → cfg5.idle 3 (grid5.coords t) = true := by decide +kernel
theorem noFlush5_3_B : ∀ t : Fin cfg5.N, ¬cond5_0 (grid5.coords t) → ¬cond5_1 (grid5.coords t) → (cfg5.win 3).flush t = false := by decide +kernel
theorem liveAt5_3_C : ∀ t : Fin cfg5.N, ¬cond5_0 (grid5.coords t) → cond5_1 (grid5.coords t) → cfg5.idle 3 (grid5.coords t) = false := by decide +kernel

abbrev VO5_3 : View sig .tc .vmem S1024x256 .f32 := (Memref.whole cc5_stg3_0 : Memref sig .tc .vmem S1024x256 .f32).view
abbrev ms5_0 (t : Fin cfg5.N) : Memref sig .tc .vmem S1024x1024 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x256 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x256 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x256 .f32 := win5_3.stage (cfg5.slots t 3)
abbrev hs5_3 (t : Fin cfg5.N) : (ms5_3 t).IsWhole := hstage5_3 ((cfg5.slots t 3).cast nbuf5_3)
/-- The accumulator: a whole scoped buffer of the kernel's own, passed beside the windows. -/
abbrev scM5_0 : Memref sig .tc .vmem S1024x256 .f32 := Memref.whole cc5_scratch0
abbrev VS5_0 : View sig .tc .vmem S1024x256 .f32 := scM5_0.view

/-- The class invariant with the accumulator split off as a memref owned at some contents. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

set_option maxHeartbeats 2000000 in
/-- The body at a FIRST column block (the accumulator cleared, then the block's product added; nothing stored into the
    output, which is handed back untouched): the pieces the accumulator ends with, found by the run. -/
noncomputable def kernelRun5_A (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond5_0 i) (hc1 : ¬cond5_1 i)
    (x0 : Vec F S1024x1024 .bf16) (x1 : Vec F S1024x256 .bf16) (x2 : Vec F S1x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5_agg_kernel i arg2 harg2 arg3 harg3 arg4 harg4 arg5 harg5 arg6 harg6) K } := by
  refine ⟨[], ?_, fun xi3 E K => ?run⟩
  case run =>
    simp only [cc5_agg_kernel_eq_skeleton]; unfold cc5_agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- The body at a MIDDLE column block (the block's product added to what the point before left in the accumulator). -/
noncomputable def kernelRun5_B (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond5_0 i) (hc1 : ¬cond5_1 i)
    (x0 : Vec F S1024x1024 .bf16) (x1 : Vec F S1024x256 .bf16) (x2 : Vec F S1x256 .f32) (xs0 : Vec F S1024x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5_agg_kernel i arg2 harg2 arg3 harg3 arg4 harg4 arg5 harg5 arg6 harg6) K } := by
  refine ⟨[], ?_, fun xi3 E K => ?run⟩
  case run =>
    simp only [cc5_agg_kernel_eq_skeleton]; unfold cc5_agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- The body at a LAST column block (the block's product added, then the bias, and the result stored into the output). -/
noncomputable def kernelRun5_C (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond5_0 i) (hc1 : cond5_1 i)
    (x0 : Vec F S1024x1024 .bf16) (x1 : Vec F S1024x256 .bf16) (x2 : Vec F S1x256 .f32) (xs0 : Vec F S1024x256 .f32) :
    Σ' (L3 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5_agg_kernel i arg2 harg2 arg3 harg3 arg4 harg4 arg5 harg5 arg6 harg6) K } := by
  refine ⟨?_, ?_, fun E K => ?run⟩
  case run =>
    simp only [cc5_agg_kernel_eq_skeleton]; unfold cc5_agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Regions

end Cert.Kernel.Fr

end
-- ==== Proof.FrAgg5B.lean ====
import proofs.«148437_j67826123538777_1_alg».proof.Proof.FrAggRuns5B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- What case A leaves in the output block's buffer: its pieces read back (none: the window is idle there; a placeholder nothing consults). -/
def out5_A_3 (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond5_0 i) (hc1 : ¬cond5_1 i)
    (x0 : Vec F S1024x1024 .bf16) (x1 : Vec F S1024x256 .bf16) (x2 : Vec F S1x256 .f32) : Vec F S1024x256 .f32 :=
  VO5_3.read (Elt F) (VO5_3.writes (Elt F) VO5_3.junk (kernelRun5_A c i arg2 harg2 arg3 harg3 arg4 harg4 arg5 harg5 arg6 harg6 hc0 hc1 x0 x1 x2).1)

/-- Case A's pieces for the accumulator cover it. -/
theorem scover5_A_0 (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond5_0 i) (hc1 : ¬cond5_1 i)
    (x0 : Vec F S1024x1024 .bf16) (x1 : Vec F S1024x256 .bf16) (x2 : Vec F S1x256 .f32) (y : S1024x256.Idx) :
    ∃ pc ∈ (kernelRun5_A c i arg2 harg2 arg3 harg3 arg4 harg4 arg5 harg5 arg6 harg6 hc0 hc1 x0 x1 x2).2.1, y ∈ pc.1.set :=
  View.cover_of_tiledL (kernelRun5_A c i arg2 harg2 arg3 harg3 arg4 harg4 arg5 harg5 arg6 harg6 hc0 hc1 x0 x1 x2).2.1 S1024x256.size (by sl_kernel_rfl) y

/-- What case A leaves in the accumulator: its pieces read back. -/
def sout5_A_0 (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond5_0 i) (hc1 : ¬cond5_1 i)
    (x0 : Vec F S1024x1024 .bf16) (x1 : Vec F S1024x256 .bf16) (x2 : Vec F S1x256 .f32) : Vec F S1024x256 .f32 :=
  VS5_0.read (Elt F) (VS5_0.writes (Elt F) VS5_0.junk (kernelRun5_A c i arg2 harg2 arg3 harg3 arg4 harg4 arg5 harg5 arg6 harg6 hc0 hc1 x0 x1 x2).2.1)

/-- What case B leaves in the output block's buffer: its pieces read back (none: the window is idle there; a placeholder nothing consults). -/
def out5_B_3 (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond5_0 i) (hc1 : ¬cond5_1 i)
    (x0 : Vec F S1024x1024 .bf16) (x1 : Vec F S1024x256 .bf16) (x2 : Vec F S1x256 .f32) (xs0 : Vec F S1024x256 .f32) : Vec F S1024x256 .f32 :=
  VO5_3.read (Elt F) (VO5_3.writes (Elt F) VO5_3.junk (kernelRun5_B c i arg2 harg2 arg3 harg3 arg4 harg4 arg5 harg5 arg6 harg6 hc0 hc1 x0 x1 x2 xs0).1)

/-- Case B's pieces for the accumulator cover it. -/
theorem scover5_B_0 (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond5_0 i) (hc1 : ¬cond5_1 i)
    (x0 : Vec F S1024x1024 .bf16) (x1 : Vec F S1024x256 .bf16) (x2 : Vec F S1x256 .f32) (xs0 : Vec F S1024x256 .f32) (y : S1024x256.Idx) :
    ∃ pc ∈ (kernelRun5_B c i arg2 harg2 arg3 harg3 arg4 harg4 arg5 harg5 arg6 harg6 hc0 hc1 x0 x1 x2 xs0).2.1, y ∈ pc.1.set :=
  View.cover_of_tiledL (kernelRun5_B c i arg2 harg2 arg3 harg3 arg4 harg4 arg5 harg5 arg6 harg6 hc0 hc1 x0 x1 x2 xs0).2.1 S1024x256.size (by sl_kernel_rfl) y

/-- What case B leaves in the accumulator: its pieces read back. -/
def sout5_B_0 (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond5_0 i) (hc1 : ¬cond5_1 i)
    (x0 : Vec F S1024x1024 .bf16) (x1 : Vec F S1024x256 .bf16) (x2 : Vec F S1x256 .f32) (xs0 : Vec F S1024x256 .f32) : Vec F S1024x256 .f32 :=
  VS5_0.read (Elt F) (VS5_0.writes (Elt F) VS5_0.junk (kernelRun5_B c i arg2 harg2 arg3 harg3 arg4 harg4 arg5 harg5 arg6 harg6 hc0 hc1 x0 x1 x2 xs0).2.1)

/-- What case C leaves in the output block's buffer: its pieces read back. -/
def out5_C_3 (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond5_0 i) (hc1 : cond5_1 i)
    (x0 : Vec F S1024x1024 .bf16) (x1 : Vec F S1024x256 .bf16) (x2 : Vec F S1x256 .f32) (xs0 : Vec F S1024x256 .f32) : Vec F S1024x256 .f32 :=
  VO5_3.read (Elt F) (VO5_3.writes (Elt F) VO5_3.junk (kernelRun5_C c i arg2 harg2 arg3 harg3 arg4 harg4 arg5 harg5 arg6 harg6 hc0 hc1 x0 x1 x2 xs0).1)

theorem cover5_C_3 (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond5_0 i) (hc1 : cond5_1 i)
    (x0 : Vec F S1024x1024 .bf16) (x1 : Vec F S1024x256 .bf16) (x2 : Vec F S1x256 .f32) (xs0 : Vec F S1024x256 .f32) (y : S1024x256.Idx) :
    ∃ pc ∈ (kernelRun5_C c i arg2 harg2 arg3 harg3 arg4 harg4 arg5 harg5 arg6 harg6 hc0 hc1 x0 x1 x2 xs0).1, y ∈ pc.1.set :=
  View.cover_of_tiledL (kernelRun5_C c i arg2 harg2 arg3 harg3 arg4 harg4 arg5 harg5 arg6 harg6 hc0 hc1 x0 x1 x2 xs0).1 S1024x256.size (by sl_kernel_rfl) y

/-- Case C's pieces for the accumulator cover it. -/
theorem scover5_C_0 (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond5_0 i) (hc1 : cond5_1 i)
    (x0 : Vec F S1024x1024 .bf16) (x1 : Vec F S1024x256 .bf16) (x2 : Vec F S1x256 .f32) (xs0 : Vec F S1024x256 .f32) (y : S1024x256.Idx) :
    ∃ pc ∈ (kernelRun5_C c i arg2 harg2 arg3 harg3 arg4 harg4 arg5 harg5 arg6 harg6 hc0 hc1 x0 x1 x2 xs0).2.1, y ∈ pc.1.set :=
  View.cover_of_tiledL (kernelRun5_C c i arg2 harg2 arg3 harg3 arg4 harg4 arg5 harg5 arg6 harg6 hc0 hc1 x0 x1 x2 xs0).2.1 S1024x256.size (by sl_kernel_rfl) y

/-- What case C leaves in the accumulator: its pieces read back. -/
def sout5_C_0 (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond5_0 i) (hc1 : cond5_1 i)
    (x0 : Vec F S1024x1024 .bf16) (x1 : Vec F S1024x256 .bf16) (x2 : Vec F S1x256 .f32) (xs0 : Vec F S1024x256 .f32) : Vec F S1024x256 .f32 :=
  VS5_0.read (Elt F) (VS5_0.writes (Elt F) VS5_0.junk (kernelRun5_C c i arg2 harg2 arg3 harg3 arg4 harg4 arg5 harg5 arg6 harg6 hc0 hc1 x0 x1 x2 xs0).2.1)

/-- THE ACCUMULATION: what the output block's buffer and the accumulator hold after the body at position `n` — the case
    the column-block coordinate selects, run on the point's blocks, over what the point before left in the accumulator. -/
def outsAt5 (c : Dev nD) : (n : ℕ) → n < cfg5.N → Vec F S1024x256 .f32 × Vec F S1024x256 .f32
  | 0, hn => (out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 8 = 0 then
      if h1 : (n + 1) % 8 = 7 then
        False.elim (by omega)
      else
        (out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩))
    else
      if h1 : (n + 1) % 8 = 7 then
        (out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2)
      else
        (out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2)

theorem outsAt5_A (c : Dev nD) (t : Fin cfg5.N) (h0 : t.val % 8 = 0) (h1 : ¬t.val % 8 = 7) :
    outsAt5 V c t.val t.isLt = (out5_A_3 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t), sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_pos h0).trans ((dif_neg h1).trans rfl)

theorem outsAt5_B (c : Dev nD) (t : Fin cfg5.N) (h0 : ¬t.val % 8 = 0) (h1 : ¬t.val % 8 = 7) :
    outsAt5 V c t.val t.isLt = (out5_B_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 8 = 0) (h1 : t.val % 8 = 7) :
    outsAt5 V c t.val t.isLt = (out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left in it, the other scoped buffers at anything, the generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2))
      ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare ((outsAt5 V c n hn).2))
      ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2))
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-- The proof data of the region on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 8000000 in
/-- The body at any point: the inputs' memrefs hold their blocks; the column-block coordinate says which case the point is
    in; the invariant hands the body the accumulator at what the point before left and takes it back at this point's. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  have hN : t.val < 64 := lt_of_lt_of_eq t.isLt (show cfg5.N = 64 from N_5)
  by_cases h0 : t.val % 8 = 0
  · by_cases h1 : t.val % 8 = 7
    · exfalso; omega
    · rw [Dat.leavesExact_idle (dat5 V c) 3 t (idleAt5_3_A t ((hcond5_0 t).mpr h0) (fun h => h1 ((hcond5_1 t).mp h))) (noFlush5_3_A t ((hcond5_0 t).mpr h0) (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, Hrest⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover5_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS5_castSucc V c t, PhiS5_pos V c _ _ hz]
        iintro ⟨⟨⟨HS0, Hrest⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover5_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dat5 V c).leavesExact 3 t = owns (c : Thread nD τ) (ms5_3 t) fullShare ((dat5 V c).after 3 t) from by
        unfold Dat.leavesExact; rw [liveAt5_3_C t (fun h => h0 ((hcond5_0 t).mp h)) ((hcond5_1 t).mpr h1)], after5_3]
      rw [outsAt5_C V c t h0 h1]
      unfold out5_C_3 sout5_C_0; (try dsimp only)
      rw [PhiS5_castSucc V c t, PhiS5_pos V c _ _ hz]
      iintro ⟨⟨⟨HS0, Hrest⟩, Hg⟩, Ho, ⟨%d0, H0⟩, ⟨%d1, H1⟩, ⟨%d2, H2⟩, ⟨%d3, H3⟩⟩
      iapply ((kernelRun5_C c (grid5.coords t) _ _ _ _ _ _ _ _ _ _ (fun h => h0 ((hcond5_0 t).mp h)) ((hcond5_1 t).mpr h1) (iblk5 V c 0 t) (iblk5 V c 1 t) (iblk5 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover5_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover5_C_3 c _ _ _ _ _ _ _ _ _ _ _ _ _ _ _ _ _)
    · rw [Dat.leavesExact_idle (dat5 V c) 3 t (idleAt5_3_B t (fun h => h0 ((hcond5_0 t).mp h)) (fun h => h1 ((hcond5_1 t).mp h))) (noFlush5_3_B t (fun h => h0 ((hcond5_0 t).mp h)) (fun h => h1 ((hcond5_1 t).mp h)))]
      rw [outsAt5_B V c t h0 h1]
      unfold sout5_B_0; (try dsimp only)
      rw [PhiS5_castSucc V c t, PhiS5_pos V c _ _ hz]
      iintro ⟨⟨⟨HS0, Hrest⟩, Hg⟩, Ho, ⟨%d0, H0⟩, ⟨%d1, H1⟩, ⟨%d2, H2⟩, ⟨%d3, H3⟩⟩
      iapply ((kernelRun5_B c (grid5.coords t) _ _ _ _ _ _ _ _ _ _ (fun h => h0 ((hcond5_0 t).mp h)) (fun h => h1 ((hcond5_1 t).mp h)) (iblk5 V c 0 t) (iblk5 V c 1 t) (iblk5 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover5_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the class's back: the accumulator's named contents are forgotten. -/
theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 64 := N_5; omega), PhiA5_eq]
  iintro ⟨⟨HS0, Hrest⟩, Hg⟩
  isplitl [HS0 Hrest]
  · isplitl [HS0]
    · iexists _; iexact HS0
    iexact Hrest
  iexact Hg

end Regions

end Cert.Kernel.Fr

end
-- ==== Proof.FrRunB.lean ====
import proofs.«148437_j67826123538777_1_alg».proof.Proof.FrProjB
import proofs.«148437_j67826123538777_1_alg».proof.Proof.FrAgg1B
import proofs.«148437_j67826123538777_1_alg».proof.Proof.FrAgg3B
import proofs.«148437_j67826123538777_1_alg».proof.Proof.FrAgg5B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-
  THE RUN of the network's @main: a host stretch that builds the normalised adjacency, then per layer a projection region
  and an aggregation region (a reshape of the bias between them). The buffer contents at every boundary are a fold from
  the launch memory; every region is entered at its boundary's contents and left with its arrays at what its write-backs
  leave; the arguments are read back through the fold to their launch contents, and the result is the last region's output
  array.
-/
variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first 60 host operations. -/
abbrev Wa : Dev nD → Valuation τ sig (Elt F) := fun c => StableHlo.after main_part0_ops0 (W0 m ρ c)
/-- After the whole adjacency stretch (region 0's entry). -/
abbrev W1 : Dev nD → Valuation τ sig (Elt F) := fun c => StableHlo.after main_part1_ops0 (Wa m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the bias reshape `main_part1_ops1`. -/
abbrev W3 : Dev nD → Valuation τ sig (Elt F) := fun c => StableHlo.after main_part1_ops1 (W2 m ρ c)
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the bias reshape `main_part1_ops2`. -/
abbrev W6 : Dev nD → Valuation τ sig (Elt F) := fun c => StableHlo.after main_part1_ops2 (W5 m ρ c)
abbrev V6 : (c : Dev nD) → (b : Ref sig .tc) → Buf (Elt F) ((c : Thread nD τ).loc b) := fun c b => W6 m ρ c b

/-- At region 3's exit: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- At region 4's exit: its arrays at what the pipeline leaves, every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- After the bias reshape `main_part1_ops3`. -/
abbrev W9 : Dev nD → Valuation τ sig (Elt F) := fun c => StableHlo.after main_part1_ops3 (W8 m ρ c)
abbrev V9 : (c : Dev nD) → (b : Ref sig .tc) → Buf (Elt F) ((c : Thread nD τ).loc b) := fun c b => W9 m ρ c b

/-- At region 5's exit: its arrays at what the pipeline leaves, every other buffer as entered. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)

/-! ## The proof data family and the thread state -/

abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem main_part1_ops2_fresh : (main_part1_ops2 : List (HloOp τ sig (Elt F))).Forall fun op => op.fresh = ∅ := by
  simp only [List.Forall]; repeat' constructor
theorem main_part1_ops3_fresh : (main_part1_ops3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- REGION 0 over the thread state: entered from every unscoped buffer at its entry boundary's contents, left at its exit's. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at its entry boundary's contents, left at its exit's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last cfg1.N) from rfl]
    have h := hout1 (V3 m ρ) c
    unfold Pipeline.ΦA at h
    iintro H
    ihave H2 := h $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at its entry boundary's contents, left at its exit's. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at its entry boundary's contents, left at its exit's. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V6 m ρ) c).Φ 0 from rfl]
    have h := hin3 (V6 m ρ) c
    unfold Pipeline.ΦA at h
    iintro ⟨Hp, -, Hr⟩
    iapply h
    isplitl [Hr]; · iexact Hr
    iexact Hp
  hout c := by
    rw [Pipeline.ownSems0_none, show (pdats m ρ 3 c).Φ (Fin.last _) = (dat3 (V6 m ρ) c).Φ (Fin.last cfg3.N) from rfl]
    have h := hout3 (V6 m ρ) c
    unfold Pipeline.ΦA at h
    iintro H
    ihave H2 := h $$ H
    icases H2 with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at its entry boundary's contents, left at its exit's. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at its entry boundary's contents, left at its exit's. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (V9 m ρ) c).Φ 0 from rfl]
    have h := hin5 (V9 m ρ) c
    unfold Pipeline.ΦA at h
    iintro ⟨Hp, -, Hr⟩
    iapply h
    isplitl [Hr]; · iexact Hr
    iexact Hp
  hout c := by
    rw [Pipeline.ownSems0_none, show (pdats m ρ 5 c).Φ (Fin.last _) = (dat5 (V9 m ρ) c).Φ (Fin.last cfg5.N) from rfl]
    have h := hout5 (V9 m ρ) c
    unfold Pipeline.ΦA at h
    iintro H
    ihave H2 := h $$ H
    icases H2 with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg main_part0_ops0 main_part0_ops0_sub main_part0_ops0_fresh (W0 m ρ)),
    .host (hseg main_part1_ops0 main_part1_ops0_sub main_part1_ops0_fresh (Wa m ρ)),
    .region (reg0 m ρ),
    .host (hseg main_part1_ops1 main_part1_ops1_sub main_part1_ops1_fresh (W2 m ρ)),
    .region (reg1 m ρ),
    .region (reg2 m ρ),
    .host (hseg main_part1_ops2 main_part1_ops2_sub main_part1_ops2_fresh (W5 m ρ)),
    .region (reg3 m ρ),
    .region (reg4 m ρ),
    .host (hseg main_part1_ops3 main_part1_ops3_sub main_part1_ops3_fresh (W8 m ρ)),
    .region (reg5 m ρ) ]
theorem main_run (c : Dev nD) : main (F := F) c = Pipeline.Seg.run (segs m ρ) := (main_chain_windows c).trans (by chain_rfl)

set_option backward.isDefEq.respectTransparency.types false in
/-- THE RUN: from any memory with zero counters every weakly fair execution of @main on the TensorCores terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.Kernel.Fr

end
-- ==== Proof.FrArgsB.lean ====
import proofs.«148437_j67826123538777_1_alg».proof.Proof.FrRunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-
  The arguments end as launched: no host operation and no region writes one (a region reads it through an input window
  or bypasses it), so the fold at an argument's buffer walks back to the launch memory; and the frame claim's post read
  off the run.
-/
variable (m : (ℓ : Loc nD τ sig) → Buf (Elt F) ℓ) (ρ : Dev nD → PrngReg)

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := StableHlo.after_of_forall_not_mem (b := Proc.devRef .tc main_arg0) _ _ (List.forall_iff_forall_mem.mp (by
          simp only [main_part1_ops3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := StableHlo.after_of_forall_not_mem (b := Proc.devRef .tc main_arg0) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = Wa m ρ c (Proc.devRef .tc main_arg0) := StableHlo.after_of_forall_not_mem (b := Proc.devRef .tc main_arg0) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [main_part1_ops3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := StableHlo.after_of_forall_not_mem (b := Proc.devRef .tc main_arg1) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = Wa m ρ c (Proc.devRef .tc main_arg1) := StableHlo.after_of_forall_not_mem (b := Proc.devRef .tc main_arg1) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [main_part1_ops3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := StableHlo.after_of_forall_not_mem (b := Proc.devRef .tc main_arg2) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat0 (V1 m ρ) c).arrAt_in 1 rfl _).trans (A_eq0 (V1 m ρ) c 1))
    _ = Wa m ρ c (Proc.devRef .tc main_arg2) := StableHlo.after_of_forall_not_mem (b := Proc.devRef .tc main_arg2) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := StableHlo.after_of_forall_not_mem (b := Proc.devRef .tc main_arg3) _ _ (List.forall_iff_forall_mem.mp (by
          simp only [main_part1_ops3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := StableHlo.after_of_forall_not_mem (b := Proc.devRef .tc main_arg3) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = Wa m ρ c (Proc.devRef .tc main_arg3) := StableHlo.after_of_forall_not_mem (b := Proc.devRef .tc main_arg3) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := StableHlo.after_of_forall_not_mem (b := Proc.devRef .tc main_arg4) _ _ (List.forall_iff_forall_mem.mp (by
          simp only [main_part1_ops3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := StableHlo.after_of_forall_not_mem (b := Proc.devRef .tc main_arg4) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := (W5_arr m ρ c 1).trans (((dat2 (V4 m ρ) c).arrAt_in 1 rfl _).trans (A_eq2 (V4 m ρ) c 1))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = Wa m ρ c (Proc.devRef .tc main_arg4) := StableHlo.after_of_forall_not_mem (b := Proc.devRef .tc main_arg4) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := StableHlo.after_of_forall_not_mem (b := Proc.devRef .tc main_arg5) _ _ (List.forall_iff_forall_mem.mp (by
          simp only [main_part1_ops3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := StableHlo.after_of_forall_not_mem (b := Proc.devRef .tc main_arg5) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = Wa m ρ c (Proc.devRef .tc main_arg5) := StableHlo.after_of_forall_not_mem (b := Proc.devRef .tc main_arg5) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (List.forall_iff_forall_mem.mp (by
          simp only [main_part1_ops3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg6) := (W8_arr m ρ c 1).trans (((dat4 (V7 m ρ) c).arrAt_in 1 rfl _).trans (A_eq4 (V7 m ρ) c 1))
    _ = W6 m ρ c (Proc.devRef .tc main_arg6) := W7_of_ne m ρ c main_arg6 (by decide)
    _ = W5 m ρ c (Proc.devRef .tc main_arg6) := StableHlo.after_of_forall_not_mem (b := Proc.devRef .tc main_arg6) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = Wa m ρ c (Proc.devRef .tc main_arg6) := StableHlo.after_of_forall_not_mem (b := Proc.devRef .tc main_arg6) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by
          simp only [main_part1_ops3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = Wa m ρ c (Proc.devRef .tc main_arg7) := StableHlo.after_of_forall_not_mem (b := Proc.devRef .tc main_arg7) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- The result buffer at the last boundary is the last region's output array after its write-backs. -/
theorem W10_main_v70 (c : Dev nD) : W10 m ρ c (Proc.devRef .tc main_v70) = (dat5 (V9 m ρ) c).arrAt 3 cfg5.N :=
  W10_arr m ρ c 3

/-- THE FRAME at any `F`: every weakly fair execution of @main terminates, nothing faulting, the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c)⟩) (run_all m ρ)

/-- THE RUN WITH THE RESULT NAMED: as the frame, and the result buffer ends at the last region's output array. -/
theorem run_val : θ_run defs (onTc (τ := τ) (main (F := F))) ⟨m, fun _ => 0, ρ⟩ (fun r => ∀ c : Dev nD,
      r.2.mem ((c.tc : Thread nD τ).loc main_v70) = (dat5 (V9 m ρ) c).arrAt 3 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v70 (by decide))).trans (W10_main_v70 m ρ c),
    (h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c)⟩) (run_all m ρ)

end Cert.Kernel.Fr

end
-- ==== Proof.FrProjI.lean ====
import proofs.«148437_j67826123538777_1_alg».proof.Proof.Gen.KernelIdeal.Launch
import proofs.«148437_j67826123538777_1_alg».proof.Proof.Gen.KernelIdeal.Skeleton
import proofs.«148437_j67826123538777_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-
  The three projection regions of the network (h · W on blocks of 1024 rows), each at a PARAMETER `V`: the TensorCore's
  buffer contents when the region is entered. Per region: the windows' blocks, what the body leaves in the output block,
  the body's triple, the proof data and the body obligation at every grid point.
-/
section Regions
variable (V : (c : Dev nD) → (b : Ref sig .tc) → Buf (Elt F) ((c : Thread nD τ).loc b))

/-! # Region 0: a projection h · W on a block of 1024 rows (class A: one control case) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix's staging buffer holds the whole matrix at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rX0 : Rect S1024x512 := Rect.unit (s := S1024x512) ![0, 0] S1024x512.size inb_S1024x512_S1024x512_0_0
abbrev rW0 : Rect S512x512 := Rect.unit (s := S512x512) ![0, 0] S512x512.size inb_S512x512_S512x512_0_0
abbrev rO0 : Rect S1024x512 := Rect.unit (s := S1024x512) ![0, 0] S1024x512.size inb_S1024x512_S1024x512_0_0

/-- The output block after the body: the product of the row block and the weights, stored whole. -/
def out0_2 (x0 : Vec F S1024x512 .f32) (x1 : Vec F S512x512 .f32) : Vec F S1024x512 .bf16 :=
  View.canon [⟨rO0, k0_pay1 (View.ld x0 rX0) (View.ld x1 rW0)⟩]

theorem cover0_2 (p0 : Vec F S1024x512 .bf16) (y : S1024x512.Idx) :
    ∃ pc ∈ ([⟨rO0, p0⟩] : List (View.Piece (Elt F) S1024x512 .bf16)), y ∈ pc.1.set :=
  View.cover_of_tiled [⟨rO0, p0⟩] S1024x512.size (by rfl) y

set_option maxHeartbeats 1000000 in
/-- The body on whole staging memrefs: the inputs kept, the output block left at the product. -/
theorem sound_kernel0 (c : Dev nD) (E : Set ℕ) (i : grid0.Coords) (arg1 : Memref sig .tc .vmem S1024x512 .f32) (harg1 : arg1.IsWhole) (arg2 : Memref sig .tc .vmem S512x512 .f32) (harg2 : arg2.IsWhole) (arg3 : Memref sig .tc .vmem S1024x512 .bf16) (harg3 : arg3.IsWhole)
    (x0 : Vec F S1024x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the region on core `c`: the arrays as the region finds them; after the body each input's buffer at
    its block and the output's at the product of the two; the class invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # Region 2: a projection h · W on a block of 1024 rows (class A: one control case) -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row block's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight matrix's staging buffer holds the whole matrix at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev rX2 : Rect S1024x512 := Rect.unit (s := S1024x512) ![0, 0] S1024x512.size inb_S1024x512_S1024x512_0_0
abbrev rW2 : Rect S512x512 := Rect.unit (s := S512x512) ![0, 0] S512x512.size inb_S512x512_S512x512_0_0
abbrev rO2 : Rect S1024x512 := Rect.unit (s := S1024x512) ![0, 0] S1024x512.size inb_S1024x512_S1024x512_0_0

/-- The output block after the body: the product of the row block and the weights, stored whole. -/
def out2_2 (x0 : Vec F S1024x512 .bf16) (x1 : Vec F S512x512 .f32) : Vec F S1024x512 .bf16 :=
  View.canon [⟨rO2, k2_pay1 (View.ld x0 rX2) (View.ld x1 rW2)⟩]

theorem cover2_2 (p0 : Vec F S1024x512 .bf16) (y : S1024x512.Idx) :
    ∃ pc ∈ ([⟨rO2, p0⟩] : List (View.Piece (Elt F) S1024x512 .bf16)), y ∈ pc.1.set :=
  View.cover_of_tiled [⟨rO2, p0⟩] S1024x512.size (by rfl) y

set_option maxHeartbeats 1000000 in
/-- The body on whole staging memrefs: the inputs kept, the output block left at the product. -/
theorem sound_kernel2 (c : Dev nD) (E : Set ℕ) (i : grid2.Coords) (arg1 : Memref sig .tc .vmem S1024x512 .bf16) (harg1 : arg1.IsWhole) (arg2 : Memref sig .tc .vmem S512x512 .f32) (harg2 : arg2.IsWhole) (arg3 : Memref sig .tc .vmem S1024x512 .bf16) (harg3 : arg3.IsWhole)
    (x0 : Vec F S1024x512 .bf16) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__proj_kernel i arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of the region on core `c`: the arrays as the region finds them; after the body each input's buffer at
    its block and the output's at the product of the two; the class invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

/-! # Region 4: a projection h · W on a block of 1024 rows (class A: one control case) -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row block's staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weight matrix's staging buffer holds the whole matrix at every point, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

abbrev rX4 : Rect S1024x512 := Rect.unit (s := S1024x512) ![0, 0] S1024x512.size inb_S1024x512_S1024x512_0_0
abbrev rW4 : Rect S512x256 := Rect.unit (s := S512x256) ![0, 0] S512x256.size inb_S512x256_S512x256_0_0
abbrev rO4 : Rect S1024x256 := Rect.unit (s := S1024x256) ![0, 0] S1024x256.size inb_S1024x256_S1024x256_0_0

/-- The output block after the body: the product of the row block and the weights, stored whole. -/
def out4_2 (x0 : Vec F S1024x512 .bf16) (x1 : Vec F S512x256 .f32) : Vec F S1024x256 .bf16 :=
  View.canon [⟨rO4, k4_pay1 (View.ld x0 rX4) (View.ld x1 rW4)⟩]

theorem cover4_2 (p0 : Vec F S1024x256 .bf16) (y : S1024x256.Idx) :
    ∃ pc ∈ ([⟨rO4, p0⟩] : List (View.Piece (Elt F) S1024x256 .bf16)), y ∈ pc.1.set :=
  View.cover_of_tiled [⟨rO4, p0⟩] S1024x256.size (by rfl) y

set_option maxHeartbeats 1000000 in
/-- The body on whole staging memrefs: the inputs kept, the output block left at the product. -/
theorem sound_kernel4 (c : Dev nD) (E : Set ℕ) (i : grid4.Coords) (arg1 : Memref sig .tc .vmem S1024x512 .bf16) (harg1 : arg1.IsWhole) (arg2 : Memref sig .tc .vmem S512x256 .f32) (harg2 : arg2.IsWhole) (arg3 : Memref sig .tc .vmem S1024x256 .bf16) (harg3 : arg3.IsWhole)
    (x0 : Vec F S1024x512 .bf16) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__proj_kernel i arg1 harg1 arg2 harg2 arg3 harg3) K := by
  simp only [cc4__proj_kernel_eq_skeleton]; unfold cc4__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of the region on core `c`: the arrays as the region finds them; after the body each input's buffer at
    its block and the output's at the product of the two; the class invariant; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation4 (c : Dev nD) : BodyObligation (dat4 (F := F) V c) (defs₀ (F := F)) Variants.none () Set.univ := fun t => by
  rw [bigSep_W4, bigSep_W4]
  exact sound_body4 V c t

end Regions

end Cert.KernelIdeal.Fr

end
-- ==== Proof.FrAggRuns1I.lean ====
import proofs.«148437_j67826123538777_1_alg».proof.Proof.Gen.KernelIdeal.Launch
import proofs.«148437_j67826123538777_1_alg».proof.Proof.Gen.KernelIdeal.Skeleton
import proofs.«148437_j67826123538777_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 1: an aggregation A · P + b accumulated over 8 column blocks of A (class R: a scratch carried between points) -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's first condition: the column-block coordinate is 0 (the accumulator is cleared). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The body's second condition: the column-block coordinate is the last one (the result is stored). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

abbrev VO1_3 : View sig .tc .vmem S1024x512 .bf16 := (Memref.whole cc1_stg3_0 : Memref sig .tc .vmem S1024x512 .bf16).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .bf16 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1024x512 .f32 := Memref.whole cc1_scratch0
abbrev VS1_0 : View sig .tc .vmem S1024x512 .f32 := scM1_0.view

/-- The class invariant with the accumulator split off as a memref owned at some contents. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

set_option maxHeartbeats 2000000 in
/-- The body at a FIRST column block (the accumulator cleared, then the block's product added; nothing stored into the
    output, which is handed back untouched): the pieces the accumulator ends with, found by the run. -/
noncomputable def kernelRun1_A (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : cond1_0 i) (hc1 : ¬cond1_1 i)
    (x0 : Vec F S1024x1024 .bf16) (x1 : Vec F S1024x512 .bf16) (x2 : Vec F S1x512 .f32) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_agg_kernel i arg2 harg2 arg3 harg3 arg4 harg4 arg5 harg5 arg6 harg6) K } := by
  refine ⟨[], ?_, fun xi3 E K => ?run⟩
  case run =>
    simp only [cc1_agg_kernel_eq_skeleton]; unfold cc1_agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- The body at a MIDDLE column block (the block's product added to what the point before left in the accumulator). -/
noncomputable def kernelRun1_B (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond1_0 i) (hc1 : ¬cond1_1 i)
    (x0 : Vec F S1024x1024 .bf16) (x1 : Vec F S1024x512 .bf16) (x2 : Vec F S1x512 .f32) (xs0 : Vec F S1024x512 .f32) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_agg_kernel i arg2 harg2 arg3 harg3 arg4 harg4 arg5 harg5 arg6 harg6) K } := by
  refine ⟨[], ?_, fun xi3 E K => ?run⟩
  case run =>
    simp only [cc1_agg_kernel_eq_skeleton]; unfold cc1_agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- The body at a LAST column block (the block's product added, then the bias, and the result stored into the output). -/
noncomputable def kernelRun1_C (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond1_0 i) (hc1 : cond1_1 i)
    (x0 : Vec F S1024x1024 .bf16) (x1 : Vec F S1024x512 .bf16) (x2 : Vec F S1x512 .f32) (xs0 : Vec F S1024x512 .f32) :
    Σ' (L3 : List (View.Piece (Elt F) S1024x512 .bf16)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_agg_kernel i arg2 harg2 arg3 harg3 arg4 harg4 arg5 harg5 arg6 harg6) K } := by
  refine ⟨?_, ?_, fun E K => ?run⟩
  case run =>
    simp only [cc1_agg_kernel_eq_skeleton]; unfold cc1_agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Regions

end Cert.KernelIdeal.Fr

end
-- ==== Proof.FrAgg1I.lean ====
import proofs.«148437_j67826123538777_1_alg».proof.Proof.FrAggRuns1I
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- What case A leaves in the output block's buffer: its pieces read back (none: the window is idle there; a placeholder nothing consults). -/
def out1_A_3 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : cond1_0 i) (hc1 : ¬cond1_1 i)
    (x0 : Vec F S1024x1024 .bf16) (x1 : Vec F S1024x512 .bf16) (x2 : Vec F S1x512 .f32) : Vec F S1024x512 .bf16 :=
  VO1_3.read (Elt F) (VO1_3.writes (Elt F) VO1_3.junk (kernelRun1_A c i arg2 harg2 arg3 harg3 arg4 harg4 arg5 harg5 arg6 harg6 hc0 hc1 x0 x1 x2).1)

/-- Case A's pieces for the accumulator cover it. -/
theorem scover1_A_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : cond1_0 i) (hc1 : ¬cond1_1 i)
    (x0 : Vec F S1024x1024 .bf16) (x1 : Vec F S1024x512 .bf16) (x2 : Vec F S1x512 .f32) (y : S1024x512.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x512.size (by sl_kernel_rfl) y

/-- What case A leaves in the accumulator: its pieces read back. -/
def sout1_A_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : cond1_0 i) (hc1 : ¬cond1_1 i)
    (x0 : Vec F S1024x1024 .bf16) (x1 : Vec F S1024x512 .bf16) (x2 : Vec F S1x512 .f32) : Vec F S1024x512 .f32 :=
  VS1_0.read (Elt F) (VS1_0.writes (Elt F) VS1_0.junk (kernelRun1_A c i arg2 harg2 arg3 harg3 arg4 harg4 arg5 harg5 arg6 harg6 hc0 hc1 x0 x1 x2).2.1)

/-- What case B leaves in the output block's buffer: its pieces read back (none: the window is idle there; a placeholder nothing consults). -/
def out1_B_3 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond1_0 i) (hc1 : ¬cond1_1 i)
    (x0 : Vec F S1024x1024 .bf16) (x1 : Vec F S1024x512 .bf16) (x2 : Vec F S1x512 .f32) (xs0 : Vec F S1024x512 .f32) : Vec F S1024x512 .bf16 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the accumulator cover it. -/
theorem scover1_B_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond1_0 i) (hc1 : ¬cond1_1 i)
    (x0 : Vec F S1024x1024 .bf16) (x1 : Vec F S1024x512 .bf16) (x2 : Vec F S1x512 .f32) (xs0 : Vec F S1024x512 .f32) (y : S1024x512.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x512.size (by sl_kernel_rfl) y

/-- What case B leaves in the accumulator: its pieces read back. -/
def sout1_B_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond1_0 i) (hc1 : ¬cond1_1 i)
    (x0 : Vec F S1024x1024 .bf16) (x1 : Vec F S1024x512 .bf16) (x2 : Vec F S1x512 .f32) (xs0 : Vec F S1024x512 .f32) : Vec F S1024x512 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- What case C leaves in the output block's buffer: its pieces read back. -/
def out1_C_3 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond1_0 i) (hc1 : cond1_1 i)
    (x0 : Vec F S1024x1024 .bf16) (x1 : Vec F S1024x512 .bf16) (x2 : Vec F S1x512 .f32) (xs0 : Vec F S1024x512 .f32) : Vec F S1024x512 .bf16 :=
  VO1_3.read (Elt F) (VO1_3.writes (Elt F) VO1_3.junk (kernelRun1_C c i arg2 harg2 arg3 harg3 arg4 harg4 arg5 harg5 arg6 harg6 hc0 hc1 x0 x1 x2 xs0).1)

theorem cover1_C_3 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond1_0 i) (hc1 : cond1_1 i)
    (x0 : Vec F S1024x1024 .bf16) (x1 : Vec F S1024x512 .bf16) (x2 : Vec F S1x512 .f32) (xs0 : Vec F S1024x512 .f32) (y : S1024x512.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x512.size (by sl_kernel_rfl) y

/-- Case C's pieces for the accumulator cover it. -/
theorem scover1_C_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond1_0 i) (hc1 : cond1_1 i)
    (x0 : Vec F S1024x1024 .bf16) (x1 : Vec F S1024x512 .bf16) (x2 : Vec F S1x512 .f32) (xs0 : Vec F S1024x512 .f32) (y : S1024x512.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x512.size (by sl_kernel_rfl) y

/-- What case C leaves in the accumulator: its pieces read back. -/
def sout1_C_0 (c : Dev nD) (i : grid1.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond1_0 i) (hc1 : cond1_1 i)
    (x0 : Vec F S1024x1024 .bf16) (x1 : Vec F S1024x512 .bf16) (x2 : Vec F S1x512 .f32) (xs0 : Vec F S1024x512 .f32) : Vec F S1024x512 .f32 :=
  VS1_0.read (Elt F) (VS1_0.writes (Elt F) VS1_0.junk (kernelRun1_C c i arg2 harg2 arg3 harg3 arg4 harg4 arg5 harg5 arg6 harg6 hc0 hc1 x0 x1 x2 xs0).2.1)

/-- THE ACCUMULATION: what the output block's buffer and the accumulator hold after the body at position `n` — the case
    the column-block coordinate selects, run on the point's blocks, over what the point before left in the accumulator. -/
def outsAt1 (c : Dev nD) : (n : ℕ) → n < cfg1.N → Vec F S1024x512 .bf16 × Vec F S1024x512 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left in it, the other scoped buffers at anything, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2))
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2))
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-- The proof data of the region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the column-block coordinate says which case the point is
    in; the invariant hands the body the accumulator at what the point before left and takes it back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 64 := lt_of_lt_of_eq t.isLt (show cfg1.N = 64 from N_1)
  by_cases h0 : t.val % 8 = 0
  · by_cases h1 : t.val % 8 = 7
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hrest⟩, Hg⟩
  isplitl [HS0 Hrest]
  · isplitl [HS0]
    · iexists _; iexact HS0
    iexact Hrest
  iexact Hg

end Regions

end Cert.KernelIdeal.Fr

end
-- ==== Proof.FrAggRuns3I.lean ====
import proofs.«148437_j67826123538777_1_alg».proof.Proof.Gen.KernelIdeal.Launch
import proofs.«148437_j67826123538777_1_alg».proof.Proof.Gen.KernelIdeal.Skeleton
import proofs.«148437_j67826123538777_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 3: an aggregation A · P + b accumulated over 8 column blocks of A (class R: a scratch carried between points) -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The body's first condition: the column-block coordinate is 0 (the accumulator is cleared). -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)
/-- The body's second condition: the column-block coordinate is the last one (the result is stored). -/
abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
theorem idleAt3_3_B : ∀ t : Fin cfg3.N, ¬cond3_0 (grid3.coords t) → ¬cond3_1 (grid3.coords t) → cfg3.idle 3 (grid3.coords t) = true := by decide +kernel
theorem noFlush3_3_B : ∀ t : Fin cfg3.N, ¬cond3_0 (grid3.coords t) → ¬cond3_1 (grid3.coords t) → (cfg3.win 3).flush t = false := by decide +kernel
theorem liveAt3_3_C : ∀ t : Fin cfg3.N, ¬cond3_0 (grid3.coords t) → cond3_1 (grid3.coords t) → cfg3.idle 3 (grid3.coords t) = false := by decide +kernel

abbrev VO3_3 : View sig .tc .vmem S1024x512 .bf16 := (Memref.whole cc3_stg3_0 : Memref sig .tc .vmem S1024x512 .bf16).view
abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x512 .bf16 := win3_3.stage (cfg3.slots t 3)
abbrev hs3_3 (t : Fin cfg3.N) : (ms3_3 t).IsWhole := hstage3_3 ((cfg3.slots t 3).cast nbuf3_3)
/-- The accumulator: a whole scoped buffer of the kernel's own, passed beside the windows. -/
abbrev scM3_0 : Memref sig .tc .vmem S1024x512 .f32 := Memref.whole cc3_scratch0
abbrev VS3_0 : View sig .tc .vmem S1024x512 .f32 := scM3_0.view

/-- The class invariant with the accumulator split off as a memref owned at some contents. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

set_option maxHeartbeats 2000000 in
/-- The body at a FIRST column block (the accumulator cleared, then the block's product added; nothing stored into the
    output, which is handed back untouched): the pieces the accumulator ends with, found by the run. -/
noncomputable def kernelRun3_A (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : cond3_0 i) (hc1 : ¬cond3_1 i)
    (x0 : Vec F S1024x1024 .bf16) (x1 : Vec F S1024x512 .bf16) (x2 : Vec F S1x512 .f32) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3_agg_kernel i arg2 harg2 arg3 harg3 arg4 harg4 arg5 harg5 arg6 harg6) K } := by
  refine ⟨[], ?_, fun xi3 E K => ?run⟩
  case run =>
    simp only [cc3_agg_kernel_eq_skeleton]; unfold cc3_agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- The body at a MIDDLE column block (the block's product added to what the point before left in the accumulator). -/
noncomputable def kernelRun3_B (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond3_0 i) (hc1 : ¬cond3_1 i)
    (x0 : Vec F S1024x1024 .bf16) (x1 : Vec F S1024x512 .bf16) (x2 : Vec F S1x512 .f32) (xs0 : Vec F S1024x512 .f32) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3_agg_kernel i arg2 harg2 arg3 harg3 arg4 harg4 arg5 harg5 arg6 harg6) K } := by
  refine ⟨[], ?_, fun xi3 E K => ?run⟩
  case run =>
    simp only [cc3_agg_kernel_eq_skeleton]; unfold cc3_agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- The body at a LAST column block (the block's product added, then the bias, and the result stored into the output). -/
noncomputable def kernelRun3_C (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond3_0 i) (hc1 : cond3_1 i)
    (x0 : Vec F S1024x1024 .bf16) (x1 : Vec F S1024x512 .bf16) (x2 : Vec F S1x512 .f32) (xs0 : Vec F S1024x512 .f32) :
    Σ' (L3 : List (View.Piece (Elt F) S1024x512 .bf16)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3_agg_kernel i arg2 harg2 arg3 harg3 arg4 harg4 arg5 harg5 arg6 harg6) K } := by
  refine ⟨?_, ?_, fun E K => ?run⟩
  case run =>
    simp only [cc3_agg_kernel_eq_skeleton]; unfold cc3_agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Regions

end Cert.KernelIdeal.Fr

end
-- ==== Proof.FrAgg3I.lean ====
import proofs.«148437_j67826123538777_1_alg».proof.Proof.FrAggRuns3I
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- What case A leaves in the output block's buffer: its pieces read back (none: the window is idle there; a placeholder nothing consults). -/
def out3_A_3 (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : cond3_0 i) (hc1 : ¬cond3_1 i)
    (x0 : Vec F S1024x1024 .bf16) (x1 : Vec F S1024x512 .bf16) (x2 : Vec F S1x512 .f32) : Vec F S1024x512 .bf16 :=
  VO3_3.read (Elt F) (VO3_3.writes (Elt F) VO3_3.junk (kernelRun3_A c i arg2 harg2 arg3 harg3 arg4 harg4 arg5 harg5 arg6 harg6 hc0 hc1 x0 x1 x2).1)

/-- Case A's pieces for the accumulator cover it. -/
theorem scover3_A_0 (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : cond3_0 i) (hc1 : ¬cond3_1 i)
    (x0 : Vec F S1024x1024 .bf16) (x1 : Vec F S1024x512 .bf16) (x2 : Vec F S1x512 .f32) (y : S1024x512.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S1024x512.size (by sl_kernel_rfl) y

/-- What case A leaves in the accumulator: its pieces read back. -/
def sout3_A_0 (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : cond3_0 i) (hc1 : ¬cond3_1 i)
    (x0 : Vec F S1024x1024 .bf16) (x1 : Vec F S1024x512 .bf16) (x2 : Vec F S1x512 .f32) : Vec F S1024x512 .f32 :=
  VS3_0.read (Elt F) (VS3_0.writes (Elt F) VS3_0.junk (kernelRun3_A c i arg2 harg2 arg3 harg3 arg4 harg4 arg5 harg5 arg6 harg6 hc0 hc1 x0 x1 x2).2.1)

/-- What case B leaves in the output block's buffer: its pieces read back (none: the window is idle there; a placeholder nothing consults). -/
def out3_B_3 (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond3_0 i) (hc1 : ¬cond3_1 i)
    (x0 : Vec F S1024x1024 .bf16) (x1 : Vec F S1024x512 .bf16) (x2 : Vec F S1x512 .f32) (xs0 : Vec F S1024x512 .f32) : Vec F S1024x512 .bf16 :=
  VO3_3.read (Elt F) (VO3_3.writes (Elt F) VO3_3.junk (kernelRun3_B c i arg2 harg2 arg3 harg3 arg4 harg4 arg5 harg5 arg6 harg6 hc0 hc1 x0 x1 x2 xs0).1)

/-- Case B's pieces for the accumulator cover it. -/
theorem scover3_B_0 (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond3_0 i) (hc1 : ¬cond3_1 i)
    (x0 : Vec F S1024x1024 .bf16) (x1 : Vec F S1024x512 .bf16) (x2 : Vec F S1x512 .f32) (xs0 : Vec F S1024x512 .f32) (y : S1024x512.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S1024x512.size (by sl_kernel_rfl) y

/-- What case B leaves in the accumulator: its pieces read back. -/
def sout3_B_0 (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond3_0 i) (hc1 : ¬cond3_1 i)
    (x0 : Vec F S1024x1024 .bf16) (x1 : Vec F S1024x512 .bf16) (x2 : Vec F S1x512 .f32) (xs0 : Vec F S1024x512 .f32) : Vec F S1024x512 .f32 :=
  VS3_0.read (Elt F) (VS3_0.writes (Elt F) VS3_0.junk (kernelRun3_B c i arg2 harg2 arg3 harg3 arg4 harg4 arg5 harg5 arg6 harg6 hc0 hc1 x0 x1 x2 xs0).2.1)

/-- What case C leaves in the output block's buffer: its pieces read back. -/
def out3_C_3 (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond3_0 i) (hc1 : cond3_1 i)
    (x0 : Vec F S1024x1024 .bf16) (x1 : Vec F S1024x512 .bf16) (x2 : Vec F S1x512 .f32) (xs0 : Vec F S1024x512 .f32) : Vec F S1024x512 .bf16 :=
  VO3_3.read (Elt F) (VO3_3.writes (Elt F) VO3_3.junk (kernelRun3_C c i arg2 harg2 arg3 harg3 arg4 harg4 arg5 harg5 arg6 harg6 hc0 hc1 x0 x1 x2 xs0).1)

theorem cover3_C_3 (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond3_0 i) (hc1 : cond3_1 i)
    (x0 : Vec F S1024x1024 .bf16) (x1 : Vec F S1024x512 .bf16) (x2 : Vec F S1x512 .f32) (xs0 : Vec F S1024x512 .f32) (y : S1024x512.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S1024x512.size (by sl_kernel_rfl) y

/-- Case C's pieces for the accumulator cover it. -/
theorem scover3_C_0 (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond3_0 i) (hc1 : cond3_1 i)
    (x0 : Vec F S1024x1024 .bf16) (x1 : Vec F S1024x512 .bf16) (x2 : Vec F S1x512 .f32) (xs0 : Vec F S1024x512 .f32) (y : S1024x512.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S1024x512.size (by sl_kernel_rfl) y

/-- What case C leaves in the accumulator: its pieces read back. -/
def sout3_C_0 (c : Dev nD) (i : grid3.Coords) (arg2 : Memref sig .tc .vmem S1024x1024 .bf16) (harg2 : arg2.IsWhole) (arg3 : Memref sig .tc .vmem S1024x512 .bf16) (harg3 : arg3.IsWhole) (arg4 : Memref sig .tc .vmem S1x512 .f32) (harg4 : arg4.IsWhole) (arg5 : Memref sig .tc .vmem S1024x512 .bf16) (harg5 : arg5.IsWhole) (arg6 : Memref sig .tc .vmem S1024x512 .f32) (harg6 : arg6.IsWhole) (hc0 : ¬cond3_0 i) (hc1 : cond3_1 i)
    (x0 : Vec F S1024x1024 .bf16) (x1 : Vec F S1024x512 .bf16) (x2 : Vec F S1x512 .f32) (xs0 : Vec F S1024x512 .f32) : Vec F S1024x512 .f32 :=
  VS3_0.read (Elt F) (VS3_0.writes (Elt F) VS3_0.junk (kernelRun3_C c i arg2 harg2 arg3 harg3 arg4 harg4 arg5 harg5 arg6 harg6 hc0 hc1 x0 x1 x2 xs0).2.1)

/-- THE ACCUMULATION: what the output block's buffer and the accumulator hold after the body at position `n` — the case
    the column-block coordinate selects, run on the point's blocks, over what the point before left in the accumulator. -/
def outsAt3 (c : Dev nD) : (n : ℕ) → n < cfg3.N → Vec F S1024x512 .bf16 × Vec F S1024x512 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      if h1 : (n + 1) % 8 = 7 then
        False.elim (by omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

theorem outsAt3_A (c : Dev nD) (t : Fin cfg3.N) (h0 : t.val % 8 = 0) (h1 : ¬t.val % 8 = 7) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

theorem outsAt3_B (c : Dev nD) (t : Fin cfg3.N) (h0 : ¬t.val % 8 = 0) (h1 : ¬t.val % 8 = 7) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left in it, the other scoped buffers at anything, the generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2))
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2))
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-- The proof data of the region on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 8000000 in
/-- The body at any point: the inputs' memrefs hold their blocks; the column-block coordinate says which case the point is
    in; the invariant hands the body the accumulator at what the point before left and takes it back at this point's. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  have hN : t.val < 64 := lt_of_lt_of_eq t.isLt (show cfg3.N = 64 from N_3)
  by_cases h0 : t.val % 8 = 0
  · by_cases h1 : t.val % 8 = 7
    · exfalso; omega
    · rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, Hrest⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover3_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HS0, Hrest⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover3_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩⟩
      iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover3_C_3 c _ _ _ _ _ _ _ _ _ _ _ _ _ _ _ _ _)
    · rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      rw [PhiS3_castSucc V c t, PhiS3_pos V c _ _ hz]
      iintro ⟨⟨⟨HS0, Hrest⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover3_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the accumulator's named contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 64 := N_3; omega), PhiA3_eq]
  iintro ⟨⟨HS0, Hrest⟩, Hg⟩
  isplitl [HS0 Hrest]
  · isplitl [HS0]
    · iexists _; iexact HS0
    iexact Hrest
  iexact Hg

end Regions

end Cert.KernelIdeal.Fr

end
-- ==== Proof.FrAggRuns5I.lean ====
import proofs.«148437_j67826123538777_1_alg».proof.Proof.Gen.KernelIdeal.Launch
import proofs.«148437_j67826123538777_1_alg».proof.Proof.Gen.KernelIdeal.Skeleton
import proofs.«148437_j67826123538777_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 5: an aggregation A · P + b accumulated over 8 column blocks of A (class R: a scratch carried between points) -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The body's first condition: the column-block coordinate is 0 (the accumulator is cleared). -/
abbrev cond5_0 (i : grid5.Coords) : Prop := (Scalar.cmpi .ne (Scalar.extui (Scalar.cmpi .eq (BitVec.ofNat 32 (i 1).val) 0#32)) 0#32) = 1#1
theorem hcond5_0 : ∀ t : Fin cfg5.N, cond5_0 (grid5.coords t) ↔ t.val % 8 = 0 :=
  (by decide +kernel : ∀ t : Fin grid5.N, cond5_0 (grid5.coords t) ↔ t.val % 8 = 0)
/-- The body's second condition: the column-block coordinate is the last one (the result is stored). -/
abbrev cond5_1 (i : grid5.Coords) : Prop := k5_cond2 i = 1#1
theorem hcond5_1 : ∀ t : Fin cfg5.N, cond5_1 (grid5.coords t) ↔ t.val % 8 = 7 :=
  (by decide +kernel : ∀ t : Fin grid5.N, cond5_1 (grid5.coords t) ↔ t.val % 8 = 7)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem idleAt5_3_A : ∀ t : Fin cfg5.N, cond5_0 (grid5.coords t) → ¬cond5_1 (grid5.coords t) → cfg5.idle 3 (grid5.coords t) = true := by decide +kernel
theorem noFlush5_3_A : ∀ t : Fin cfg5.N, cond5_0 (grid5.coords t) → ¬cond5_1 (grid5.coords t) → (cfg5.win 3).flush t = false := by decide +kernel
theorem idleAt5_3_B : ∀ t : Fin cfg5.N, ¬cond5_0 (grid5.coords t) → ¬cond5_1 (grid5.coords t) → cfg5.idle 3 (grid5.coords t) = true := by decide +kernel
theorem noFlush5_3_B : ∀ t : Fin cfg5.N, ¬cond5_0 (grid5.coords t) → ¬cond5_1 (grid5.coords t) → (cfg5.win 3).flush t = false := by decide +kernel
theorem liveAt5_3_C : ∀ t : Fin cfg5.N, ¬cond5_0 (grid5.coords t) → cond5_1 (grid5.coords t) → cfg5.idle 3 (grid5.coords t) = false := by decide +kernel

abbrev VO5_3 : View sig .tc .vmem S1024x256 .f32 := (Memref.whole cc5_stg3_0 : Memref sig .tc .vmem S1024x256 .f32).view
abbrev ms5_0 (t : Fin cfg5.N) : Memref sig .tc .vmem S1024x1024 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x256 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x256 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x256 .f32 := win5_3.stage (cfg5.slots t 3)
abbrev hs5_3 (t : Fin cfg5.N) : (ms5_3 t).IsWhole := hstage5_3 ((cfg5.slots t 3).cast nbuf5_3)
/-- The accumulator: a whole scoped buffer of the kernel's own, passed beside the windows. -/
abbrev scM5_0 : Memref sig .tc .vmem S1024x256 .f32 := Memref.whole cc5_scratch0
abbrev VS5_0 : View sig .tc .vmem S1024x256 .f32 := scM5_0.view

/-- The class invariant with the accumulator split off as a memref owned at some contents. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

set_option maxHeartbeats 2000000 in
/-- The body at a FIRST column block (the accumulator cleared, then the block's product added; nothing stored into the
    output, which is handed back untouched): the pieces the accumulator ends with, found by the run. -/
noncomputable def kernelRun5_A (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond5_0 i) (hc1 : ¬cond5_1 i)
    (x0 : Vec F S1024x1024 .bf16) (x1 : Vec F S1024x256 .bf16) (x2 : Vec F S1x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5_agg_kernel i arg2 harg2 arg3 harg3 arg4 harg4 arg5 harg5 arg6 harg6) K } := by
  refine ⟨[], ?_, fun xi3 E K => ?run⟩
  case run =>
    simp only [cc5_agg_kernel_eq_skeleton]; unfold cc5_agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- The body at a MIDDLE column block (the block's product added to what the point before left in the accumulator). -/
noncomputable def kernelRun5_B (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond5_0 i) (hc1 : ¬cond5_1 i)
    (x0 : Vec F S1024x1024 .bf16) (x1 : Vec F S1024x256 .bf16) (x2 : Vec F S1x256 .f32) (xs0 : Vec F S1024x256 .f32) :
    Σ' (L3 : List (View.Piece (Elt F) S1024x256 .f32)), { LS0 : List (View.Piece (Elt F) S1024x256 .f32) //
      ∀ (xi3 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc5_agg_kernel i arg2 harg2 arg3 harg3 arg4 harg4 arg5 harg5 arg6 harg6) K } := by
  refine ⟨[], ?_, fun xi3 E K => ?run⟩
  case run =>
    simp only [cc5_agg_kernel_eq_skeleton]; unfold cc5_agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 2000000 in
/-- The body at a LAST column block (the block's product added, then the bias, and the result stored into the output). -/
noncomputable def kernelRun5_C (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond5_0 i) (hc1 : cond5_1 i)
    (x0 : Vec F S1024x1024 .bf16) (x1 : Vec F S1024x256 .bf16) (x2 : Vec F S1x256 .f32) (xs0 : Vec F S1024x256 .f32) :
    Σ' (L3 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc5_agg_kernel i arg2 harg2 arg3 harg3 arg4 harg4 arg5 harg5 arg6 harg6) K } := by
  refine ⟨?_, ?_, fun E K => ?run⟩
  case run =>
    simp only [cc5_agg_kernel_eq_skeleton]; unfold cc5_agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Regions

end Cert.KernelIdeal.Fr

end
-- ==== Proof.FrAgg5I.lean ====
import proofs.«148437_j67826123538777_1_alg».proof.Proof.FrAggRuns5I
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- What case A leaves in the output block's buffer: its pieces read back (none: the window is idle there; a placeholder nothing consults). -/
def out5_A_3 (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond5_0 i) (hc1 : ¬cond5_1 i)
    (x0 : Vec F S1024x1024 .bf16) (x1 : Vec F S1024x256 .bf16) (x2 : Vec F S1x256 .f32) : Vec F S1024x256 .f32 :=
  VO5_3.read (Elt F) (VO5_3.writes (Elt F) VO5_3.junk (kernelRun5_A c i arg2 harg2 arg3 harg3 arg4 harg4 arg5 harg5 arg6 harg6 hc0 hc1 x0 x1 x2).1)

/-- Case A's pieces for the accumulator cover it. -/
theorem scover5_A_0 (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond5_0 i) (hc1 : ¬cond5_1 i)
    (x0 : Vec F S1024x1024 .bf16) (x1 : Vec F S1024x256 .bf16) (x2 : Vec F S1x256 .f32) (y : S1024x256.Idx) :
    ∃ pc ∈ (kernelRun5_A c i arg2 harg2 arg3 harg3 arg4 harg4 arg5 harg5 arg6 harg6 hc0 hc1 x0 x1 x2).2.1, y ∈ pc.1.set :=
  View.cover_of_tiledL (kernelRun5_A c i arg2 harg2 arg3 harg3 arg4 harg4 arg5 harg5 arg6 harg6 hc0 hc1 x0 x1 x2).2.1 S1024x256.size (by sl_kernel_rfl) y

/-- What case A leaves in the accumulator: its pieces read back. -/
def sout5_A_0 (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : cond5_0 i) (hc1 : ¬cond5_1 i)
    (x0 : Vec F S1024x1024 .bf16) (x1 : Vec F S1024x256 .bf16) (x2 : Vec F S1x256 .f32) : Vec F S1024x256 .f32 :=
  VS5_0.read (Elt F) (VS5_0.writes (Elt F) VS5_0.junk (kernelRun5_A c i arg2 harg2 arg3 harg3 arg4 harg4 arg5 harg5 arg6 harg6 hc0 hc1 x0 x1 x2).2.1)

/-- What case B leaves in the output block's buffer: its pieces read back (none: the window is idle there; a placeholder nothing consults). -/
def out5_B_3 (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond5_0 i) (hc1 : ¬cond5_1 i)
    (x0 : Vec F S1024x1024 .bf16) (x1 : Vec F S1024x256 .bf16) (x2 : Vec F S1x256 .f32) (xs0 : Vec F S1024x256 .f32) : Vec F S1024x256 .f32 :=
  VO5_3.read (Elt F) (VO5_3.writes (Elt F) VO5_3.junk (kernelRun5_B c i arg2 harg2 arg3 harg3 arg4 harg4 arg5 harg5 arg6 harg6 hc0 hc1 x0 x1 x2 xs0).1)

/-- Case B's pieces for the accumulator cover it. -/
theorem scover5_B_0 (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond5_0 i) (hc1 : ¬cond5_1 i)
    (x0 : Vec F S1024x1024 .bf16) (x1 : Vec F S1024x256 .bf16) (x2 : Vec F S1x256 .f32) (xs0 : Vec F S1024x256 .f32) (y : S1024x256.Idx) :
    ∃ pc ∈ (kernelRun5_B c i arg2 harg2 arg3 harg3 arg4 harg4 arg5 harg5 arg6 harg6 hc0 hc1 x0 x1 x2 xs0).2.1, y ∈ pc.1.set :=
  View.cover_of_tiledL (kernelRun5_B c i arg2 harg2 arg3 harg3 arg4 harg4 arg5 harg5 arg6 harg6 hc0 hc1 x0 x1 x2 xs0).2.1 S1024x256.size (by sl_kernel_rfl) y

/-- What case B leaves in the accumulator: its pieces read back. -/
def sout5_B_0 (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond5_0 i) (hc1 : ¬cond5_1 i)
    (x0 : Vec F S1024x1024 .bf16) (x1 : Vec F S1024x256 .bf16) (x2 : Vec F S1x256 .f32) (xs0 : Vec F S1024x256 .f32) : Vec F S1024x256 .f32 :=
  VS5_0.read (Elt F) (VS5_0.writes (Elt F) VS5_0.junk (kernelRun5_B c i arg2 harg2 arg3 harg3 arg4 harg4 arg5 harg5 arg6 harg6 hc0 hc1 x0 x1 x2 xs0).2.1)

/-- What case C leaves in the output block's buffer: its pieces read back. -/
def out5_C_3 (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond5_0 i) (hc1 : cond5_1 i)
    (x0 : Vec F S1024x1024 .bf16) (x1 : Vec F S1024x256 .bf16) (x2 : Vec F S1x256 .f32) (xs0 : Vec F S1024x256 .f32) : Vec F S1024x256 .f32 :=
  VO5_3.read (Elt F) (VO5_3.writes (Elt F) VO5_3.junk (kernelRun5_C c i arg2 harg2 arg3 harg3 arg4 harg4 arg5 harg5 arg6 harg6 hc0 hc1 x0 x1 x2 xs0).1)

theorem cover5_C_3 (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond5_0 i) (hc1 : cond5_1 i)
    (x0 : Vec F S1024x1024 .bf16) (x1 : Vec F S1024x256 .bf16) (x2 : Vec F S1x256 .f32) (xs0 : Vec F S1024x256 .f32) (y : S1024x256.Idx) :
    ∃ pc ∈ (kernelRun5_C c i arg2 harg2 arg3 harg3 arg4 harg4 arg5 harg5 arg6 harg6 hc0 hc1 x0 x1 x2 xs0).1, y ∈ pc.1.set :=
  View.cover_of_tiledL (kernelRun5_C c i arg2 harg2 arg3 harg3 arg4 harg4 arg5 harg5 arg6 harg6 hc0 hc1 x0 x1 x2 xs0).1 S1024x256.size (by sl_kernel_rfl) y

/-- Case C's pieces for the accumulator cover it. -/
theorem scover5_C_0 (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond5_0 i) (hc1 : cond5_1 i)
    (x0 : Vec F S1024x1024 .bf16) (x1 : Vec F S1024x256 .bf16) (x2 : Vec F S1x256 .f32) (xs0 : Vec F S1024x256 .f32) (y : S1024x256.Idx) :
    ∃ pc ∈ (kernelRun5_C c i arg2 harg2 arg3 harg3 arg4 harg4 arg5 harg5 arg6 harg6 hc0 hc1 x0 x1 x2 xs0).2.1, y ∈ pc.1.set :=
  View.cover_of_tiledL (kernelRun5_C c i arg2 harg2 arg3 harg3 arg4 harg4 arg5 harg5 arg6 harg6 hc0 hc1 x0 x1 x2 xs0).2.1 S1024x256.size (by sl_kernel_rfl) y

/-- What case C leaves in the accumulator: its pieces read back. -/
def sout5_C_0 (c : Dev nD) (i : grid5.Coords) (arg2 : Memref sig .tc .vmem S1024x1024 .bf16) (harg2 : arg2.IsWhole) (arg3 : Memref sig .tc .vmem S1024x256 .bf16) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬cond5_0 i) (hc1 : cond5_1 i)
    (x0 : Vec F S1024x1024 .bf16) (x1 : Vec F S1024x256 .bf16) (x2 : Vec F S1x256 .f32) (xs0 : Vec F S1024x256 .f32) : Vec F S1024x256 .f32 :=
  VS5_0.read (Elt F) (VS5_0.writes (Elt F) VS5_0.junk (kernelRun5_C c i arg2 harg2 arg3 harg3 arg4 harg4 arg5 harg5 arg6 harg6 hc0 hc1 x0 x1 x2 xs0).2.1)

/-- THE ACCUMULATION: what the output block's buffer and the accumulator hold after the body at position `n` — the case
    the column-block coordinate selects, run on the point's blocks, over what the point before left in the accumulator. -/
def outsAt5 (c : Dev nD) : (n : ℕ) → n < cfg5.N → Vec F S1024x256 .f32 × Vec F S1024x256 .f32
  | 0, hn => (out5_A_3 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩))
  | n + 1, hn =>
    if h0 : (n + 1) % 8 = 0 then
      if h1 : (n + 1) % 8 = 7 then
        False.elim (by omega)
      else
        (out5_A_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩))
    else
      if h1 : (n + 1) % 8 = 7 then
        (out5_C_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (outsAt5 c n (Nat.lt_of_succ_lt hn)).2)
      else
        (out5_B_3 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2)

theorem outsAt5_A (c : Dev nD) (t : Fin cfg5.N) (h0 : t.val % 8 = 0) (h1 : ¬t.val % 8 = 7) :
    outsAt5 V c t.val t.isLt = (out5_A_3 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t), sout5_A_0 c (grid5.coords t) (ms5_0 t) (hs5_0 t) (ms5_1 t) (hs5_1 t) (ms5_2 t) (hs5_2 t) (ms5_3 t) (hs5_3 t) scM5_0 (Memref.isWhole_whole _) ((hcond5_0 t).mpr h0) (fun h => h1 ((hcond5_1 t).mp h)) (iblk5 V c 0 t) (iblk5 V c 1 t) (iblk5 V c 2 t)) := by
  obtain ⟨n, hn⟩ := t
  cases n with
  | zero => exact rfl
  | succ n => exact (dif_pos h0).trans ((dif_neg h1).trans rfl)

theorem outsAt5_B (c : Dev nD) (t : Fin cfg5.N) (h0 : ¬t.val % 8 = 0) (h1 : ¬t.val % 8 = 7) :
    outsAt5 V c t.val t.isLt = (out5_B_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) (fun h => h1 ((hcond5_1 t).mp h)) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt5_C (c : Dev nD) (t : Fin cfg5.N) (h0 : ¬t.val % 8 = 0) (h1 : t.val % 8 = 7) :
    outsAt5 V c t.val t.isLt = (out5_C_3 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) scM5_0 (Memref.isWhole_whole _) (fun h => h0 ((hcond5_0 t).mp h)) ((hcond5_1 t).mpr h1) (iblk5 V c 0 t) (iblk5 V c 1 t) (iblk5 V c 2 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left in it, the other scoped buffers at anything, the generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2))
      ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare ((outsAt5 V c n hn).2))
      ∗ Pipeline.scopedRestBut (Ix := Unit) (Name := ℕ) (U := UR sig nD τ) (Lvl := ℕ) (Val := Elt F) spec5 c [cc5_scratch0]) ∗ (∃ r, prngReg c r)) := rfl

theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2))
      ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-- The proof data of the region on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 8000000 in
/-- The body at any point: the inputs' memrefs hold their blocks; the column-block coordinate says which case the point is
    in; the invariant hands the body the accumulator at what the point before left and takes it back at this point's. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  have hN : t.val < 64 := lt_of_lt_of_eq t.isLt (show cfg5.N = 64 from N_5)
  by_cases h0 : t.val % 8 = 0
  · by_cases h1 : t.val % 8 = 7
    · exfalso; omega
    · rw [Dat.leavesExact_idle (dat5 V c) 3 t (idleAt5_3_A t ((hcond5_0 t).mpr h0) (fun h => h1 ((hcond5_1 t).mp h))) (noFlush5_3_A t ((hcond5_0 t).mpr h0) (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, Hrest⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover5_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS5_castSucc V c t, PhiS5_pos V c _ _ hz]
        iintro ⟨⟨⟨HS0, Hrest⟩, Hg⟩, Ho, ⟨%d0, H0⟩, ⟨%d1, H1⟩, ⟨%d2, H2⟩, ⟨%d3, H3⟩⟩
        iapply ((kernelRun5_A c (grid5.coords t) _ _ _ _ _ _ _ _ _ _ ((hcond5_0 t).mpr h0) (fun h => h1 ((hcond5_1 t).mp h)) (iblk5 V c 0 t) (iblk5 V c 1 t) (iblk5 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover5_A_0 c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 8 = 7
    · rw [show (dat5 V c).leavesExact 3 t = owns (c : Thread nD τ) (ms5_3 t) fullShare ((dat5 V c).after 3 t) from by
        unfold Dat.leavesExact; rw [liveAt5_3_C t (fun h => h0 ((hcond5_0 t).mp h)) ((hcond5_1 t).mpr h1)], after5_3]
      rw [outsAt5_C V c t h0 h1]
      unfold out5_C_3 sout5_C_0; (try dsimp only)
      rw [PhiS5_castSucc V c t, PhiS5_pos V c _ _ hz]
      iintro ⟨⟨⟨HS0, Hrest⟩, Hg⟩, Ho, ⟨%d0, H0⟩, ⟨%d1, H1⟩, ⟨%d2, H2⟩, ⟨%d3, H3⟩⟩
      iapply ((kernelRun5_C c (grid5.coords t) _ _ _ _ _ _ _ _ _ _ (fun h => h0 ((hcond5_0 t).mp h)) ((hcond5_1 t).mpr h1) (iblk5 V c 0 t) (iblk5 V c 1 t) (iblk5 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover5_C_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover5_C_3 c _ _ _ _ _ _ _ _ _ _ _ _ _ _ _ _ _)
    · rw [Dat.leavesExact_idle (dat5 V c) 3 t (idleAt5_3_B t (fun h => h0 ((hcond5_0 t).mp h)) (fun h => h1 ((hcond5_1 t).mp h))) (noFlush5_3_B t (fun h => h0 ((hcond5_0 t).mp h)) (fun h => h1 ((hcond5_1 t).mp h)))]
      rw [outsAt5_B V c t h0 h1]
      unfold sout5_B_0; (try dsimp only)
      rw [PhiS5_castSucc V c t, PhiS5_pos V c _ _ hz]
      iintro ⟨⟨⟨HS0, Hrest⟩, Hg⟩, Ho, ⟨%d0, H0⟩, ⟨%d1, H1⟩, ⟨%d2, H2⟩, ⟨%d3, H3⟩⟩
      iapply ((kernelRun5_B c (grid5.coords t) _ _ _ _ _ _ _ _ _ _ (fun h => h0 ((hcond5_0 t).mp h)) (fun h => h1 ((hcond5_1 t).mp h)) (iblk5 V c 0 t) (iblk5 V c 1 t) (iblk5 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover5_B_0 c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the class's back: the accumulator's named contents are forgotten. -/
theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 64 := N_5; omega), PhiA5_eq]
  iintro ⟨⟨HS0, Hrest⟩, Hg⟩
  isplitl [HS0 Hrest]
  · isplitl [HS0]
    · iexists _; iexact HS0
    iexact Hrest
  iexact Hg

end Regions

end Cert.KernelIdeal.Fr

end
-- ==== Proof.FrRunI.lean ====
import proofs.«148437_j67826123538777_1_alg».proof.Proof.FrProjI
import proofs.«148437_j67826123538777_1_alg».proof.Proof.FrAgg1I
import proofs.«148437_j67826123538777_1_alg».proof.Proof.FrAgg3I
import proofs.«148437_j67826123538777_1_alg».proof.Proof.FrAgg5I
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-
  THE RUN of the network's @main: a host stretch that builds the normalised adjacency, then per layer a projection region
  and an aggregation region (a reshape of the bias between them). The buffer contents at every boundary are a fold from
  the launch memory; every region is entered at its boundary's contents and left with its arrays at what its write-backs
  leave; the arguments are read back through the fold to their launch contents, and the result is the last region's output
  array.
-/
variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first 60 host operations. -/
abbrev Wa : Dev nD → Valuation τ sig (Elt F) := fun c => StableHlo.after main_part0_ops0 (W0 m ρ c)
/-- After the whole adjacency stretch (region 0's entry). -/
abbrev W1 : Dev nD → Valuation τ sig (Elt F) := fun c => StableHlo.after main_part1_ops0 (Wa m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the bias reshape `main_part1_ops1`. -/
abbrev W3 : Dev nD → Valuation τ sig (Elt F) := fun c => StableHlo.after main_part1_ops1 (W2 m ρ c)
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After the bias reshape `main_part1_ops2`. -/
abbrev W6 : Dev nD → Valuation τ sig (Elt F) := fun c => StableHlo.after main_part1_ops2 (W5 m ρ c)
abbrev V6 : (c : Dev nD) → (b : Ref sig .tc) → Buf (Elt F) ((c : Thread nD τ).loc b) := fun c b => W6 m ρ c b

/-- At region 3's exit: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- At region 4's exit: its arrays at what the pipeline leaves, every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- After the bias reshape `main_part1_ops3`. -/
abbrev W9 : Dev nD → Valuation τ sig (Elt F) := fun c => StableHlo.after main_part1_ops3 (W8 m ρ c)
abbrev V9 : (c : Dev nD) → (b : Ref sig .tc) → Buf (Elt F) ((c : Thread nD τ).loc b) := fun c b => W9 m ρ c b

/-- At region 5's exit: its arrays at what the pipeline leaves, every other buffer as entered. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)

/-! ## The proof data family and the thread state -/

abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part1_ops1_fresh : (main_part1_ops1 : List (HloOp τ sig (Elt F))).Forall fun op => op.fresh = ∅ := by
  simp only [List.Forall]; repeat' constructor
theorem main_part1_ops2_fresh : (main_part1_ops2 : List (HloOp τ sig (Elt F))).Forall fun op => op.fresh = ∅ := by
  simp only [List.Forall]; repeat' constructor
theorem main_part1_ops3_fresh : (main_part1_ops3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- REGION 0 over the thread state: entered from every unscoped buffer at its entry boundary's contents, left at its exit's. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at its entry boundary's contents, left at its exit's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last cfg1.N) from rfl]
    have h := hout1 (V3 m ρ) c
    unfold Pipeline.ΦA at h
    iintro H
    ihave H2 := h $$ H
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at its entry boundary's contents, left at its exit's. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at its entry boundary's contents, left at its exit's. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V6 m ρ) c).Φ 0 from rfl]
    have h := hin3 (V6 m ρ) c
    unfold Pipeline.ΦA at h
    iintro ⟨Hp, -, Hr⟩
    iapply h
    isplitl [Hr]; · iexact Hr
    iexact Hp
  hout c := by
    rw [Pipeline.ownSems0_none, show (pdats m ρ 3 c).Φ (Fin.last _) = (dat3 (V6 m ρ) c).Φ (Fin.last cfg3.N) from rfl]
    have h := hout3 (V6 m ρ) c
    unfold Pipeline.ΦA at h
    iintro H
    ihave H2 := h $$ H
    icases H2 with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at its entry boundary's contents, left at its exit's. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at its entry boundary's contents, left at its exit's. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = (dat5 (V9 m ρ) c).Φ 0 from rfl]
    have h := hin5 (V9 m ρ) c
    unfold Pipeline.ΦA at h
    iintro ⟨Hp, -, Hr⟩
    iapply h
    isplitl [Hr]; · iexact Hr
    iexact Hp
  hout c := by
    rw [Pipeline.ownSems0_none, show (pdats m ρ 5 c).Φ (Fin.last _) = (dat5 (V9 m ρ) c).Φ (Fin.last cfg5.N) from rfl]
    have h := hout5 (V9 m ρ) c
    unfold Pipeline.ΦA at h
    iintro H
    ihave H2 := h $$ H
    icases H2 with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg main_part0_ops0 main_part0_ops0_sub main_part0_ops0_fresh (W0 m ρ)),
    .host (hseg main_part1_ops0 main_part1_ops0_sub main_part1_ops0_fresh (Wa m ρ)),
    .region (reg0 m ρ),
    .host (hseg main_part1_ops1 main_part1_ops1_sub main_part1_ops1_fresh (W2 m ρ)),
    .region (reg1 m ρ),
    .region (reg2 m ρ),
    .host (hseg main_part1_ops2 main_part1_ops2_sub main_part1_ops2_fresh (W5 m ρ)),
    .region (reg3 m ρ),
    .region (reg4 m ρ),
    .host (hseg main_part1_ops3 main_part1_ops3_sub main_part1_ops3_fresh (W8 m ρ)),
    .region (reg5 m ρ) ]
theorem main_run (c : Dev nD) : main (F := F) c = Pipeline.Seg.run (segs m ρ) := (main_chain_windows c).trans (by chain_rfl)

set_option backward.isDefEq.respectTransparency.types false in
/-- THE RUN: from any memory with zero counters every weakly fair execution of @main on the TensorCores terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.KernelIdeal.Fr

end
-- ==== Proof.FrArgsI.lean ====
import proofs.«148437_j67826123538777_1_alg».proof.Proof.FrRunI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-
  The arguments end as launched: no host operation and no region writes one (a region reads it through an input window
  or bypasses it), so the fold at an argument's buffer walks back to the launch memory; and the frame claim's post read
  off the run.
-/
variable (m : (ℓ : Loc nD τ sig) → Buf (Elt F) ℓ) (ρ : Dev nD → PrngReg)

theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := W10_of_ne m ρ c main_arg0 (by decide)
    _ = W8 m ρ c (Proc.devRef .tc main_arg0) := StableHlo.after_of_forall_not_mem (b := Proc.devRef .tc main_arg0) _ _ (List.forall_iff_forall_mem.mp (by
          simp only [main_part1_ops3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg0) := W8_of_ne m ρ c main_arg0 (by decide)
    _ = W6 m ρ c (Proc.devRef .tc main_arg0) := W7_of_ne m ρ c main_arg0 (by decide)
    _ = W5 m ρ c (Proc.devRef .tc main_arg0) := StableHlo.after_of_forall_not_mem (b := Proc.devRef .tc main_arg0) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = Wa m ρ c (Proc.devRef .tc main_arg0) := StableHlo.after_of_forall_not_mem (b := Proc.devRef .tc main_arg0) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [main_part1_ops3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := W7_of_ne m ρ c main_arg1 (by decide)
    _ = W5 m ρ c (Proc.devRef .tc main_arg1) := StableHlo.after_of_forall_not_mem (b := Proc.devRef .tc main_arg1) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = Wa m ρ c (Proc.devRef .tc main_arg1) := StableHlo.after_of_forall_not_mem (b := Proc.devRef .tc main_arg1) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [main_part1_ops3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := StableHlo.after_of_forall_not_mem (b := Proc.devRef .tc main_arg2) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat0 (V1 m ρ) c).arrAt_in 1 rfl _).trans (A_eq0 (V1 m ρ) c 1))
    _ = Wa m ρ c (Proc.devRef .tc main_arg2) := StableHlo.after_of_forall_not_mem (b := Proc.devRef .tc main_arg2) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := W10_of_ne m ρ c main_arg3 (by decide)
    _ = W8 m ρ c (Proc.devRef .tc main_arg3) := StableHlo.after_of_forall_not_mem (b := Proc.devRef .tc main_arg3) _ _ (List.forall_iff_forall_mem.mp (by
          simp only [main_part1_ops3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg3) := W8_of_ne m ρ c main_arg3 (by decide)
    _ = W6 m ρ c (Proc.devRef .tc main_arg3) := W7_of_ne m ρ c main_arg3 (by decide)
    _ = W5 m ρ c (Proc.devRef .tc main_arg3) := StableHlo.after_of_forall_not_mem (b := Proc.devRef .tc main_arg3) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = Wa m ρ c (Proc.devRef .tc main_arg3) := StableHlo.after_of_forall_not_mem (b := Proc.devRef .tc main_arg3) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := W10_of_ne m ρ c main_arg4 (by decide)
    _ = W8 m ρ c (Proc.devRef .tc main_arg4) := StableHlo.after_of_forall_not_mem (b := Proc.devRef .tc main_arg4) _ _ (List.forall_iff_forall_mem.mp (by
          simp only [main_part1_ops3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg4) := W8_of_ne m ρ c main_arg4 (by decide)
    _ = W6 m ρ c (Proc.devRef .tc main_arg4) := W7_of_ne m ρ c main_arg4 (by decide)
    _ = W5 m ρ c (Proc.devRef .tc main_arg4) := StableHlo.after_of_forall_not_mem (b := Proc.devRef .tc main_arg4) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := (W5_arr m ρ c 1).trans (((dat2 (V4 m ρ) c).arrAt_in 1 rfl _).trans (A_eq2 (V4 m ρ) c 1))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = Wa m ρ c (Proc.devRef .tc main_arg4) := StableHlo.after_of_forall_not_mem (b := Proc.devRef .tc main_arg4) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := W10_of_ne m ρ c main_arg5 (by decide)
    _ = W8 m ρ c (Proc.devRef .tc main_arg5) := StableHlo.after_of_forall_not_mem (b := Proc.devRef .tc main_arg5) _ _ (List.forall_iff_forall_mem.mp (by
          simp only [main_part1_ops3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg5) := W8_of_ne m ρ c main_arg5 (by decide)
    _ = W6 m ρ c (Proc.devRef .tc main_arg5) := W7_of_ne m ρ c main_arg5 (by decide)
    _ = W5 m ρ c (Proc.devRef .tc main_arg5) := StableHlo.after_of_forall_not_mem (b := Proc.devRef .tc main_arg5) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = Wa m ρ c (Proc.devRef .tc main_arg5) := StableHlo.after_of_forall_not_mem (b := Proc.devRef .tc main_arg5) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (List.forall_iff_forall_mem.mp (by
          simp only [main_part1_ops3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg6) := (W8_arr m ρ c 1).trans (((dat4 (V7 m ρ) c).arrAt_in 1 rfl _).trans (A_eq4 (V7 m ρ) c 1))
    _ = W6 m ρ c (Proc.devRef .tc main_arg6) := W7_of_ne m ρ c main_arg6 (by decide)
    _ = W5 m ρ c (Proc.devRef .tc main_arg6) := StableHlo.after_of_forall_not_mem (b := Proc.devRef .tc main_arg6) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = Wa m ρ c (Proc.devRef .tc main_arg6) := StableHlo.after_of_forall_not_mem (b := Proc.devRef .tc main_arg6) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by
          simp only [main_part1_ops3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = Wa m ρ c (Proc.devRef .tc main_arg7) := StableHlo.after_of_forall_not_mem (b := Proc.devRef .tc main_arg7) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- The result buffer at the last boundary is the last region's output array after its write-backs. -/
theorem W10_main_v70 (c : Dev nD) : W10 m ρ c (Proc.devRef .tc main_v70) = (dat5 (V9 m ρ) c).arrAt 3 cfg5.N :=
  W10_arr m ρ c 3

/-- THE FRAME at any `F`: every weakly fair execution of @main terminates, nothing faulting, the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c)⟩) (run_all m ρ)

/-- THE RUN WITH THE RESULT NAMED: as the frame, and the result buffer ends at the last region's output array. -/
theorem run_val : θ_run defs (onTc (τ := τ) (main (F := F))) ⟨m, fun _ => 0, ρ⟩ (fun r => ∀ c : Dev nD,
      r.2.mem ((c.tc : Thread nD τ).loc main_v70) = (dat5 (V9 m ρ) c).arrAt 3 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v70 (by decide))).trans (W10_main_v70 m ρ c),
    (h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c)⟩) (run_all m ρ)

end Cert.KernelIdeal.Fr

end
-- ==== Proof.LibScatterRows.lean ====
/-
  THE HOST'S ACCUMULATING ROW SCATTER, READ AT COORDINATES (at the ideal instance; no program is mentioned).

  `stablehlo.scatter` with an `add` body, an operand of rows `[N, D]` (or a vector `[N]`), scatter indices a
  column `[E, 1]` of integers and updates `[E, D]` (or `[E]`), with update_window_dims `[1]` (or none),
  inserted_window_dims `[0]`, scatter_dims_to_operand_dims `[0]` and index_vector_dim `1`: update row `e` is added
  to operand row `idx[e, 0]`, the index read as a SIGNED integer and NOT clamped; a row whose index is negative or
  at least `N` is dropped. This is what a segment sum over `E` items into `N` segments is.

  Contents. `resultIdx_eq_some_iff`: for any dimension numbers, update index `j` lands at operand index `i` exactly
  when start plus window coordinate equals `i`'s coordinate on every axis, as integers. For the two records above: the
  start and the window coordinate on each axis as plain values (`start_rows_zero` … `window_vec_zero`), which update
  lands at which element (`resultIdx_rows_iff`, `resultIdx_vec_iff`), and the scatter read at an element as the
  operand's element plus a sum over the update rows `e` with `(idx (ix2 e 0)).toInt = n`
  (`scatterAdd_rows_apply`, `scatterAdd_vec_apply`). Every statement is generic in the extents, the index width and
  the float format, and holds for any witness of the dimension numbers' conditions.
-/
import Idealize.ShloMosaic.PureOps.Ideal
import Idealize.ShloMosaic.PureOps.Ideal.Laws
import Idealize.ShloMosaic.Lib.ValueIdx
import Mathlib

noncomputable section

open scoped BigOperators
open Idealize.ShloMosaic Idealize.ShloMosaic.ValueIdx

namespace ScatterRows

/-- The landing index of a scatter update, read as equations between integers: update index `j` lands at operand
    index `i` exactly when on every operand axis the window's signed start plus the window coordinate is `i`'s
    coordinate. -/
theorem resultIdx_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hb
      have h' := Option.some.inj h
      have ha : (d.start j idx a + (d.window j a : ℤ)).toNat = (i a).val := congrArg (fun f => (f a).val) h'
      have := (hb a).1
      omega
    · cases h
  · intro h
    have hb : ∀ a, 0 ≤ d.start j idx a + (d.window j a : ℤ) ∧ d.start j idx a + (d.window j a : ℤ) < s.size a := by
      intro a
      rw [h a]
      exact ⟨Int.natCast_nonneg _, by exact_mod_cast (i a).isLt⟩
    rw [dif_pos hb]
    congr 1
    funext a
    refine Fin.ext ?_
    show (d.start j idx a + (d.window j a : ℤ)).toNat = (i a).val
    rw [h a]
    exact Int.toNat_natCast _

section Rows
variable {N D E w : Nat}

/-- On the operand's row axis the window of update `(e, c')` starts at the index read at `(e, 0)`, as a signed
    integer. -/
theorem start_rows_zero (wf : ScatterDims.WF (⟨2, ![N, D]⟩ : Shape) ⟨2, ![E, 1]⟩ ⟨2, ![E, D]⟩ [1] [0] [0] 1)
    (idx : IVec ⟨2, ![E, 1]⟩ w) (e : Fin E) (c' : Fin D) :
    (⟨[1], [0], [0], 1, wf⟩ : ScatterDims ⟨2, ![N, D]⟩ ⟨2, ![E, 1]⟩ ⟨2, ![E, D]⟩).start (ix2 e c') idx 0
      = (idx (ix2 e 0)).toInt := by
  unfold ScatterDims.start
  rw [dif_pos (List.mem_singleton.mpr rfl)]
  congr 2
  funext b
  refine Fin.ext ?_
  match b with
  | ⟨0, _⟩ => rfl
  | ⟨1, _⟩ => rfl

/-- On the operand's column axis, which the index vector does not name, the window starts at `0`. -/
theorem start_rows_one (wf : ScatterDims.WF (⟨2, ![N, D]⟩ : Shape) ⟨2, ![E, 1]⟩ ⟨2, ![E, D]⟩ [1] [0] [0] 1)
    (idx : IVec ⟨2, ![E, 1]⟩ w) (e : Fin E) (c' : Fin D) :
    (⟨[1], [0], [0], 1, wf⟩ : ScatterDims ⟨2, ![N, D]⟩ ⟨2, ![E, 1]⟩ ⟨2, ![E, D]⟩).start (ix2 e c') idx 1 = 0 := by
  unfold ScatterDims.start
  rw [dif_neg (show (1 : Fin 2) ∉ ([0] : List (Fin 2)) by decide)]

/-- The row axis is an inserted window axis: the window coordinate on it is `0`. -/
theorem window_rows_zero (wf : ScatterDims.WF (⟨2, ![N, D]⟩ : Shape) ⟨2, ![E, 1]⟩ ⟨2, ![E, D]⟩ [1] [0] [0] 1)
    (e : Fin E) (c' : Fin D) :
    (⟨[1], [0], [0], 1, wf⟩ : ScatterDims ⟨2, ![N, D]⟩ ⟨2, ![E, 1]⟩ ⟨2, ![E, D]⟩).window (ix2 e c') 0 = 0 := by
  unfold ScatterDims.window
  exact dif_neg (show (0 : Fin 2) ∉ (List.finRange 2).filter (· ∉ ([0] : List (Fin 2))) by decide)

/-- On the column axis the window coordinate of update `(e, c')` is its column `c'`. -/
theorem window_rows_one (wf : ScatterDims.WF (⟨2, ![N, D]⟩ : Shape) ⟨2, ![E, 1]⟩ ⟨2, ![E, D]⟩ [1] [0] [0] 1)
    (e : Fin E) (c' : Fin D) :
    (⟨[1], [0], [0], 1, wf⟩ : ScatterDims ⟨2, ![N, D]⟩ ⟨2, ![E, 1]⟩ ⟨2, ![E, D]⟩).window (ix2 e c') 1 = c'.val := by
  unfold ScatterDims.window
  refine (dif_pos (show (1 : Fin 2) ∈ (List.finRange 2).filter (· ∉ ([0] : List (Fin 2))) by decide)).trans ?_
  rfl

/-- WHICH UPDATE LANDS WHERE, by rows: update `(e, c')` lands at operand element `(n, c)` exactly when the signed
    index read at `(e, 0)` is `n` and the columns agree. -/
theorem resultIdx_rows_iff (wf : ScatterDims.WF (⟨2, ![N, D]⟩ : Shape) ⟨2, ![E, 1]⟩ ⟨2, ![E, D]⟩ [1] [0] [0] 1)
    (idx : IVec ⟨2, ![E, 1]⟩ w) (e : Fin E) (c' : Fin D) (n : Fin N) (c : Fin D) :
    (⟨[1], [0], [0], 1, wf⟩ : ScatterDims ⟨2, ![N, D]⟩ ⟨2, ![E, 1]⟩ ⟨2, ![E, D]⟩).resultIdx? (ix2 e c') idx
        = some (ix2 n c)
      ↔ (idx (ix2 e 0)).toInt = (n : ℤ) ∧ c' = c := by
  rw [resultIdx_eq_some_iff]
  constructor
  · intro h
    have h0 := h 0
    have h1 := h 1
    rw [start_rows_zero, window_rows_zero] at h0
    rw [start_rows_one, window_rows_one] at h1
    have h0' : (idx (ix2 e 0)).toInt + ((0 : ℕ) : ℤ) = (n.val : ℤ) := h0
    have h1' : (0 : ℤ) + (c'.val : ℤ) = (c.val : ℤ) := h1
    refine ⟨by omega, Fin.ext (by omega)⟩
  · rintro ⟨h0, rfl⟩ a
    match a with
    | ⟨0, _⟩ =>
      show (⟨[1], [0], [0], 1, wf⟩ : ScatterDims ⟨2, ![N, D]⟩ ⟨2, ![E, 1]⟩ ⟨2, ![E, D]⟩).start (ix2 e c') idx 0
        + (((⟨[1], [0], [0], 1, wf⟩ : ScatterDims ⟨2, ![N, D]⟩ ⟨2, ![E, 1]⟩ ⟨2, ![E, D]⟩).window (ix2 e c') 0 : ℕ) : ℤ)
        = (n.val : ℤ)
      rw [start_rows_zero, window_rows_zero]
      omega
    | ⟨1, _⟩ =>
      show (⟨[1], [0], [0], 1, wf⟩ : ScatterDims ⟨2, ![N, D]⟩ ⟨2, ![E, 1]⟩ ⟨2, ![E, D]⟩).start (ix2 e c') idx 1
        + (((⟨[1], [0], [0], 1, wf⟩ : ScatterDims ⟨2, ![N, D]⟩ ⟨2, ![E, 1]⟩ ⟨2, ![E, D]⟩).window (ix2 e c') 1 : ℕ) : ℤ)
        = (c'.val : ℤ)
      rw [start_rows_one, window_rows_one]
      omega

/-- THE ROW SCATTER READ AT `(n, c)`: the operand's element plus the sum, over the update rows `e` whose signed index
    is `n`, of the update's element `(e, c)`. Rows whose index is negative or at least `N` meet no `n` and
    contribute nowhere. -/
theorem scatterAdd_rows_apply {φ : FTy}
    (wf : ScatterDims.WF (⟨2, ![N, D]⟩ : Shape) ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (c : Fin D) :
    Host.scatterAdd (F := Ideal)
        (⟨[1], [0], [0], 1, wf⟩ : ScatterDims ⟨2, ![N, D]⟩ ⟨2, ![E, 1]⟩ ⟨2, ![E, D]⟩) x idx upd (ix2 n c)
      = x (ix2 n c)
        + ∑ e ∈ Finset.univ.filter (fun e : Fin E => (idx (ix2 e 0)).toInt = (n : ℤ)), upd (ix2 e c) := by
  show x (ix2 n c) + ∑ j ∈ Finset.univ.filter (fun j =>
      (⟨[1], [0], [0], 1, wf⟩ : ScatterDims ⟨2, ![N, D]⟩ ⟨2, ![E, 1]⟩ ⟨2, ![E, D]⟩).resultIdx? j idx
        = some (ix2 n c)), upd j = _
  congr 1
  rw [Finset.sum_filter, sum_idx2, Finset.sum_filter]
  refine Finset.sum_congr rfl fun e _ => ?_
  refine (Finset.sum_congr rfl fun b _ => if_congr (resultIdx_rows_iff wf idx e b n c) rfl rfl).trans ?_
  by_cases hq : (idx (ix2 e 0)).toInt = (n : ℤ)
  · simp [hq]
  · simp [hq]

end Rows

section Vec
variable {N E w : Nat}

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- On the vector operand's one axis the window of update `e` starts at the index read at `(e, 0)`, as a signed
    integer. -/
theorem start_vec_zero (wf : ScatterDims.WF (⟨1, ![N]⟩ : Shape) ⟨2, ![E, 1]⟩ ⟨1, ![E]⟩ [] [0] [0] 1)
    (idx : IVec ⟨2, ![E, 1]⟩ w) (e : Fin E) :
    (⟨[], [0], [0], 1, wf⟩ : ScatterDims ⟨1, ![N]⟩ ⟨2, ![E, 1]⟩ ⟨1, ![E]⟩).start (ix1 e) idx 0
      = (idx (ix2 e 0)).toInt := by
  unfold ScatterDims.start
  rw [dif_pos (List.mem_singleton.mpr rfl)]
  congr 2
  funext b
  refine Fin.ext ?_
  match b with
  | ⟨0, _⟩ => rfl
  | ⟨1, _⟩ => rfl

/-- The vector operand's one axis is an inserted window axis: the window coordinate on it is `0`. -/
theorem window_vec_zero (wf : ScatterDims.WF (⟨1, ![N]⟩ : Shape) ⟨2, ![E, 1]⟩ ⟨1, ![E]⟩ [] [0] [0] 1) (e : Fin E) :
    (⟨[], [0], [0], 1, wf⟩ : ScatterDims ⟨1, ![N]⟩ ⟨2, ![E, 1]⟩ ⟨1, ![E]⟩).window (ix1 e) 0 = 0 := by
  unfold ScatterDims.window
  exact dif_neg (show (0 : Fin 1) ∉ (List.finRange 1).filter (· ∉ ([0] : List (Fin 1))) by decide)

/-- WHICH UPDATE LANDS WHERE, for a vector operand: update `e` lands at operand element `n` exactly when the signed
    index read at `(e, 0)` is `n`. -/
theorem resultIdx_vec_iff (wf : ScatterDims.WF (⟨1, ![N]⟩ : Shape) ⟨2, ![E, 1]⟩ ⟨1, ![E]⟩ [] [0] [0] 1)
    (idx : IVec ⟨2, ![E, 1]⟩ w) (e : Fin E) (n : Fin N) :
    (⟨[], [0], [0], 1, wf⟩ : ScatterDims ⟨1, ![N]⟩ ⟨2, ![E, 1]⟩ ⟨1, ![E]⟩).resultIdx? (ix1 e) idx = some (ix1 n)
      ↔ (idx (ix2 e 0)).toInt = (n : ℤ) := by
  rw [resultIdx_eq_some_iff]
  constructor
  · intro h
    have h0 := h 0
    rw [start_vec_zero, window_vec_zero] at h0
    have h0' : (idx (ix2 e 0)).toInt + ((0 : ℕ) : ℤ) = (n.val : ℤ) := h0
    omega
  · intro h0 a
    match a with
    | ⟨0, _⟩ =>
      show (⟨[], [0], [0], 1, wf⟩ : ScatterDims ⟨1, ![N]⟩ ⟨2, ![E, 1]⟩ ⟨1, ![E]⟩).start (ix1 e) idx 0
        + (((⟨[], [0], [0], 1, wf⟩ : ScatterDims ⟨1, ![N]⟩ ⟨2, ![E, 1]⟩ ⟨1, ![E]⟩).window (ix1 e) 0 : ℕ) : ℤ)
        = (n.val : ℤ)
      rw [start_vec_zero, window_vec_zero]
      omega

/-- THE VECTOR SCATTER READ AT `n`: the operand's element plus the sum, over the updates `e` whose signed index is
    `n`, of the update's element `e`. Updates whose index is negative or at least `N` meet no `n` and contribute
    nowhere. -/
theorem scatterAdd_vec_apply {φ : FTy}
    (wf : ScatterDims.WF (⟨1, ![N]⟩ : Shape) ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal)
        (⟨[], [0], [0], 1, wf⟩ : ScatterDims ⟨1, ![N]⟩ ⟨2, ![E, 1]⟩ ⟨1, ![E]⟩) x idx upd (ix1 n)
      = x (ix1 n)
        + ∑ e ∈ Finset.univ.filter (fun e : Fin E => (idx (ix2 e 0)).toInt = (n : ℤ)), upd (ix1 e) := by
  show x (ix1 n) + ∑ j ∈ Finset.univ.filter (fun j =>
      (⟨[], [0], [0], 1, wf⟩ : ScatterDims ⟨1, ![N]⟩ ⟨2, ![E, 1]⟩ ⟨1, ![E]⟩).resultIdx? j idx
        = some (ix1 n)), upd j = _
  congr 1
  rw [Finset.sum_filter, sum_idx1, Finset.sum_filter]
  exact Finset.sum_congr rfl fun e _ => if_congr (resultIdx_vec_iff wf idx e n) rfl rfl

end Vec

end ScatterRows

end
-- ==== Proof.KAdjacency.lean ====
/-
  The normalised adjacency the kernel's host program builds, and that it is the reference's.

  Both programs start from the zero 8192 × 8192 matrix and set entry (e₀(k), e₁(k)) and entry (e₁(k), e₀(k)) to 1 for
  every edge k (negative indices wrapped by + 8192): the same operations on the same edge array, so the same matrix S.
  The reference then adds the identity matrix — entry (p, q) gets 1 when p = q and 0 otherwise. The kernel instead
  adds 1 at each index pair (r, r), r = 0 … 8191, by an accumulating scatter: entry (p, q) gets the sum of 1 over the
  rows r with (r, r) = (p, q), which is 1 when p = q (only r = p) and 0 otherwise. The index r is the 32-bit word of
  r < 8192, which is not negative, so the wrap of negative indices leaves it alone. Hence the two matrices A = S + I are
  equal entry by entry; the rest — A(p, q) / (√deg(p) · √deg(q)) with deg the row sums of A — is the same operations on
  both sides, and the kernel's final change of format is the identity on extended reals.
-/
import proofs.«148437_j67826123538777_1_alg».proof.Proof.Gen.KernelIdeal.Launch
import proofs.«148437_j67826123538777_1_alg».proof.Proof.LibScatterRows
import Idealize.ShloMosaic.Lib.StableHlo.Run
import Idealize.ShloMosaic.Lib.Pipeline.Value
import Idealize.ShloMosaic.Lib.ValueIdx
import Idealize.ShloMosaic.PureOps.Ideal.Laws
import Idealize.ShloMosaic.Lib.IdealHost

noncomputable section

open scoped BigOperators

namespace Cert.KernelIdeal.KMath

open Idealize.ShloMosaic Idealize.ShloMosaic.ValueIdx Idealize.SL.Sem Idealize.ShloMosaic.TcCoe
open Cert.KernelIdeal Cert.KernelIdeal.Gen

/-! ## An accumulating scatter at index pairs, read at an entry

Operand [N, M], scatter indices [E, 2] (row e holds the pair the update e goes to), updates [E]: no window axes, both
operand axes inserted, index vector along axis 1. Update e lands on entry (n, m) exactly when its pair, read signed, is
(n, m); an update whose pair leaves the operand lands nowhere. -/

section Pairs
variable {N M E w : Nat}

/-- The literal dimension numbers of a scatter at index pairs. -/
abbrev pairDims (wf : ScatterDims.WF (⟨2, ![N, M]⟩ : Shape) ⟨2, ![E, 2]⟩ ⟨1, ![E]⟩ [] [0, 1] [0, 1] 1) :
    ScatterDims (⟨2, ![N, M]⟩ : Shape) ⟨2, ![E, 2]⟩ ⟨1, ![E]⟩ :=
  ⟨[], [0, 1], [0, 1], 1, wf⟩

variable (wf : ScatterDims.WF (⟨2, ![N, M]⟩ : Shape) ⟨2, ![E, 2]⟩ ⟨1, ![E]⟩ [] [0, 1] [0, 1] 1)

/-- On the row axis update e starts at the first component of its pair, read signed. -/
theorem start_pair_zero (idx : IVec ⟨2, ![E, 2]⟩ w) (e : Fin E) :
    (pairDims wf).start (ix1 e) idx 0 = (idx (ix2 e 0)).toInt := by
  unfold ScatterDims.start
  rw [dif_pos (show (0 : Fin 2) ∈ ([0, 1] : List (Fin 2)) by decide)]
  congr 2
  funext b
  refine Fin.ext ?_
  match b with
  | ⟨0, _⟩ => rfl
  | ⟨1, _⟩ => rfl

/-- On the column axis update e starts at the second component of its pair, read signed. -/
theorem start_pair_one (idx : IVec ⟨2, ![E, 2]⟩ w) (e : Fin E) :
    (pairDims wf).start (ix1 e) idx 1 = (idx (ix2 e 1)).toInt := by
  unfold ScatterDims.start
  rw [dif_pos (show (1 : Fin 2) ∈ ([0, 1] : List (Fin 2)) by decide)]
  congr 2
  funext b
  refine Fin.ext ?_
  match b with
  | ⟨0, _⟩ => rfl
  | ⟨1, _⟩ => rfl

/-- Both operand axes are inserted window axes: the window coordinate is 0 on each. -/
theorem window_pair (e : Fin E) (a : Fin 2) : (pairDims wf).window (ix1 e) a = 0 := by
  unfold ScatterDims.window
  match a with
  | ⟨0, _⟩ => exact dif_neg (show (0 : Fin 2) ∉ (List.finRange 2).filter (· ∉ ([0, 1] : List (Fin 2))) by decide)
  | ⟨1, _⟩ => exact dif_neg (show (1 : Fin 2) ∉ (List.finRange 2).filter (· ∉ ([0, 1] : List (Fin 2))) by decide)

/-- Which update lands where: update e lands on entry (n, m) exactly when its pair is (n, m). -/
theorem resultIdx_pair_iff (idx : IVec ⟨2, ![E, 2]⟩ w) (e : Fin E) (n : Fin N) (m : Fin M) :
    (pairDims wf).resultIdx? (ix1 e) idx = some (ix2 n m)
      ↔ (idx (ix2 e 0)).toInt = (n : ℤ) ∧ (idx (ix2 e 1)).toInt = (m : ℤ) := by
  rw [ScatterRows.resultIdx_eq_some_iff]
  constructor
  · intro h
    have h0 := h 0
    have h1 := h 1
    rw [start_pair_zero, window_pair] at h0
    rw [start_pair_one, window_pair] at h1
    have h0' : (idx (ix2 e 0)).toInt + ((0 : ℕ) : ℤ) = (n.val : ℤ) := h0
    have h1' : (idx (ix2 e 1)).toInt + ((0 : ℕ) : ℤ) = (m.val : ℤ) := h1
    exact ⟨by omega, by omega⟩
  · rintro ⟨h0, h1⟩ a
    match a with
    | ⟨0, _⟩ =>
      show (pairDims wf).start (ix1 e) idx 0 + (((pairDims wf).window (ix1 e) 0 : ℕ) : ℤ) = (n.val : ℤ)
      rw [start_pair_zero, window_pair]
      omega
    | ⟨1, _⟩ =>
      show (pairDims wf).start (ix1 e) idx 1 + (((pairDims wf).window (ix1 e) 1 : ℕ) : ℤ) = (m.val : ℤ)
      rw [start_pair_one, window_pair]
      omega

/-- The scatter read at (n, m): the operand's entry plus the sum of the updates whose pair is (n, m). -/
theorem scatterAdd_pair_apply {φ : FTy} (x : FVec Ideal ⟨2, ![N, M]⟩ φ) (idx : IVec ⟨2, ![E, 2]⟩ w)
    (upd : FVec Ideal ⟨1, ![E]⟩ φ) (n : Fin N) (m : Fin M) :
    Host.scatterAdd (F := Ideal) (pairDims wf) x idx upd (ix2 n m)
      = x (ix2 n m) + ∑ e ∈ Finset.univ.filter (fun e : Fin E =>
          (idx (ix2 e 0)).toInt = (n : ℤ) ∧ (idx (ix2 e 1)).toInt = (m : ℤ)), upd (ix1 e) := by
  show x (ix2 n m) + ∑ j ∈ Finset.univ.filter (fun j =>
      (pairDims wf).resultIdx? j idx = some (ix2 n m)), upd j = _
  congr 1
  rw [Finset.sum_filter, ScatterRows.sum_idx1, Finset.sum_filter]
  exact Finset.sum_congr rfl fun e _ => if_congr (resultIdx_pair_iff wf idx e n m) rfl rfl

end Pairs

/-! ## The kernel's host stretch as one term -/

/-- The contents of an array of shape `s` and element type `e` at the ideal values. -/
abbrev Cont (s : Shape) (e : EltTy) : Type := (⟨s, e⟩ : BufTy).Contents (Elt Ideal)

/-- Row 0 of the edge array: the edges' first endpoints. -/
def edgeRow0 (x1 : Cont S2x262144 .i32) : IVec S262144 32 :=
  shapeCast S262144 (extractStridedSlice S1x262144 ![0, 0] x1 slices_S2x262144_S1x262144_0_0) shapeCasts_S1x262144_S262144

/-- Row 1 of the edge array: the edges' second endpoints. -/
def edgeRow1 (x1 : Cont S2x262144 .i32) : IVec S262144 32 :=
  shapeCast S262144 (extractStridedSlice S1x262144 ![1, 0] x1 slices_S2x262144_S1x262144_1_0) shapeCasts_S1x262144_S262144

/-- Negative endpoints wrapped: v + 8192 where v < 0, v elsewhere. -/
def wrapE (v : IVec S262144 32) : IVec S262144 32 :=
  select (cmpi .slt v (broadcastInDim S262144 ![] bcast_S_S262144 (constantI S_ 32 0#32)))
    (addi v (broadcastInDim S262144 ![] bcast_S_S262144 (constantI S_ 32 8192#32))) v

/-- Two endpoint vectors as the two columns of an array of index pairs. -/
def pairE (a b : IVec S262144 32) : IVec S262144x2 32 :=
  concatenate S262144x2 1
    [⟨S262144x1, (broadcastInDim S262144x1 ![0] bcast_S262144_S262144x1_0 a : IVec S262144x1 32)⟩,
     ⟨S262144x1, (broadcastInDim S262144x1 ![0] bcast_S262144_S262144x1_0 b : IVec S262144x1 32)⟩]
    concatenates_S262144x1_S262144x1_S262144x2_d1

/-- One 1 per edge. -/
def onesE : FVec Ideal S262144 .f32 :=
  broadcastInDim S262144 ![] bcast_S_S262144 (constant (F := Ideal) S_ .f32 0x3F800000#32)

/-- The symmetric 0/1 matrix of the edges: entries (e₀, e₁) and then (e₁, e₀) of the zero matrix set to 1. -/
def sharedScatter (x1 : Cont S2x262144 .i32) : FVec Ideal S8192x8192 .f32 :=
  Host.scatter scatter_S8192x8192_S262144x2_S262144_n_01_01_1 (fun _ b => b)
    (Host.scatter scatter_S8192x8192_S262144x2_S262144_n_01_01_1 (fun _ b => b)
      (broadcastInDim S8192x8192 ![] bcast_S_S8192x8192 (constant (F := Ideal) S_ .f32 0x00000000#32))
      (pairE (wrapE (edgeRow0 x1)) (wrapE (edgeRow1 x1))) onesE)
    (pairE (wrapE (edgeRow1 x1)) (wrapE (edgeRow0 x1))) onesE

/-- Negative node numbers wrapped, on a vector of 8192 of them. -/
def wrapD (v : IVec S8192 32) : IVec S8192 32 :=
  select (cmpi .slt v (broadcastInDim S8192 ![] bcast_S_S8192 (constantI S_ 32 0#32)))
    (addi v (broadcastInDim S8192 ![] bcast_S_S8192 (constantI S_ 32 8192#32))) v

/-- The node numbers 0 … 8191 as one column. -/
def diagCol : IVec S8192x1 32 :=
  broadcastInDim S8192x1 ![0] bcast_S8192_S8192x1_0 (wrapD (iotaInDim S8192 32 0))

/-- The index pairs (r, r) of the diagonal. -/
def diagIdx : IVec S8192x2 32 :=
  concatenate S8192x2 1 [⟨S8192x1, diagCol⟩, ⟨S8192x1, diagCol⟩] concatenates_S8192x1_S8192x1_S8192x2_d1

/-- One 1 per node. -/
def onesD : FVec Ideal S8192 .f32 :=
  broadcastInDim S8192 ![] bcast_S_S8192 (constant (F := Ideal) S_ .f32 0x3F800000#32)

/-- The self loops added the kernel's way: 1 accumulated at each diagonal index pair. -/
def withLoops (S : FVec Ideal S8192x8192 .f32) : FVec Ideal S8192x8192 .f32 :=
  Host.scatterAdd (F := Ideal) scatter_S8192x8192_S8192x2_S8192_n_01_01_1 S diagIdx onesD

/-- 1 / √(row sum), per row. -/
def dinv (A : FVec Ideal S8192x8192 .f32) : FVec Ideal S8192 .f32 :=
  Host.divf (F := Ideal) (φ := .f32) (broadcastInDim S8192 ![] bcast_S_S8192 (constant (F := Ideal) S_ .f32 0x3F800000#32))
    (Host.sqrt (F := Ideal) (Host.reduceAdd (F := Ideal) A (constant (F := Ideal) S_ .f32 0x00000000#32) reducesTo_S8192x8192_S8192_d1 h_S_))

/-- The symmetric normalisation: entry (p, q) becomes dinv(p) · A(p, q) · dinv(q). -/
def normalise (A : FVec Ideal S8192x8192 .f32) : FVec Ideal S8192x8192 .f32 :=
  mulf (F := Ideal) (φ := .f32)
    (mulf (F := Ideal) (φ := .f32) (broadcastInDim S8192x8192 ![0, 1] bcast_S8192x1_S8192x8192_0_1
        (broadcastInDim S8192x1 ![0] bcast_S8192_S8192x1_0 (dinv A))) A)
    (broadcastInDim S8192x8192 ![0, 1] bcast_S1x8192_S8192x8192_0_1
        (broadcastInDim S1x8192 ![1] bcast_S8192_S1x8192_1 (dinv A)))

/-- The normalised adjacency as the kernel's host program computes it from the edge array. -/
def kAdj (x1 : Cont S2x262144 .i32) : Cont S8192x8192 .bf16 :=
  truncf (F := Ideal) (φ := .f32) .bf16 (normalise (withLoops (sharedScatter x1))) bitsLt_bf16_f32

/-- The identity matrix as the reference spells it: 1 where the row number (plus 0) equals the column number. -/
def eye : FVec Ideal S8192x8192 .f32 :=
  uitofp (F := Ideal) .f32
    (cmpi .eq
      (addi (iotaInDim S8192x8192 32 0) (broadcastInDim S8192x8192 ![] bcast_S_S8192x8192 (constantI S_ 32 0#32)))
      (iotaInDim S8192x8192 32 1))

/-- The normalised adjacency the reference's way: the matrix of the edges plus the identity, normalised. -/
def refAdj (x1 : Cont S2x262144 .i32) : Cont S8192x8192 .f32 :=
  normalise (addf (F := Ideal) (φ := .f32) (sharedScatter x1) eye)

set_option maxRecDepth 8192 in
set_option maxHeartbeats 40000000 in
/-- After the two stretches of host operations before the first kernel the adjacency buffer holds `kAdj` of the edge
    array. -/
theorem after_hostOps0_v61 (W : Valuation τ sig (Elt Ideal)) :
    StableHlo.after (main_part1_ops0 (F := Ideal)) (StableHlo.after (main_part0_ops0 (F := Ideal)) W)
        (Proc.devRef .tc main_v61)
      = kAdj (W (Proc.devRef .tc main_arg1)) := by
  after_results_simp <;> rfl

/-! ## The diagonal index pairs and the ones, entry by entry -/

/-- The word of a node number below 8192, read signed, is the number. -/
theorem toInt_word (r : Fin 8192) : (BitVec.ofNat 32 r.val).toInt = (r.val : ℤ) := by
  have h := r.isLt
  rw [BitVec.toInt_eq_toNat_cond, BitVec.toNat_ofNat, Nat.mod_eq_of_lt (by omega)]
  split <;> omega

/-- Such a word is not negative. -/
theorem slt_word_zero (r : Fin 8192) : IntOp.cmpi .slt (BitVec.ofNat 32 r.val) 0#32 = 0#1 := by
  have h : (BitVec.ofNat 32 r.val).slt 0#32 = false := by
    unfold BitVec.slt
    rw [toInt_word]
    simp
  show BitVec.ofBool ((BitVec.ofNat 32 r.val).slt 0#32) = 0#1
  rw [h]
  rfl

/-- The wrap of negative numbers leaves the node numbers alone. -/
theorem wrapD_iota (r : Fin 8192) : wrapD (iotaInDim S8192 32 0) (ix1 r) = BitVec.ofNat 32 r.val := by
  have hz : (broadcastInDim S8192 ![] bcast_S_S8192 (constantI S_ 32 0#32) : IVec S8192 32) (ix1 r) = 0#32 :=
    broadcastInDim_scalar_apply bcast_S_S8192 (constantI S_ 32 0#32) (ix1 r)
  show Scalar.select (IntOp.cmpi .slt (BitVec.ofNat 32 r.val)
      ((broadcastInDim S8192 ![] bcast_S_S8192 (constantI S_ 32 0#32) : IVec S8192 32) (ix1 r))) _ (BitVec.ofNat 32 r.val) = _
  rw [hz, slt_word_zero, select_zero]

/-- Row r of the column of node numbers is the word of r. -/
theorem diagCol_apply (r : Fin 8192) : diagCol (ix2 r (0 : Fin 1)) = BitVec.ofNat 32 r.val := by
  unfold diagCol
  refine (broadcastInDim_apply _ bcast_S8192_S8192x1_0 _ (ix2 r (0 : Fin 1)) (ix1 r) (fun a => match a with
    | ⟨0, _⟩ => by show r.val = if (8192 : Nat) = 1 then 0 else r.val; rw [if_neg (by decide)])).trans ?_
  exact wrapD_iota r

/-- The first component of the r-th diagonal pair is the word of r … -/
theorem diagIdx_apply_zero (r : Fin 8192) : diagIdx (ix2 r (0 : Fin 2)) = BitVec.ofNat 32 r.val := by
  unfold diagIdx
  refine (concatenate_pair_apply_left _ diagCol diagCol concatenates_S8192x1_S8192x1_S8192x2_d1 (ix2 r (0 : Fin 2)) rfl
    (ix2 r (0 : Fin 1)) (fun b => match b with
      | ⟨0, _⟩ => rfl
      | ⟨1, _⟩ => rfl)).trans ?_
  exact diagCol_apply r

/-- … and so is the second. -/
theorem diagIdx_apply_one (r : Fin 8192) : diagIdx (ix2 r (1 : Fin 2)) = BitVec.ofNat 32 r.val := by
  unfold diagIdx
  refine (concatenate_pair_apply_right _ diagCol diagCol concatenates_S8192x1_S8192x1_S8192x2_d1 (ix2 r (1 : Fin 2)) rfl rfl
    (ix2 r (0 : Fin 1)) (fun b => match b with
      | ⟨0, _⟩ => fun _ => rfl
      | ⟨1, _⟩ => fun h => absurd rfl h) rfl).trans ?_
  exact diagCol_apply r

/-- Every update is the number 1. -/
theorem onesD_apply (r : Fin 8192) : onesD (ix1 r) = 1 := by
  unfold onesD
  rw [broadcastInDim_scalar_apply]
  exact Ideal.ofBits_one_f32

/-- The ones accumulated at the diagonal pairs: entry (p, q) receives 1 when p = q and nothing otherwise. -/
theorem diag_sum (p q : Fin 8192) :
    (∑ e ∈ Finset.univ.filter (fun e : Fin 8192 =>
        (diagIdx (ix2 e 0)).toInt = (p : ℤ) ∧ (diagIdx (ix2 e 1)).toInt = (q : ℤ)), onesD (ix1 e))
      = if p = q then (1 : EReal) else 0 := by
  have hf : ∀ e : Fin 8192,
      ((diagIdx (ix2 e 0)).toInt = (p : ℤ) ∧ (diagIdx (ix2 e 1)).toInt = (q : ℤ)) ↔ (e = p ∧ e = q) := by
    intro e
    rw [diagIdx_apply_zero, diagIdx_apply_one, toInt_word]
    constructor
    · rintro ⟨h0, h1⟩
      exact ⟨Fin.ext (by omega), Fin.ext (by omega)⟩
    · rintro ⟨rfl, rfl⟩
      exact ⟨rfl, rfl⟩
  rw [Finset.sum_filter]
  rw [Finset.sum_congr rfl fun e _ => if_congr (hf e) (onesD_apply e) rfl]
  by_cases hpq : p = q
  · subst hpq
    rw [if_pos rfl]
    simp
  · rw [if_neg hpq]
    exact Finset.sum_eq_zero fun e _ => if_neg fun h => hpq (h.1.symm.trans h.2)

/-! ## The identity matrix as the reference spells it -/

/-- The comparison of the row number with the column number, converted to a number: 1 on the diagonal, 0 off it. -/
theorem eye_apply (p q : Fin 8192) :
    FloatOps.uitofp (F := Ideal) .f32
        (IntOp.cmpi .eq (IntOp.addi (BitVec.ofNat 32 p.val) 0#32) (BitVec.ofNat 32 q.val))
      = if p = q then (1 : EReal) else 0 := by
  have hadd : IntOp.addi (BitVec.ofNat 32 p.val) 0#32 = BitVec.ofNat 32 p.val := BitVec.add_zero _
  rw [hadd]
  by_cases h : p = q
  · subst h
    have hc : IntOp.cmpi .eq (BitVec.ofNat 32 p.val) (BitVec.ofNat 32 p.val) = 1#1 := by
      show BitVec.ofBool (BitVec.ofNat 32 p.val == BitVec.ofNat 32 p.val) = 1#1
      rw [beq_self_eq_true]
      rfl
    rw [hc, if_pos rfl]
    show (((1#1 : BitVec 1).toNat : ℝ) : EReal) = 1
    simp
  · have hne : BitVec.ofNat 32 p.val ≠ BitVec.ofNat 32 q.val := fun e => h (Fin.ext (by
      have hp := p.isLt
      have hq := q.isLt
      have := congrArg BitVec.toNat e
      rw [BitVec.toNat_ofNat, BitVec.toNat_ofNat, Nat.mod_eq_of_lt (by omega), Nat.mod_eq_of_lt (by omega)] at this
      exact this))
    have hc : IntOp.cmpi .eq (BitVec.ofNat 32 p.val) (BitVec.ofNat 32 q.val) = 0#1 := by
      show BitVec.ofBool (BitVec.ofNat 32 p.val == BitVec.ofNat 32 q.val) = 0#1
      rw [beq_eq_false_iff_ne.mpr hne]
      rfl
    rw [hc, if_neg h]
    show (((0#1 : BitVec 1).toNat : ℝ) : EReal) = 0
    simp

/-- The identity matrix, entry by entry. -/
theorem eye_entry (p q : Fin 8192) : eye (ix2 p q) = if p = q then (1 : EReal) else 0 := by
  have hz : (broadcastInDim S8192x8192 ![] bcast_S_S8192x8192 (constantI S_ 32 0#32) : IVec S8192x8192 32) (ix2 p q) = 0#32 :=
    broadcastInDim_scalar_apply bcast_S_S8192x8192 (constantI S_ 32 0#32) (ix2 p q)
  show FloatOps.uitofp (F := Ideal) .f32 (IntOp.cmpi .eq (IntOp.addi (BitVec.ofNat 32 p.val)
      ((broadcastInDim S8192x8192 ![] bcast_S_S8192x8192 (constantI S_ 32 0#32) : IVec S8192x8192 32) (ix2 p q)))
      (BitVec.ofNat 32 q.val)) = _
  rw [hz]
  exact eye_apply p q

/-! ## The two matrices with self loops are equal, and so are the normalised ones -/

/-- Adding 1 at each diagonal index pair is adding the identity matrix. -/
theorem withLoops_eq (S : FVec Ideal S8192x8192 .f32) : withLoops S = addf (F := Ideal) (φ := .f32) S eye := by
  funext i
  obtain ⟨p, q, rfl⟩ : ∃ (p : Fin 8192) (q : Fin 8192), i = ix2 p q := ⟨i 0, i 1, eq_ix2 i⟩
  refine (scatterAdd_pair_apply scatter_S8192x8192_S8192x2_S8192_n_01_01_1_wf S diagIdx onesD p q).trans ?_
  rw [diag_sum, addf_apply, eye_entry]

/-- The kernel's normalised adjacency is the reference's. -/
theorem kAdj_eq_ref (x1 : Cont S2x262144 .i32) : kAdj x1 = refAdj x1 := by
  unfold kAdj refAdj
  rw [withLoops_eq]
  rfl

end Cert.KernelIdeal.KMath

end
-- ==== Proof.KBound.lean ====
import proofs.«148437_j67826123538777_1_alg».proof.Proof.FrRunI
import proofs.«148437_j67826123538777_1_alg».proof.Proof.KAdjacency
import Idealize.ShloMosaic.Lib.StableHlo.Run
import Idealize.ShloMosaic.Lib.Pipeline.Value
import Idealize.ShloMosaic.Lib.ValueIdx

/-
  What each region finds at its entry, at the ideal values: an argument array is as launched at every boundary (no host
  operation and no region writes one); the normalised adjacency is what the first host stretch computes from the edge
  list, and nothing touches it afterwards; a bias vector reaches its aggregation region as a one-row matrix; a projection's
  output survives the reshape that follows it.
-/
set_option maxRecDepth 16384

noncomputable section

namespace Cert.KernelIdeal.KVal

open Cert.KernelIdeal Cert.KernelIdeal.Gen Cert.KernelIdeal.Fr Cert.KernelIdeal.KMath
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arguments at the boundaries where a region or a reshape reads them -/

theorem W1_arg0 (c : Dev nD) : W1 m ρ c (Proc.devRef .tc main_arg0) = m ((c : Thread nD τ).loc main_arg0) :=
  calc W1 m ρ c (Proc.devRef .tc main_arg0)
    _ = Wa m ρ c (Proc.devRef .tc main_arg0) := StableHlo.after_of_forall_not_mem (b := Proc.devRef .tc main_arg0) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W1_arg2 (c : Dev nD) : W1 m ρ c (Proc.devRef .tc main_arg2) = m ((c : Thread nD τ).loc main_arg2) :=
  calc W1 m ρ c (Proc.devRef .tc main_arg2)
    _ = Wa m ρ c (Proc.devRef .tc main_arg2) := StableHlo.after_of_forall_not_mem (b := Proc.devRef .tc main_arg2) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = Wa m ρ c (Proc.devRef .tc main_arg3) := StableHlo.after_of_forall_not_mem (b := Proc.devRef .tc main_arg3) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = Wa m ρ c (Proc.devRef .tc main_arg4) := StableHlo.after_of_forall_not_mem (b := Proc.devRef .tc main_arg4) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = Wa m ρ c (Proc.devRef .tc main_arg5) := StableHlo.after_of_forall_not_mem (b := Proc.devRef .tc main_arg5) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W7_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := StableHlo.after_of_forall_not_mem (b := Proc.devRef .tc main_arg6) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = Wa m ρ c (Proc.devRef .tc main_arg6) := StableHlo.after_of_forall_not_mem (b := Proc.devRef .tc main_arg6) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W8_arg7 (c : Dev nD) : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := W7_of_ne m ρ c main_arg7 (by decide)
    _ = W5 m ρ c (Proc.devRef .tc main_arg7) := StableHlo.after_of_forall_not_mem (b := Proc.devRef .tc main_arg7) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = Wa m ρ c (Proc.devRef .tc main_arg7) := StableHlo.after_of_forall_not_mem (b := Proc.devRef .tc main_arg7) _ _ (List.forall_iff_forall_mem.mp (by
          simp only [main_part1_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [main_part0_ops0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ## The adjacency: built before the first region, read by the three aggregation regions -/

theorem adj1 (c : Dev nD) : W1 m ρ c (Proc.devRef .tc main_v61) = kAdj (m ((c : Thread nD τ).loc main_arg1)) :=
  after_hostOps0_v61 (W0 m ρ c)

theorem adj3 (c : Dev nD) : W3 m ρ c (Proc.devRef .tc main_v61) = kAdj (m ((c : Thread nD τ).loc main_arg1)) :=
  calc W3 m ρ c (Proc.devRef .tc main_v61)
    _ = W2 m ρ c (Proc.devRef .tc main_v61) := StableHlo.after_of_forall_not_mem (b := Proc.devRef .tc main_v61) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v61) := W2_of_ne m ρ c main_v61 (by decide)
    _ = kAdj (m ((c : Thread nD τ).loc main_arg1)) := adj1 m ρ c

theorem adj6 (c : Dev nD) : W6 m ρ c (Proc.devRef .tc main_v61) = kAdj (m ((c : Thread nD τ).loc main_arg1)) :=
  calc W6 m ρ c (Proc.devRef .tc main_v61)
    _ = W5 m ρ c (Proc.devRef .tc main_v61) := StableHlo.after_of_forall_not_mem (b := Proc.devRef .tc main_v61) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v61) := W5_of_ne m ρ c main_v61 (by decide)
    _ = W3 m ρ c (Proc.devRef .tc main_v61) := (W4_arr m ρ c 0).trans (((dat1 (V3 m ρ) c).arrAt_in 0 rfl _).trans (A_eq1 (V3 m ρ) c 0))
    _ = W2 m ρ c (Proc.devRef .tc main_v61) := StableHlo.after_of_forall_not_mem (b := Proc.devRef .tc main_v61) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v61) := W2_of_ne m ρ c main_v61 (by decide)
    _ = kAdj (m ((c : Thread nD τ).loc main_arg1)) := adj1 m ρ c

theorem adj9 (c : Dev nD) : W9 m ρ c (Proc.devRef .tc main_v61) = kAdj (m ((c : Thread nD τ).loc main_arg1)) :=
  calc W9 m ρ c (Proc.devRef .tc main_v61)
    _ = W8 m ρ c (Proc.devRef .tc main_v61) := StableHlo.after_of_forall_not_mem (b := Proc.devRef .tc main_v61) _ _ (List.forall_iff_forall_mem.mp (by
          simp only [main_part1_ops3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v61) := W8_of_ne m ρ c main_v61 (by decide)
    _ = W6 m ρ c (Proc.devRef .tc main_v61) := (W7_arr m ρ c 0).trans (((dat3 (V6 m ρ) c).arrAt_in 0 rfl _).trans (A_eq3 (V6 m ρ) c 0))
    _ = W5 m ρ c (Proc.devRef .tc main_v61) := StableHlo.after_of_forall_not_mem (b := Proc.devRef .tc main_v61) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v61) := W5_of_ne m ρ c main_v61 (by decide)
    _ = W3 m ρ c (Proc.devRef .tc main_v61) := (W4_arr m ρ c 0).trans (((dat1 (V3 m ρ) c).arrAt_in 0 rfl _).trans (A_eq1 (V3 m ρ) c 0))
    _ = W2 m ρ c (Proc.devRef .tc main_v61) := StableHlo.after_of_forall_not_mem (b := Proc.devRef .tc main_v61) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v61) := W2_of_ne m ρ c main_v61 (by decide)
    _ = kAdj (m ((c : Thread nD τ).loc main_arg1)) := adj1 m ρ c

/-! ## The bias rows and the projections that survive a reshape -/

theorem v63_eq (c : Dev nD) : W3 m ρ c (Proc.devRef .tc main_v63) = shapeCast S1x512 (m ((c : Thread nD τ).loc main_arg3)) shapeCasts_S512_S1x512 := by
  have h : W3 m ρ c (Proc.devRef .tc main_v63) = shapeCast S1x512 (W2 m ρ c (Proc.devRef .tc main_arg3)) shapeCasts_S512_S1x512 := by
    show StableHlo.after main_part1_ops1 (W2 m ρ c) (Proc.devRef .tc main_v63) = _
    after_results; rfl
  rw [h, W2_arg3 m ρ c]

theorem v66_eq (c : Dev nD) : W6 m ρ c (Proc.devRef .tc main_v66) = shapeCast S1x512 (m ((c : Thread nD τ).loc main_arg5)) shapeCasts_S512_S1x512 := by
  have h : W6 m ρ c (Proc.devRef .tc main_v66) = shapeCast S1x512 (W5 m ρ c (Proc.devRef .tc main_arg5)) shapeCasts_S512_S1x512 := by
    show StableHlo.after main_part1_ops2 (W5 m ρ c) (Proc.devRef .tc main_v66) = _
    after_results; rfl
  rw [h, W5_arg5 m ρ c]

theorem v69_eq (c : Dev nD) : W9 m ρ c (Proc.devRef .tc main_v69) = shapeCast S1x256 (m ((c : Thread nD τ).loc main_arg7)) shapeCasts_S256_S1x256 := by
  have h : W9 m ρ c (Proc.devRef .tc main_v69) = shapeCast S1x256 (W8 m ρ c (Proc.devRef .tc main_arg7)) shapeCasts_S256_S1x256 := by
    show StableHlo.after main_part1_ops3 (W8 m ρ c) (Proc.devRef .tc main_v69) = _
    after_results; rfl
  rw [h, W8_arg7 m ρ c]

theorem v62_at3 (c : Dev nD) : W3 m ρ c (Proc.devRef .tc main_v62) = W2 m ρ c (Proc.devRef .tc main_v62) :=
  StableHlo.after_of_forall_not_mem (b := Proc.devRef .tc main_v62) _ _ (List.forall_iff_forall_mem.mp (by
          simp only [main_part1_ops1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem v65_at6 (c : Dev nD) : W6 m ρ c (Proc.devRef .tc main_v65) = W5 m ρ c (Proc.devRef .tc main_v65) :=
  StableHlo.after_of_forall_not_mem (b := Proc.devRef .tc main_v65) _ _ (List.forall_iff_forall_mem.mp (by
          simp only [main_part1_ops2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem v68_at9 (c : Dev nD) : W9 m ρ c (Proc.devRef .tc main_v68) = W8 m ρ c (Proc.devRef .tc main_v68) :=
  StableHlo.after_of_forall_not_mem (b := Proc.devRef .tc main_v68) _ _ (List.forall_iff_forall_mem.mp (by
          simp only [main_part1_ops3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.KVal

end
-- ==== Proof.Spec.lean ====
/-
  A three-layer graph convolution on the extended reals, entry by entry.

  With A an n × n matrix (the normalised adjacency), one layer sends a feature matrix h (n × K) to
    (A · (h · W) + b)(p, q) = Σ_j A(p, j) · (Σ_k h(j, k) · W(k, q)) + b(q),
  the rectifier is the entrywise maximum with 0, and the network is
    layer A (relu (layer A (relu (layer A x W₁ b₁)) W₂ b₂)) W₃ b₃.
  Nothing here mentions a program; sums are finite sums in the commutative monoid of the extended reals, so every
  regrouping of them is valid at the infinities too.
-/
import Idealize.ShloMosaic.PureOps.Ideal
import Idealize.ShloMosaic.Lib.ValueIdx

noncomputable section

open scoped BigOperators

namespace Cert.GcnSpec

open Idealize.ShloMosaic Idealize.ShloMosaic.ValueIdx

/-- An a × b matrix of extended reals, indexed as the arrays of the programs are. -/
abbrev Mat (a b : ℕ) : Type := (⟨2, ![a, b]⟩ : Shape).Idx → EReal

/-- The matrix product h · W, entry (p, q) = Σ_k h(p, k) · W(k, q). -/
def prod {n K N : ℕ} (h : Mat n K) (W : Mat K N) : Mat n N :=
  fun i => ∑ k : Fin K, h (ix2 (i 0) k) * W (ix2 k (i 1))

/-- One layer: A · (h · W) + b, the bias laid along the rows. -/
def layer {n K N : ℕ} (A : Mat n n) (h : Mat n K) (W : Mat K N) (b : Fin N → EReal) : Mat n N :=
  fun i => (∑ j : Fin n, A (ix2 (i 0) j) * prod h W (ix2 j (i 1))) + b (i 1)

/-- The rectifier, entry by entry. -/
def relu {a b : ℕ} (y : Mat a b) : Mat a b := fun i => max (y i) 0

/-- The network: two rectified layers and a plain one over the same adjacency. -/
def G (A : Mat 8192 8192) (x : Mat 8192 512) (W1 : Mat 512 512) (b1 : Fin 512 → EReal)
    (W2 : Mat 512 512) (b2 : Fin 512 → EReal) (W3 : Mat 512 256) (b3 : Fin 256 → EReal) : Mat 8192 256 :=
  layer A (relu (layer A (relu (layer A x W1 b1)) W2 b2)) W3 b3

theorem prod_apply {n K N : ℕ} (h : Mat n K) (W : Mat K N) (p : Fin n) (q : Fin N) :
    prod h W (ix2 p q) = ∑ k : Fin K, h (ix2 p k) * W (ix2 k q) := rfl

theorem layer_apply {n K N : ℕ} (A : Mat n n) (h : Mat n K) (W : Mat K N) (b : Fin N → EReal) (p : Fin n) (q : Fin N) :
    layer A h W b (ix2 p q) = (∑ j : Fin n, A (ix2 p j) * prod h W (ix2 j q)) + b q := rfl

theorem relu_apply {a b : ℕ} (y : Mat a b) (i : (⟨2, ![a, b]⟩ : Shape).Idx) : relu y i = max (y i) 0 := rfl

end Cert.GcnSpec

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.ValProj.lean ====
import proofs.«148437_j67826123538777_1_alg».proof.Proof.FrProjI
import proofs.«148437_j67826123538777_1_alg».proof.Proof.Spec
import proofs.«148437_j67826123538777_1_alg».proof.Proof.LibPlainMatmul
import Idealize.ShloMosaic.Lib.Pipeline.Value

set_option maxRecDepth 16384

noncomputable section

/-
  The three projection regions at the ideal values: the output array of each, after the region, is the matrix product
  of the two input arrays as the region finds them.

  A grid point t of a region works on rows 1024·t … 1024·t + 1023: its row block is those rows of h (all 512 columns),
  its weight block is the whole matrix W, and the body leaves in the output block the product of the two, entry (p, q) =
  Σ_k block(p, k) · W(k, q) — at the ideal values the roundings to bf16 are the identity and the product accumulates into
  zero. Row p of block t is row 1024·t + p of h, so the block left at t is block t of the whole product h · W; the eight
  blocks tile the 8192 rows, hence the array ends holding h · W.
-/
namespace Cert.KernelIdeal.KVal

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)
open scoped BigOperators

/-- The zero offsets of a whole-block rectangle, as a constant function. -/
theorem zero_off : (![0, 0] : Fin 2 → Nat) = fun _ => 0 := funext fun a => by fin_cases a <;> rfl

variable (V : (c : Dev nD) → (b : Ref sig .tc) → Buf (Elt Ideal) ((c : Thread nD τ).loc b))

/-! # Region 0: x · W₁ -/

/-- The body's result at an entry: the product of the two loaded blocks, Σ_k v0(p, k) · v2(k, q). -/
theorem prod_block0 (v0 : FVec Ideal S1024x512 .f32) (v2 : FVec Ideal S512x512 .f32) (p : Fin 1024) (q : Fin 512) :
    k0_pay1 (F := Ideal) v0 v2 (ix2 p q) = ∑ k : Fin 512, v0 (ix2 p k) * v2 (ix2 k q) := by
  unfold k0_pay1
  exact Cert.PlainMatmul.matmul_zero_apply dot_S1024x512_S512x512_S1024x512_1_0_0_1_n_n_wf none v0 v2 p q

/-- The index maps over the grid: the row block moves with the output block along the rows, point t at block row t;
    every other block index is 0. -/
theorem block_rows0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- Row p of the row block at point t is the array's row under row p of the output block, at the same column. -/
theorem row_read0 (c : Dev nD) (t : Fin cfg0.N) (p : Fin 1024) (k : Fin 512) (q : Fin 512)
    (e0 : win0_0.index t (0 : Fin 2) = win0_2.index t (0 : Fin 2)) (e1 : win0_0.index t (1 : Fin 2) = 0) :
    iblk0 V c 0 t (ix2 p k)
      = V c (Pipeline.arrRef spec0 0) (ix2 ((((cfg0.win 2).blk t).view.emb (ix2 p q)) 0) k) := by
  have h : ((cfg0.win 0).blk t).view.emb (ix2 p k) = ix2 ((((cfg0.win 2).blk t).view.emb (ix2 p q)) 0) k := by
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 512 + 1 * k.val = k.val; omega
  show V c (Pipeline.arrRef spec0 0) (((cfg0.win 0).blk t).view.emb (ix2 p k)) = _
  exact congrArg (V c (Pipeline.arrRef spec0 0)) h

/-- The weight block at every point is the whole matrix: its entry (k, q) is the array's, q the output block's column. -/
theorem weight_read0 (c : Dev nD) (t : Fin cfg0.N) (p : Fin 1024) (k : Fin 512) (q : Fin 512)
    (e2 : win0_1.index t (0 : Fin 2) = 0) (e3 : win0_1.index t (1 : Fin 2) = 0) (e4 : win0_2.index t (1 : Fin 2) = 0) :
    iblk0 V c 1 t (ix2 k q)
      = V c (Pipeline.arrRef spec0 1) (ix2 k ((((cfg0.win 2).blk t).view.emb (ix2 p q)) 1)) := by
  have h : ((cfg0.win 1).blk t).view.emb (ix2 k q) = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 512 + 1 * q.val = win0_2.index t (1 : Fin 2) * 512 + 1 * q.val; omega
  show V c (Pipeline.arrRef spec0 1) (((cfg0.win 1).blk t).view.emb (ix2 k q)) = _
  exact congrArg (V c (Pipeline.arrRef spec0 1)) h

/-- What point t writes back is block t of the product of the two arrays. -/
theorem wrote0 (c : Dev nD) (t : Fin cfg0.N) :
    (dat0 (F := Ideal) V c).flushed 2 t
      = ((cfg0.win 2).blk t).view.read (Elt Ideal)
          (Cert.GcnSpec.prod (n := 8192) (K := 512) (N := 512) (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zero_off]
  simp only [View.ld_unit_zero (S := S1024x512) zero_off, View.ld_unit_zero (S := S512x512) zero_off]
  obtain ⟨e0, e1, e2, e3, e4, e5⟩ := block_rows0 t
  funext j
  obtain ⟨p, q, rfl⟩ : ∃ (p : Fin 1024) (q : Fin 512), j = ix2 p q := ⟨j 0, j 1, eq_ix2 j⟩
  show k0_pay1 (F := Ideal) (iblk0 V c 0 t) (iblk0 V c 1 t) (ix2 p q)
    = Cert.GcnSpec.prod (n := 8192) (K := 512) (N := 512) (V c (Pipeline.arrRef spec0 0)) (V c (Pipeline.arrRef spec0 1))
        (((cfg0.win 2).blk t).view.emb (ix2 p q))
  refine (prod_block0 (iblk0 V c 0 t) (iblk0 V c 1 t) p q).trans ?_
  unfold Cert.GcnSpec.prod
  refine Finset.sum_congr rfl fun k _ => ?_
  exact congrArg₂ (fun x y : EReal => x * y) (row_read0 V c t p k q e0 e1) (weight_read0 V c t p k q e2 e3 e4)

/-- An index of the array is in point t's block iff each coordinate is in the block's range on its axis. -/
theorem mem_block0 (t : Fin cfg0.N) (i : S8192x512.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v62).slice (win0_2.rect t)).set ↔ _
  rw [View.set_slice_whole, Rect.mem_set_unit]
  exact Iff.rfl

/-- Row r of the array is in the block of point r / 1024, which is written back. -/
theorem tiled0 (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  obtain ⟨t, ht⟩ : ∃ t : Fin cfg0.N, t.val = (i 0).val / 1024 :=
    ⟨⟨(i 0).val / 1024, by rw [show cfg0.N = 8 from N_0]; omega⟩, rfl⟩
  obtain ⟨e0, e1, e2, e3, e4, e5⟩ := block_rows0 t
  refine ⟨t, flush0_2 t, ?_⟩
  rw [mem_block0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- The output array after region 0 is the product of its two input arrays. -/
theorem final0 (c : Dev nD) :
    (dat0 (F := Ideal) V c).arrAt 2 cfg0.N
      = Cert.GcnSpec.prod (n := 8192) (K := 512) (N := 512) (V c (Pipeline.arrRef spec0 0)) (V c (Pipeline.arrRef spec0 1)) :=
  (dat0 (F := Ideal) V c).arrAt_eq_of_cover 2 _ (fun t _ => wrote0 V c t) tiled0

/-! # Region 2: h₁ · W₂ (the row block in bf16) -/

/-- The body's result at an entry: the product of the two loaded blocks, Σ_k v0(p, k) · v2(k, q). -/
theorem prod_block2 (v0 : FVec Ideal S1024x512 .bf16) (v2 : FVec Ideal S512x512 .f32) (p : Fin 1024) (q : Fin 512) :
    k2_pay1 (F := Ideal) v0 v2 (ix2 p q) = ∑ k : Fin 512, v0 (ix2 p k) * v2 (ix2 k q) := by
  unfold k2_pay1
  rw [shapeCast_self]
  exact Cert.PlainMatmul.matmul_zero_apply dot_S1024x512_S512x512_S1024x512_1_0_0_1_n_n_wf none v0 v2 p q

/-- The index maps over the grid: the row block moves with the output block along the rows, point t at block row t;
    every other block index is 0. -/
theorem block_rows2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- Row p of the row block at point t is the array's row under row p of the output block, at the same column. -/
theorem row_read2 (c : Dev nD) (t : Fin cfg2.N) (p : Fin 1024) (k : Fin 512) (q : Fin 512)
    (e0 : win2_0.index t (0 : Fin 2) = win2_2.index t (0 : Fin 2)) (e1 : win2_0.index t (1 : Fin 2) = 0) :
    iblk2 V c 0 t (ix2 p k)
      = V c (Pipeline.arrRef spec2 0) (ix2 ((((cfg2.win 2).blk t).view.emb (ix2 p q)) 0) k) := by
  have h : ((cfg2.win 0).blk t).view.emb (ix2 p k) = ix2 ((((cfg2.win 2).blk t).view.emb (ix2 p q)) 0) k := by
    funext a; apply Fin.ext
    match a with
    | ⟨0, _⟩ => show win2_0.index t (0 : Fin 2) * 1024 + 1 * p.val = win2_2.index t (0 : Fin 2) * 1024 + 1 * p.val; omega
    | ⟨1, _⟩ => show win2_0.index t (1 : Fin 2) * 512 + 1 * k.val = k.val; omega
  show V c (Pipeline.arrRef spec2 0) (((cfg2.win 0).blk t).view.emb (ix2 p k)) = _
  exact congrArg (V c (Pipeline.arrRef spec2 0)) h

/-- The weight block at every point is the whole matrix: its entry (k, q) is the array's, q the output block's column. -/
theorem weight_read2 (c : Dev nD) (t : Fin cfg2.N) (p : Fin 1024) (k : Fin 512) (q : Fin 512)
    (e2 : win2_1.index t (0 : Fin 2) = 0) (e3 : win2_1.index t (1 : Fin 2) = 0) (e4 : win2_2.index t (1 : Fin 2) = 0) :
    iblk2 V c 1 t (ix2 k q)
      = V c (Pipeline.arrRef spec2 1) (ix2 k ((((cfg2.win 2).blk t).view.emb (ix2 p q)) 1)) := by
  have h : ((cfg2.win 1).blk t).view.emb (ix2 k q) = ix2 k ((((cfg2.win 2).blk t).view.emb (ix2 p q)) 1) := by
    funext a; apply Fin.ext
    match a with
    | ⟨0, _⟩ => show win2_1.index t (0 : Fin 2) * 512 + 1 * k.val = k.val; omega
    | ⟨1, _⟩ => show win2_1.index t (1 : Fin 2) * 512 + 1 * q.val = win2_2.index t (1 : Fin 2) * 512 + 1 * q.val; omega
  show V c (Pipeline.arrRef spec2 1) (((cfg2.win 1).blk t).view.emb (ix2 k q)) = _
  exact congrArg (V c (Pipeline.arrRef spec2 1)) h

/-- What point t writes back is block t of the product of the two arrays. -/
theorem wrote2 (c : Dev nD) (t : Fin cfg2.N) :
    (dat2 (F := Ideal) V c).flushed 2 t
      = ((cfg2.win 2).blk t).view.read (Elt Ideal)
          (Cert.GcnSpec.prod (n := 8192) (K := 512) (N := 512) (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero zero_off]
  simp only [View.ld_unit_zero (S := S1024x512) zero_off, View.ld_unit_zero (S := S512x512) zero_off]
  obtain ⟨e0, e1, e2, e3, e4, e5⟩ := block_rows2 t
  funext j
  obtain ⟨p, q, rfl⟩ : ∃ (p : Fin 1024) (q : Fin 512), j = ix2 p q := ⟨j 0, j 1, eq_ix2 j⟩
  show k2_pay1 (F := Ideal) (iblk2 V c 0 t) (iblk2 V c 1 t) (ix2 p q)
    = Cert.GcnSpec.prod (n := 8192) (K := 512) (N := 512) (V c (Pipeline.arrRef spec2 0)) (V c (Pipeline.arrRef spec2 1))
        (((cfg2.win 2).blk t).view.emb (ix2 p q))
  refine (prod_block2 (iblk2 V c 0 t) (iblk2 V c 1 t) p q).trans ?_
  unfold Cert.GcnSpec.prod
  refine Finset.sum_congr rfl fun k _ => ?_
  exact congrArg₂ (fun x y : EReal => x * y) (row_read2 V c t p k q e0 e1) (weight_read2 V c t p k q e2 e3 e4)

/-- An index of the array is in point t's block iff each coordinate is in the block's range on its axis. -/
theorem mem_block2 (t : Fin cfg2.N) (i : S8192x512.Idx) :
    i ∈ ((cfg2.win 2).blk t).view.set ↔ ∀ a : Fin 2, win2_2.index t a * S1024x512.size a ≤ (i a).val ∧ (i a).val < win2_2.index t a * S1024x512.size a + S1024x512.size a := by
  show i ∈ ((View.whole main_v65).slice (win2_2.rect t)).set ↔ _
  rw [View.set_slice_whole, Rect.mem_set_unit]
  exact Iff.rfl

/-- Row r of the array is in the block of point r / 1024, which is written back. -/
theorem tiled2 (i : S8192x512.Idx) :
    ∃ t : Fin cfg2.N, (cfg2.win 2).flush t = true ∧ i ∈ ((cfg2.win 2).blk t).view.set := by
  have hi0 : (i 0).val < 8192 := (i 0).isLt
  have hi1 : (i 1).val < 512 := (i 1).isLt
  obtain ⟨t, ht⟩ : ∃ t : Fin cfg2.N, t.val = (i 0).val / 1024 :=
    ⟨⟨(i 0).val / 1024, by rw [show cfg2.N = 8 from N_2]; omega⟩, rfl⟩
  obtain ⟨e0, e1, e2, e3, e4, e5⟩ := block_rows2 t
  refine ⟨t, flush2_2 t, ?_⟩
  rw [mem_block2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 512 ≤ (i 1).val ∧ (i 1).val < win2_2.index t (1 : Fin 2) * 512 + 512; omega

/-- The output array after region 2 is the product of its two input arrays. -/
theorem final2 (c : Dev nD) :
    (dat2 (F := Ideal) V c).arrAt 2 cfg2.N
      = Cert.GcnSpec.prod (n := 8192) (K := 512) (N := 512) (V c (Pipeline.arrRef spec2 0)) (V c (Pipeline.arrRef spec2 1)) :=
  (dat2 (F := Ideal) V c).arrAt_eq_of_cover 2 _ (fun t _ => wrote2 V c t) tiled2

/-! # Region 4: h₂ · W₃ (the weights and the output 256 columns wide) -/

/-- The body's result at an entry: the product of the two loaded blocks, Σ_k v0(p, k) · v2(k, q). -/
theorem prod_block4 (v0 : FVec Ideal S1024x512 .bf16) (v2 : FVec Ideal S512x256 .f32) (p : Fin 1024) (q : Fin 256) :
    k4_pay1 (F := Ideal) v0 v2 (ix2 p q) = ∑ k : Fin 512, v0 (ix2 p k) * v2 (ix2 k q) := by
  unfold k4_pay1
  rw [shapeCast_self]
  exact Cert.PlainMatmul.matmul_zero_apply dot_S1024x512_S512x256_S1024x256_1_0_0_1_n_n_wf none v0 v2 p q

/-- The index maps over the grid: the row block moves with the output block along the rows, point t at block row t;
    every other block index is 0. -/
theorem block_rows4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) = t.val :=
  (by decide +kernel : ∀ t : Fin grid4.N, _)

/-- Row p of the row block at point t is the array's row under row p of the output block, at the same column. -/
theorem row_read4 (c : Dev nD) (t : Fin cfg4.N) (p : Fin 1024) (k : Fin 512) (q : Fin 256)
    (e0 : win4_0.index t (0 : Fin 2) = win4_2.index t (0 : Fin 2)) (e1 : win4_0.index t (1 : Fin 2) = 0) :
    iblk4 V c 0 t (ix2 p k)
      = V c (Pipeline.arrRef spec4 0) (ix2 ((((cfg4.win 2).blk t).view.emb (ix2 p q)) 0) k) := by
  have h : ((cfg4.win 0).blk t).view.emb (ix2 p k) = ix2 ((((cfg4.win 2).blk t).view.emb (ix2 p q)) 0) k := by
    funext a; apply Fin.ext
    match a with
    | ⟨0, _⟩ => show win4_0.index t (0 : Fin 2) * 1024 + 1 * p.val = win4_2.index t (0 : Fin 2) * 1024 + 1 * p.val; omega
    | ⟨1, _⟩ => show win4_0.index t (1 : Fin 2) * 512 + 1 * k.val = k.val; omega
  show V c (Pipeline.arrRef spec4 0) (((cfg4.win 0).blk t).view.emb (ix2 p k)) = _
  exact congrArg (V c (Pipeline.arrRef spec4 0)) h

/-- The weight block at every point is the whole matrix: its entry (k, q) is the array's, q the output block's column. -/
theorem weight_read4 (c : Dev nD) (t : Fin cfg4.N) (p : Fin 1024) (k : Fin 512) (q : Fin 256)
    (e2 : win4_1.index t (0 : Fin 2) = 0) (e3 : win4_1.index t (1 : Fin 2) = 0) (e4 : win4_2.index t (1 : Fin 2) = 0) :
    iblk4 V c 1 t (ix2 k q)
      = V c (Pipeline.arrRef spec4 1) (ix2 k ((((cfg4.win 2).blk t).view.emb (ix2 p q)) 1)) := by
  have h : ((cfg4.win 1).blk t).view.emb (ix2 k q) = ix2 k ((((cfg4.win 2).blk t).view.emb (ix2 p q)) 1) := by
    funext a; apply Fin.ext
    match a with
    | ⟨0, _⟩ => show win4_1.index t (0 : Fin 2) * 512 + 1 * k.val = k.val; omega
    | ⟨1, _⟩ => show win4_1.index t (1 : Fin 2) * 256 + 1 * q.val = win4_2.index t (1 : Fin 2) * 256 + 1 * q.val; omega
  show V c (Pipeline.arrRef spec4 1) (((cfg4.win 1).blk t).view.emb (ix2 k q)) = _
  exact congrArg (V c (Pipeline.arrRef spec4 1)) h

/-- What point t writes back is block t of the product of the two arrays. -/
theorem wrote4 (c : Dev nD) (t : Fin cfg4.N) :
    (dat4 (F := Ideal) V c).flushed 2 t
      = ((cfg4.win 2).blk t).view.read (Elt Ideal)
          (Cert.GcnSpec.prod (n := 8192) (K := 512) (N := 256) (V c (Pipeline.arrRef spec4 0)) (V c (Pipeline.arrRef spec4 1))) := by
  show (cfg4.win 2).cut (grid4.coords t) ((dat4 (F := Ideal) V c).after 2 t) = _
  rw [after4_2]
  unfold out4_2
  rw [View.canon_unit_zero zero_off]
  simp only [View.ld_unit_zero (S := S1024x512) zero_off, View.ld_unit_zero (S := S512x256) zero_off]
  obtain ⟨e0, e1, e2, e3, e4, e5⟩ := block_rows4 t
  funext j
  obtain ⟨p, q, rfl⟩ : ∃ (p : Fin 1024) (q : Fin 256), j = ix2 p q := ⟨j 0, j 1, eq_ix2 j⟩
  show k4_pay1 (F := Ideal) (iblk4 V c 0 t) (iblk4 V c 1 t) (ix2 p q)
    = Cert.GcnSpec.prod (n := 8192) (K := 512) (N := 256) (V c (Pipeline.arrRef spec4 0)) (V c (Pipeline.arrRef spec4 1))
        (((cfg4.win 2).blk t).view.emb (ix2 p q))
  refine (prod_block4 (iblk4 V c 0 t) (iblk4 V c 1 t) p q).trans ?_
  unfold Cert.GcnSpec.prod
  refine Finset.sum_congr rfl fun k _ => ?_
  exact congrArg₂ (fun x y : EReal => x * y) (row_read4 V c t p k q e0 e1) (weight_read4 V c t p k q e2 e3 e4)

/-- An index of the array is in point t's block iff each coordinate is in the block's range on its axis. -/
theorem mem_block4 (t : Fin cfg4.N) (i : S8192x256.Idx) :
    i ∈ ((cfg4.win 2).blk t).view.set ↔ ∀ a : Fin 2, win4_2.index t a * S1024x256.size a ≤ (i a).val ∧ (i a).val < win4_2.index t a * S1024x256.size a + S1024x256.size a := by
  show i ∈ ((View.whole main_v68).slice (win4_2.rect t)).set ↔ _
  rw [View.set_slice_whole, Rect.mem_set_unit]
  exact Iff.rfl

/-- Row r of the array is in the block of point r / 1024, which is written back. -/
theorem tiled4 (i : S8192x256.Idx) :
    ∃ t : Fin cfg4.N, (cfg4.win 2).flush t = true ∧ i ∈ ((cfg4.win 2).blk t).view.set := by
  have hi0 : (i 0).val < 8192 := (i 0).isLt
  have hi1 : (i 1).val < 256 := (i 1).isLt
  obtain ⟨t, ht⟩ : ∃ t : Fin cfg4.N, t.val = (i 0).val / 1024 :=
    ⟨⟨(i 0).val / 1024, by rw [show cfg4.N = 8 from N_4]; omega⟩, rfl⟩
  obtain ⟨e0, e1, e2, e3, e4, e5⟩ := block_rows4 t
  refine ⟨t, flush4_2 t, ?_⟩
  rw [mem_block4]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 256 ≤ (i 1).val ∧ (i 1).val < win4_2.index t (1 : Fin 2) * 256 + 256; omega

/-- The output array after region 4 is the product of its two input arrays. -/
theorem final4 (c : Dev nD) :
    (dat4 (F := Ideal) V c).arrAt 2 cfg4.N
      = Cert.GcnSpec.prod (n := 8192) (K := 512) (N := 256) (V c (Pipeline.arrRef spec4 0)) (V c (Pipeline.arrRef spec4 1)) :=
  (dat4 (F := Ideal) V c).arrAt_eq_of_cover 2 _ (fun t _ => wrote4 V c t) tiled4

end Cert.KernelIdeal.KVal

end
-- ==== Proof.LibDenseLayer.lean ====
/-
  A dense layer on a block of rows, on the extended reals.

  On one row a dense layer is  (h·W + b)_q = Σ_k h_k · W(k, q) + b_q  (`affine`), and the rectifier is the entrywise
  maximum with 0 (`relu`). A kernel body spells the layer on a block of R rows as a matrix product [R, K] × [K, N]
  accumulated into the f32 zero splat plus the bias row [1, N] laid along the R rows (`layerVec`), and the rectifier
  as the maximum with the splat of the f32 zero word (`reluVec`). At the ideal values entry (p, q) of the former is
  the affine image of row p at q (`layerVec_apply`) and an entry of the latter is the maximum with 0
  (`reluVec_apply`), for any R, K, N. `rowOf` reads a [1, N] bias row as the vector of its entries.
  Imports LibPlainMatmul.lean (the product read at an entry) and the library; nothing here mentions a program.
-/
import proofs.«148437_j67826123538777_1_alg».proof.Proof.LibPlainMatmul
import Idealize.ShloMosaic.Lib.Pipeline.Value
import Idealize.ShloMosaic.Lib.ValueIdx
import Idealize.ShloMosaic.PureOps.Ideal.Laws

noncomputable section

open scoped BigOperators

namespace Cert.DenseLayer

open Idealize.ShloMosaic Idealize.ShloMosaic.ValueIdx

/-- An affine layer on one row: `(h·W + b)_q = Σ_k h_k · W(k, q) + b_q`. -/
def affine {K N : ℕ} (h : Fin K → EReal) (W : (⟨2, ![K, N]⟩ : Shape).Idx → EReal) (b : Fin N → EReal) : Fin N → EReal :=
  fun q => (∑ k : Fin K, h k * W (ix2 k q)) + b q

/-- The rectifier, entry by entry. -/
def relu {N : ℕ} (v : Fin N → EReal) : Fin N → EReal := fun q => max (v q) 0

/-- A bias row [1, N] as the vector of its N entries. -/
def rowOf {N : ℕ} (b : (⟨2, ![1, N]⟩ : Shape).Idx → EReal) : Fin N → EReal := fun q => b (ix2 0 q)

/-- One layer on a block of R rows as a program spells it: the product into the zero splat, plus the bias row
    [1, N] laid along the R rows. -/
def layerVec {R K N : ℕ}
    (wf : DotDims.WF (⟨2, ![R, K]⟩ : Shape) (⟨2, ![K, N]⟩ : Shape) (⟨2, ![R, N]⟩ : Shape) [1] [0] [0] [1] [] [])
    (hb : (⟨2, ![1, N]⟩ : Shape).Broadcasts ⟨2, ![R, N]⟩)
    (h : FVec Ideal (⟨2, ![R, K]⟩ : Shape) .f32) (w : FVec Ideal (⟨2, ![K, N]⟩ : Shape) .f32)
    (b : FVec Ideal (⟨2, ![1, N]⟩ : Shape) .f32) : FVec Ideal (⟨2, ![R, N]⟩ : Shape) .f32 :=
  addf (matmul (PlainMatmul.plain wf) none h w (constant (⟨2, ![R, N]⟩ : Shape) .f32 0x00000000#32))
    (broadcastTo (⟨2, ![R, N]⟩ : Shape) b hb)

/-- The rectifier on a vector: the maximum with the splat of the f32 zero word. -/
def reluVec {s : Shape} (v : FVec Ideal s .f32) : FVec Ideal s .f32 :=
  maximumf v (broadcast s (Scalar.ofBits (F := Ideal) .f32 0x00000000#32))

/-- Entry (p, q) of a layer: the affine image of row p, at q. -/
theorem layerVec_apply {R K N : ℕ}
    (wf : DotDims.WF (⟨2, ![R, K]⟩ : Shape) (⟨2, ![K, N]⟩ : Shape) (⟨2, ![R, N]⟩ : Shape) [1] [0] [0] [1] [] [])
    (hb : (⟨2, ![1, N]⟩ : Shape).Broadcasts ⟨2, ![R, N]⟩)
    (h : FVec Ideal (⟨2, ![R, K]⟩ : Shape) .f32) (w : FVec Ideal (⟨2, ![K, N]⟩ : Shape) .f32)
    (b : FVec Ideal (⟨2, ![1, N]⟩ : Shape) .f32) (p : Fin R) (q : Fin N) :
    layerVec wf hb h w b (ix2 p q) = affine (fun k => h (ix2 p k)) w (rowOf b) q :=
  congrArg₂ (· + ·) (PlainMatmul.matmul_zero_apply wf none h w p q)
    (broadcastTo_apply b hb (ix2 p q) (ix2 0 q) fun a => by
      match a with
      | ⟨0, _⟩ => exact (if_pos rfl).symm
      | ⟨1, _⟩ =>
        show q.val = if N = 1 then 0 else q.val
        split
        · have := q.isLt; omega
        · rfl)

/-- An entry of the rectifier: the maximum with 0. -/
theorem reluVec_apply {s : Shape} (v : FVec Ideal s .f32) (i : s.Idx) : reluVec v i = max (v i) 0 := by
  show max (v i) (FloatOps.ofBits (F := Ideal) .f32 0x00000000#32) = _
  rw [Ideal.ofBits_def, Ideal.ofBits_zero_f32]

end Cert.DenseLayer

end
-- ==== Proof.KPayloads.lean ====
/-
  The arithmetic of the six kernel bodies, entry by entry, on the extended reals.

  A projection body multiplies a block of 1024 rows by the whole weight matrix into the zero accumulator; the
  changes of format around the product are the identity on extended reals, so entry (p, q) of what it stores is
  Σ_k h(p, k) · W(k, q).  An aggregation body clears its accumulator (every entry 0), adds to it the product of a
  1024 × 1024 block of the adjacency with a 1024-row block of the projected features
  (acc(p, q) + Σ_k A(p, k) · y(k, q)), and at the last block adds the bias row along the rows and, in the first
  two layers, takes the maximum with 0.  Each statement is over variables of the bodies' own vector types, at
  explicit coordinates.
-/
import proofs.«148437_j67826123538777_1_alg».proof.Proof.Gen.KernelIdeal.Skeleton
import proofs.«148437_j67826123538777_1_alg».proof.Proof.LibPlainMatmul
import proofs.«148437_j67826123538777_1_alg».proof.Proof.LibDenseLayer
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KMath

open Idealize.ShloMosaic Idealize.ShloMosaic.ValueIdx Idealize.SL.Sem
open Cert.KernelIdeal Cert.KernelIdeal.Gen

/-! ## The projections: a block of rows times the weights -/

/-- Layer 1's projection: entry (p, q) of the stored block is Σ_k x(p, k) · W₁(k, q). -/
theorem k0_pay1_apply (v0 : Vec Ideal S1024x512 .f32) (v2 : Vec Ideal S512x512 .f32) (p : Fin 1024) (q : Fin 512) :
    k0_pay1 (F := Ideal) v0 v2 (ix2 p q) = ∑ k : Fin 512, v0 (ix2 p k) * v2 (ix2 k q) := by
  unfold k0_pay1
  exact PlainMatmul.matmul_zero_apply (φ₁ := .bf16) (φ₂ := .bf16)
    dot_S1024x512_S512x512_S1024x512_1_0_0_1_n_n_wf none v0 v2 p q

/-- Layer 2's projection: entry (p, q) of the stored block is Σ_k h(p, k) · W₂(k, q). -/
theorem k2_pay1_apply (v0 : Vec Ideal S1024x512 .bf16) (v2 : Vec Ideal S512x512 .f32) (p : Fin 1024) (q : Fin 512) :
    k2_pay1 (F := Ideal) v0 v2 (ix2 p q) = ∑ k : Fin 512, v0 (ix2 p k) * v2 (ix2 k q) := by
  unfold k2_pay1
  simp only [shapeCast_self]
  exact PlainMatmul.matmul_zero_apply (φ₁ := .bf16) (φ₂ := .bf16)
    dot_S1024x512_S512x512_S1024x512_1_0_0_1_n_n_wf none v0 v2 p q

/-- Layer 3's projection: entry (p, q) of the stored block is Σ_k h(p, k) · W₃(k, q). -/
theorem k4_pay1_apply (v0 : Vec Ideal S1024x512 .bf16) (v2 : Vec Ideal S512x256 .f32) (p : Fin 1024) (q : Fin 256) :
    k4_pay1 (F := Ideal) v0 v2 (ix2 p q) = ∑ k : Fin 512, v0 (ix2 p k) * v2 (ix2 k q) := by
  unfold k4_pay1
  simp only [shapeCast_self]
  exact PlainMatmul.matmul_zero_apply (φ₁ := .bf16) (φ₂ := .bf16)
    dot_S1024x512_S512x256_S1024x256_1_0_0_1_n_n_wf none v0 v2 p q

/-! ## The aggregations: clear, accumulate one block of the contraction, finish -/

/-- The f32 zero word is the extended real 0. -/
theorem zero_word : Scalar.ofBits (F := Ideal) .f32 0x00000000#32 = (0 : EReal) := by
  show FloatOps.ofBits (F := Ideal) .f32 0x00000000#32 = _
  rw [Ideal.ofBits_def, Ideal.ofBits_zero_f32]

/-- Layer 1: the cleared accumulator is 0 everywhere. -/
theorem k1_pay1_apply (i : S1024x512.Idx) : k1_pay1 (F := Ideal) i = 0 := by
  unfold k1_pay1
  simp only [shapeCast_self]
  exact zero_word

/-- Layer 2: the cleared accumulator is 0 everywhere. -/
theorem k3_pay1_apply (i : S1024x512.Idx) : k3_pay1 (F := Ideal) i = 0 := by
  unfold k3_pay1
  simp only [shapeCast_self]
  exact zero_word

/-- Layer 3: the cleared accumulator is 0 everywhere. -/
theorem k5_pay1_apply (i : S1024x256.Idx) : k5_pay1 (F := Ideal) i = 0 := by
  unfold k5_pay1
  simp only [shapeCast_self]
  exact zero_word

/-- Layer 1: one step adds to the accumulator the product of the adjacency block with the feature block. -/
theorem k1_pay2_apply (v3 : Vec Ideal S1024x512 .f32) (v4 : Vec Ideal S1024x1024 .bf16) (v6 : Vec Ideal S1024x512 .bf16)
    (p : Fin 1024) (q : Fin 512) :
    k1_pay2 (F := Ideal) v3 v4 v6 (ix2 p q) = v3 (ix2 p q) + ∑ k : Fin 1024, v4 (ix2 p k) * v6 (ix2 k q) := by
  unfold k1_pay2
  simp only [shapeCast_self]
  exact congrArg (v3 (ix2 p q) + ·) (PlainMatmul.matmul_zero_apply (φ₁ := .bf16) (φ₂ := .bf16)
    dot_S1024x1024_S1024x512_S1024x512_1_0_0_1_n_n_wf none v4 v6 p q)

/-- Layer 2: one step adds to the accumulator the product of the adjacency block with the feature block. -/
theorem k3_pay2_apply (v3 : Vec Ideal S1024x512 .f32) (v4 : Vec Ideal S1024x1024 .bf16) (v6 : Vec Ideal S1024x512 .bf16)
    (p : Fin 1024) (q : Fin 512) :
    k3_pay2 (F := Ideal) v3 v4 v6 (ix2 p q) = v3 (ix2 p q) + ∑ k : Fin 1024, v4 (ix2 p k) * v6 (ix2 k q) := by
  unfold k3_pay2
  simp only [shapeCast_self]
  exact congrArg (v3 (ix2 p q) + ·) (PlainMatmul.matmul_zero_apply (φ₁ := .bf16) (φ₂ := .bf16)
    dot_S1024x1024_S1024x512_S1024x512_1_0_0_1_n_n_wf none v4 v6 p q)

/-- Layer 3: one step adds to the accumulator the product of the adjacency block with the feature block. -/
theorem k5_pay2_apply (v3 : Vec Ideal S1024x256 .f32) (v4 : Vec Ideal S1024x1024 .bf16) (v6 : Vec Ideal S1024x256 .bf16)
    (p : Fin 1024) (q : Fin 256) :
    k5_pay2 (F := Ideal) v3 v4 v6 (ix2 p q) = v3 (ix2 p q) + ∑ k : Fin 1024, v4 (ix2 p k) * v6 (ix2 k q) := by
  unfold k5_pay2
  simp only [shapeCast_self]
  exact congrArg (v3 (ix2 p q) + ·) (PlainMatmul.matmul_zero_apply (φ₁ := .bf16) (φ₂ := .bf16)
    dot_S1024x1024_S1024x256_S1024x256_1_0_0_1_n_n_wf none v4 v6 p q)

/-- Layer 1: the finished block is the accumulator plus the bias row, rectified. -/
theorem k1_pay3_apply (v16 : Vec Ideal S1x512 .f32) (v20 : Vec Ideal S1024x512 .f32) (p : Fin 1024) (q : Fin 512) :
    k1_pay3 (F := Ideal) v16 v20 (ix2 p q) = max (v20 (ix2 p q) + v16 (ix2 (0 : Fin 1) q)) 0 := by
  unfold k1_pay3
  simp only [shapeCast_self]
  show max (v20 (ix2 p q) + broadcastTo S1024x512 v16 broadcasts_S1x512_S1024x512 (ix2 p q))
    (Scalar.ofBits (F := Ideal) .f32 0x00000000#32) = _
  rw [zero_word, broadcastTo_1b_ab_apply v16 broadcasts_S1x512_S1024x512 p q]

/-- Layer 2: the finished block is the accumulator plus the bias row, rectified. -/
theorem k3_pay3_apply (v16 : Vec Ideal S1x512 .f32) (v20 : Vec Ideal S1024x512 .f32) (p : Fin 1024) (q : Fin 512) :
    k3_pay3 (F := Ideal) v16 v20 (ix2 p q) = max (v20 (ix2 p q) + v16 (ix2 (0 : Fin 1) q)) 0 := by
  unfold k3_pay3
  simp only [shapeCast_self]
  show max (v20 (ix2 p q) + broadcastTo S1024x512 v16 broadcasts_S1x512_S1024x512 (ix2 p q))
    (Scalar.ofBits (F := Ideal) .f32 0x00000000#32) = _
  rw [zero_word, broadcastTo_1b_ab_apply v16 broadcasts_S1x512_S1024x512 p q]

/-- Layer 3: the finished block is the accumulator plus the bias row (no rectifier on the last layer). -/
theorem k5_pay3_apply (v16 : Vec Ideal S1x256 .f32) (v20 : Vec Ideal S1024x256 .f32) (p : Fin 1024) (q : Fin 256) :
    k5_pay3 (F := Ideal) v16 v20 (ix2 p q) = v20 (ix2 p q) + v16 (ix2 (0 : Fin 1) q) := by
  unfold k5_pay3
  simp only [shapeCast_self]
  show v20 (ix2 p q) + broadcastTo S1024x256 v16 broadcasts_S1x256_S1024x256 (ix2 p q) = _
  rw [broadcastTo_1b_ab_apply v16 broadcasts_S1x256_S1024x256 p q]

end Cert.KernelIdeal.KMath

end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.LibSumStep.lean ====
/-
  A contraction accumulated block by block.

  For a sequence f of N = a · b terms in a commutative monoid, `partialBlocks f b n` is the sum of its first n blocks of b
  consecutive terms (the sequence continued by zero, so that a position may be named by block number and offset). It starts
  at the first block's sum, grows by one block's sum per step, and after a steps it is the whole sum. In the extended reals
  addition is commutative and associative at the infinities too, so nothing here needs a finiteness hypothesis.
  Imports LibSumBlocks.lean (the regrouping of a sum into consecutive blocks, and the continuation by zero `onNat`).
-/
import proofs.«148437_j67826123538777_1_alg».proof.Proof.LibSumBlocks
import Mathlib.Algebra.BigOperators.Fin

open scoped BigOperators

namespace Cert.AggMath

open Cert.Lib.SumBlocks

/-- The sum of the first `n` blocks of `b` consecutive terms of `f`. -/
def partialBlocks {β : Type*} [AddCommMonoid β] {N : ℕ} (f : Fin N → β) (b n : ℕ) : β :=
  ∑ s ∈ Finset.range n, ∑ q : Fin b, onNat f (s * b + q.val)

/-- One more block. -/
theorem partialBlocks_succ {β : Type*} [AddCommMonoid β] {N : ℕ} (f : Fin N → β) (b n : ℕ) :
    partialBlocks f b (n + 1) = partialBlocks f b n + ∑ q : Fin b, onNat f (n * b + q.val) :=
  Finset.sum_range_succ _ n

/-- The first block alone, reached from zero. -/
theorem partialBlocks_one {β : Type*} [AddCommMonoid β] {N : ℕ} (f : Fin N → β) (b : ℕ) :
    partialBlocks f b 1 = 0 + ∑ q : Fin b, onNat f (0 * b + q.val) := by
  rw [partialBlocks_succ]; rfl

/-- All `a` blocks: the whole sum. -/
theorem partialBlocks_full {β : Type*} [AddCommMonoid β] {N : ℕ} (a b : ℕ) (hn : N = a * b) (f : Fin N → β) :
    partialBlocks f b a = ∑ k : Fin N, f k :=
  (sum_fin_blocks a b hn f).symm

end Cert.AggMath
-- ==== Proof.ValAgg1.lean ====
/-
  The aggregation of one layer, block by block, on the extended reals.

  The region walks 8 × 8 points: point t works on rows (t / 8) · 1024 … of the adjacency A and on its column block
  t % 8, that is on the 1024 terms (t % 8) · 1024 … of each row's contraction with the projected features P. At the first
  column block the accumulator is cleared and the block's product added (0 + Σ over the block); at the others the block's
  product is added to what the point before left; at the last one the bias row is then added along the rows, the maximum
  with 0 taken, and the block stored. So after point t the accumulator's entry (p, q) is the sum of the first t % 8 + 1
  blocks of the terms A(row, k) · P(k, q), row = (t / 8) · 1024 + p — by induction on the point, never by listing the
  points — and after the eighth block that is the whole contraction, since a finite sum in the extended reals may be
  regrouped into consecutive blocks. The stored blocks tile the output, which therefore ends holding
  max(Σ_k A(i, k) · P(k, j) + b(j), 0) at every (i, j).
-/
import proofs.«148437_j67826123538777_1_alg».proof.Proof.FrAgg1I
import proofs.«148437_j67826123538777_1_alg».proof.Proof.KPayloads
import proofs.«148437_j67826123538777_1_alg».proof.Proof.LibSumStep
import proofs.«148437_j67826123538777_1_alg».proof.Proof.Spec
import Idealize.ShloMosaic.Lib.Pipeline.Value
import Idealize.ShloMosaic.Lib.Tactic

set_option maxRecDepth 16384

noncomputable section

open scoped BigOperators

namespace Cert.KernelIdeal.KVal

open Cert.KernelIdeal Cert.KernelIdeal.Gen Cert.KernelIdeal.Fr Cert.KernelIdeal.KMath
open Idealize.ShloMosaic Idealize.ShloMosaic.TcCoe Idealize.ShloMosaic.ValueIdx Idealize.ShloMosaic.Tactic Idealize.SL.Sem
open Idealize.ShloMosaic.Pipeline (Dat)
open Cert.Lib.SumBlocks (onNat onNat_of_lt)

theorem hz1 : (![0, 0] : Fin 2 → Nat) = fun _ => 0 := funext fun a => by fin_cases a <;> rfl

/-! ## What each case of the body leaves, as values of its loaded blocks -/

section CaseValues
variable {F : FTy → Type} [FloatOps F]
variable (c : Dev nD) (i : grid1.Coords)
  (arg2 : Memref sig .tc .vmem S1024x1024 .bf16) (harg2 : arg2.IsWhole)
  (arg3 : Memref sig .tc .vmem S1024x512 .bf16) (harg3 : arg3.IsWhole)
  (arg4 : Memref sig .tc .vmem S1x512 .f32) (harg4 : arg4.IsWhole)
  (arg5 : Memref sig .tc .vmem S1024x512 .bf16) (harg5 : arg5.IsWhole)
  (arg6 : Memref sig .tc .vmem S1024x512 .f32) (harg6 : arg6.IsWhole)
  (x0 : Vec F S1024x1024 .bf16) (x1 : Vec F S1024x512 .bf16) (x2 : Vec F S1x512 .f32) (xs0 : Vec F S1024x512 .f32)

/-- A middle column block: the accumulator ends at what it held plus the block's product. -/
theorem sout1_B_val (hc0 : ¬cond1_0 i) (hc1 : ¬cond1_1 i) :
    sout1_B_0 c i arg2 harg2 arg3 harg3 arg4 harg4 arg5 harg5 arg6 harg6 hc0 hc1 x0 x1 x2 xs0 = k1_pay2 xs0 x0 x1 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  rw [View.canon_unit_zero hz1]
  simp only [View.readAt_eq_ld, harg2.read_unread, harg3.read_unread, harg6.read_unread,
    View.ld_unit_zero (S := S1024x512) hz1, View.ld_unit_zero (S := S1024x1024) hz1]

/-- The first column block: the accumulator is cleared, read back, and ends at the zero block plus the block's product. -/
theorem sout1_A_val (hc0 : cond1_0 i) (hc1 : ¬cond1_1 i) :
    sout1_A_0 c i arg2 harg2 arg3 harg3 arg4 harg4 arg5 harg5 arg6 harg6 hc0 hc1 x0 x1 x2
      = k1_pay2 (k1_pay1 (F := F)) x0 x1 := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S1024x512) hz1, View.readCov_unit_zero (S := S1024x512) _ hz1]
  simp only [View.readAt_eq_ld, harg2.read_unread, harg3.read_unread,
    View.ld_unit_zero (S := S1024x512) hz1, View.ld_unit_zero (S := S1024x1024) hz1]

/-- The last column block, the accumulator: as at a middle one. -/
theorem sout1_C_val (hc0 : ¬cond1_0 i) (hc1 : cond1_1 i) :
    sout1_C_0 c i arg2 harg2 arg3 harg3 arg4 harg4 arg5 harg5 arg6 harg6 hc0 hc1 x0 x1 x2 xs0 = k1_pay2 xs0 x0 x1 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero hz1]
  simp only [View.readAt_eq_ld, harg2.read_unread, harg3.read_unread, harg6.read_unread,
    View.ld_unit_zero (S := S1024x512) hz1, View.ld_unit_zero (S := S1024x1024) hz1]

/-- The last column block, the output block: the bias row and the rectifier applied to the accumulator just stored. -/
theorem out1_C_val (hc0 : ¬cond1_0 i) (hc1 : cond1_1 i) :
    out1_C_3 c i arg2 harg2 arg3 harg3 arg4 harg4 arg5 harg5 arg6 harg6 hc0 hc1 x0 x1 x2 xs0
      = k1_pay3 x2 (k1_pay2 xs0 x0 x1) := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero hz1, View.readCov_unit_zero (S := S1024x512) _ hz1]
  simp only [View.readAt_eq_ld, harg2.read_unread, harg3.read_unread, harg4.read_unread, harg6.read_unread,
    View.ld_unit_zero (S := S1024x512) hz1, View.ld_unit_zero (S := S1024x1024) hz1, View.ld_unit_zero (S := S1x512) hz1]

end CaseValues

/-! ## The region at the ideal values -/

section AtIdeal
variable (V : (c : Dev nD) → (b : Ref sig .tc) → Buf (Elt Ideal) ((c : Thread nD τ).loc b)) (c : Dev nD)

/-- The adjacency as the region finds it. -/
abbrev arrA1 : S8192x8192.Idx → EReal := V c (Pipeline.arrRef spec1 0)
/-- The projected features as the region finds them. -/
abbrev arrP1 : S8192x512.Idx → EReal := V c (Pipeline.arrRef spec1 1)
/-- The bias row as the region finds it. -/
abbrev arrB1 : S1x512.Idx → EReal := V c (Pipeline.arrRef spec1 2)

/-- What the layer's output array ends holding: the rectified aggregation, entry by entry. -/
def R1 (A : S8192x8192.Idx → EReal) (P : S8192x512.Idx → EReal) (B : S1x512.Idx → EReal) : S8192x512.Idx → EReal :=
  fun i => max ((∑ kk : Fin 8192, A (ix2 (i 0) kk) * P (ix2 kk (i 1))) + B (ix2 (0 : Fin 1) (i 1))) 0

/-! ### The accumulator and the stored block at a point, from the cases -/

/-- At a first column block the accumulator ends at the zero block plus the block's product. -/
theorem acc_first1 (t : Fin cfg1.N) (h0 : t.val % 8 = 0) :
    (outsAt1 V c t.val t.isLt).2 = k1_pay2 (F := Ideal) (k1_pay1 (F := Ideal)) (iblk1 V c 0 t) (iblk1 V c 1 t) := by
  have h1 : ¬t.val % 8 = 7 := by omega
  rw [outsAt1_A V c t h0 h1]
  dsimp only
  exact sout1_A_val (F := Ideal) ..

/-- At any other column block it ends at what the point before left plus the block's product. -/
theorem acc_next1 (t : Fin cfg1.N) (h0 : ¬t.val % 8 = 0) :
    (outsAt1 V c t.val t.isLt).2
      = k1_pay2 (F := Ideal) (outsAt1 V c (t.val - 1) (Nat.lt_of_le_of_lt (Nat.sub_le _ _) t.isLt)).2
          (iblk1 V c 0 t) (iblk1 V c 1 t) := by
  by_cases h1 : t.val % 8 = 7
  · rw [outsAt1_C V c t h0 h1]
    dsimp only
    exact sout1_C_val (F := Ideal) ..
  · rw [outsAt1_B V c t h0 h1]
    dsimp only
    exact sout1_B_val (F := Ideal) ..

/-- At a last column block the stored block is the bias row and the rectifier applied to the accumulator. -/
theorem out_last1 (t : Fin cfg1.N) (h1 : t.val % 8 = 7) :
    (outsAt1 V c t.val t.isLt).1 = k1_pay3 (F := Ideal) (iblk1 V c 2 t) (outsAt1 V c t.val t.isLt).2 := by
  have h0 : ¬t.val % 8 = 0 := by omega
  rw [outsAt1_C V c t h0 h1]
  dsimp only
  rw [out1_C_val (F := Ideal), sout1_C_val (F := Ideal)]

/-! ### The blocks the points read, as entries of the whole arrays -/

/-- The printed index maps, decided over the 64 points: point t is at row block t / 8 and column block t % 8. -/
theorem idx_facts1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

/-- Row p of point t's row block, as a row of the whole arrays. -/
def rowOf1 (t : Fin cfg1.N) (p : Fin 1024) : Fin 8192 :=
  ⟨t.val / 8 * 1024 + p.val, by have := lt_of_lt_of_eq t.isLt (show cfg1.N = 64 from N_1); have := p.isLt; omega⟩

/-- Term k of point t's column block, as a term of the whole contraction. -/
def termOf1 (t : Fin cfg1.N) (k : Fin 1024) : Fin 8192 :=
  ⟨t.val % 8 * 1024 + k.val, by have := k.isLt; omega⟩

/-- The block of the adjacency point t reads. -/
theorem iblk1_0_apply (t : Fin cfg1.N) (p k : Fin 1024) :
    iblk1 V c 0 t (ix2 p k) = arrA1 V c (ix2 (rowOf1 t p) (termOf1 t k)) := by
  obtain ⟨e0, e1, -⟩ := idx_facts1 t
  show V c (Pipeline.arrRef spec1 0) (((cfg1.win 0).blk t).view.emb (ix2 p k)) = V c (Pipeline.arrRef spec1 0) _
  congr 1
  funext a
  apply Fin.ext
  match a with
  | ⟨0, _⟩ => show win1_0.index t (0 : Fin 2) * 1024 + 1 * p.val = t.val / 8 * 1024 + p.val; rw [e0]; omega
  | ⟨1, _⟩ => show win1_0.index t (1 : Fin 2) * 1024 + 1 * k.val = t.val % 8 * 1024 + k.val; rw [e1]; omega

/-- The block of the projected features point t reads. -/
theorem iblk1_1_apply (t : Fin cfg1.N) (k : Fin 1024) (q : Fin 512) :
    iblk1 V c 1 t (ix2 k q) = arrP1 V c (ix2 (termOf1 t k) q) := by
  obtain ⟨-, -, e2, e3, -⟩ := idx_facts1 t
  show V c (Pipeline.arrRef spec1 1) (((cfg1.win 1).blk t).view.emb (ix2 k q)) = V c (Pipeline.arrRef spec1 1) _
  congr 1
  funext a
  apply Fin.ext
  match a with
  | ⟨0, _⟩ => show win1_1.index t (0 : Fin 2) * 1024 + 1 * k.val = t.val % 8 * 1024 + k.val; rw [e2]; omega
  | ⟨1, _⟩ => show win1_1.index t (1 : Fin 2) * 512 + 1 * q.val = q.val; rw [e3]; omega

/-- The bias row every point reads. -/
theorem iblk1_2_apply (t : Fin cfg1.N) (q : Fin 512) :
    iblk1 V c 2 t (ix2 (0 : Fin 1) q) = arrB1 V c (ix2 (0 : Fin 1) q) := by
  obtain ⟨-, -, -, -, e4, e5, -⟩ := idx_facts1 t
  show V c (Pipeline.arrRef spec1 2) (((cfg1.win 2).blk t).view.emb (ix2 (0 : Fin 1) q)) = V c (Pipeline.arrRef spec1 2) _
  congr 1
  funext a
  apply Fin.ext
  match a with
  | ⟨0, _⟩ => show win1_2.index t (0 : Fin 2) * 1 + 1 * 0 = 0; rw [e4]
  | ⟨1, _⟩ => show win1_2.index t (1 : Fin 2) * 512 + 1 * q.val = q.val; rw [e5]; omega

/-! ### The invariant: the accumulator is the sum of the blocks met so far -/

/-- The terms of one entry's contraction: A(row, k) · P(k, q), k = 0 … 8191. -/
def terms1 (row : Fin 8192) (q : Fin 512) : Fin 8192 → EReal :=
  fun kk => arrA1 V c (ix2 row kk) * arrP1 V c (ix2 kk q)

/-- The block of the adjacency point t reads, as a vector of the body's type. -/
abbrev blkA1 (t : Fin cfg1.N) : Vec Ideal S1024x1024 .bf16 := iblk1 V c 0 t
/-- The block of the projected features point t reads, as a vector of the body's type. -/
abbrev blkP1 (t : Fin cfg1.N) : Vec Ideal S1024x512 .bf16 := iblk1 V c 1 t

/-- A product of the blocks point t reads is a term of the contraction, named by block number and offset. -/
theorem block_term1 (t : Fin cfg1.N) (p k : Fin 1024) (q : Fin 512) :
    blkA1 V c t (ix2 p k) * blkP1 V c t (ix2 k q)
      = onNat (terms1 V c (rowOf1 t p) q) (t.val % 8 * 1024 + k.val) :=
  (congrArg₂ (fun a b : EReal => a * b) (iblk1_0_apply V c t p k) (iblk1_1_apply V c t k q)).trans
    (onNat_of_lt (terms1 V c (rowOf1 t p) q) _ (termOf1 t k).isLt).symm

/-- A point that is not at a first column block has the row block of the point before. -/
theorem rowOf_pred1 (n : ℕ) (hn : n + 1 < cfg1.N) (h0 : ¬(n + 1) % 8 = 0) (p : Fin 1024) :
    rowOf1 ⟨n, Nat.lt_of_succ_lt hn⟩ p = rowOf1 ⟨n + 1, hn⟩ p :=
  Fin.ext (by show n / 8 * 1024 + p.val = (n + 1) / 8 * 1024 + p.val; omega)

/-- After point n the accumulator's entry (p, q) is the sum of the first n % 8 + 1 blocks of 1024 terms of the
    contraction of row (n / 8) · 1024 + p of A with column q of P: by induction on the point. -/
theorem acc_inv1 : ∀ (n : ℕ) (hn : n < cfg1.N) (p : Fin 1024) (q : Fin 512),
    (outsAt1 V c n hn).2 (ix2 p q)
      = Cert.AggMath.partialBlocks (terms1 V c (rowOf1 ⟨n, hn⟩ p) q) 1024 (n % 8 + 1) := by
  intro n
  induction n with
  | zero =>
    intro hn p q
    refine (congrFun (acc_first1 V c ⟨0, hn⟩ rfl) (ix2 p q)).trans ?_
    refine (k1_pay2_apply _ _ _ p q).trans ?_
    rw [k1_pay1_apply, show 0 % 8 + 1 = 1 from rfl, Cert.AggMath.partialBlocks_one]
    exact congrArg (0 + ·) (Finset.sum_congr rfl fun k _ => block_term1 V c ⟨0, hn⟩ p k q)
  | succ n ih =>
    intro hn p q
    by_cases h0 : (n + 1) % 8 = 0
    · refine (congrFun (acc_first1 V c ⟨n + 1, hn⟩ h0) (ix2 p q)).trans ?_
      refine (k1_pay2_apply _ _ _ p q).trans ?_
      rw [k1_pay1_apply, h0, show 0 + 1 = 1 from rfl, Cert.AggMath.partialBlocks_one]
      refine congrArg (0 + ·) (Finset.sum_congr rfl fun k _ => (block_term1 V c ⟨n + 1, hn⟩ p k q).trans ?_)
      show onNat _ ((n + 1) % 8 * 1024 + k.val) = _
      rw [h0]
    · refine (congrFun (acc_next1 V c ⟨n + 1, hn⟩ h0) (ix2 p q)).trans ?_
      refine (k1_pay2_apply _ _ _ p q).trans ?_
      have hprev : (outsAt1 V c ((⟨n + 1, hn⟩ : Fin cfg1.N).val - 1)
            (Nat.lt_of_le_of_lt (Nat.sub_le _ _) (⟨n + 1, hn⟩ : Fin cfg1.N).isLt)).2 (ix2 p q)
          = Cert.AggMath.partialBlocks (terms1 V c (rowOf1 ⟨n + 1, hn⟩ p) q) 1024 ((n + 1) % 8) := by
        have e := ih (Nat.lt_of_succ_lt hn) p q
        rw [rowOf_pred1 n hn h0 p, show n % 8 + 1 = (n + 1) % 8 by omega] at e
        exact e
      rw [hprev, Cert.AggMath.partialBlocks_succ]
      exact congrArg (_ + ·) (Finset.sum_congr rfl fun k _ => block_term1 V c ⟨n + 1, hn⟩ p k q)

/-! ### What a last column block stores, and the whole output -/

/-- Point t's block of the output, as entries of the whole array. -/
theorem emb_out1 (t : Fin cfg1.N) (p : Fin 1024) (q : Fin 512) :
    ((cfg1.win 3).blk t).view.emb (ix2 p q) = ix2 (rowOf1 t p) q := by
  obtain ⟨-, -, -, -, -, -, e6, e7⟩ := idx_facts1 t
  funext a
  apply Fin.ext
  match a with
  | ⟨0, _⟩ => show win1_3.index t (0 : Fin 2) * 1024 + 1 * p.val = t.val / 8 * 1024 + p.val; rw [e6]; omega
  | ⟨1, _⟩ => show win1_3.index t (1 : Fin 2) * 512 + 1 * q.val = q.val; rw [e7]; omega

/-- What a storing point writes back is its block of the rectified aggregation. -/
theorem flushed1_eq (t : Fin cfg1.N) (hf : (cfg1.win 3).flush t = true) :
    (dat1 V c).flushed 3 t
      = ((cfg1.win 3).blk t).view.read (Elt Ideal) (R1 (arrA1 V c) (arrP1 V c) (arrB1 V c)) := by
  have h7 : t.val % 8 = 7 := (flush1_3 t).mp hf
  show (cfg1.win 3).cut (grid1.coords t) ((dat1 V c).after 3 t) = _
  rw [after1_3, out_last1 V c t h7]
  funext j
  obtain ⟨p, q, rfl⟩ : ∃ (p : Fin 1024) (q : Fin 512), j = ix2 p q := ⟨j 0, j 1, @eq_ix2 1024 512 j⟩
  show k1_pay3 (F := Ideal) (iblk1 V c 2 t) (outsAt1 V c t.val t.isLt).2 (ix2 p q)
    = R1 (arrA1 V c) (arrP1 V c) (arrB1 V c) (((cfg1.win 3).blk t).view.emb (ix2 p q))
  rw [emb_out1]
  refine (k1_pay3_apply _ _ p q).trans ?_
  rw [acc_inv1 V c t.val t.isLt p q, h7, show 7 + 1 = 8 from rfl, Cert.AggMath.partialBlocks_full 8 1024 rfl,
    iblk1_2_apply]
  rfl

/-- An index of the output is in point t's block iff each coordinate is in the block's range. -/
theorem mem_blk1 (t : Fin cfg1.N) (i : S8192x512.Idx) :
    i ∈ ((cfg1.win 3).blk t).view.set ↔ ∀ a : Fin 2, win1_3.index t a * S1024x512.size a ≤ (i a).val
      ∧ (i a).val < win1_3.index t a * S1024x512.size a + S1024x512.size a := by
  show i ∈ ((View.whole main_v64).slice (win1_3.rect t)).set ↔ _
  rw [View.set_slice_whole, Rect.mem_set_unit]
  exact Iff.rfl

/-- THE OUTPUT after the region: the rectified aggregation A · P + b, every entry (the storing points' blocks tile it:
    entry (i, j) is in the block of the last point of row block i / 1024). -/
theorem final1 : (dat1 V c).arrAt 3 cfg1.N = R1 (arrA1 V c) (arrP1 V c) (arrB1 V c) :=
  (dat1 V c).arrAt_eq_of_cover 3 _ (fun t hf => flushed1_eq V c t hf) fun i => by
    have hi0 : (i 0).val < 8192 := (i 0).isLt
    have hi1 : (i 1).val < 512 := (i 1).isLt
    have hN : cfg1.N = 64 := N_1
    obtain ⟨t, ht⟩ : ∃ t : Fin cfg1.N, t.val = (i 0).val / 1024 * 8 + 7 := ⟨⟨(i 0).val / 1024 * 8 + 7, by omega⟩, rfl⟩
    obtain ⟨-, -, -, -, -, -, e6, e7⟩ := idx_facts1 t
    refine ⟨t, (flush1_3 t).mpr (by omega), ?_⟩
    rw [mem_blk1]
    intro a
    match a with
    | ⟨0, _⟩ =>
      show win1_3.index t (0 : Fin 2) * 1024 ≤ (i 0).val ∧ (i 0).val < win1_3.index t (0 : Fin 2) * 1024 + 1024
      rw [e6]; omega
    | ⟨1, _⟩ =>
      show win1_3.index t (1 : Fin 2) * 512 ≤ (i 1).val ∧ (i 1).val < win1_3.index t (1 : Fin 2) * 512 + 512
      rw [e7]; omega

end AtIdeal

end Cert.KernelIdeal.KVal

end
-- ==== Proof.ValAgg3.lean ====
/-
  The aggregation of one layer, block by block, on the extended reals.

  The region walks 8 × 8 points: point t works on rows (t / 8) · 1024 … of the adjacency A and on its column block
  t % 8, that is on the 1024 terms (t % 8) · 1024 … of each row's contraction with the projected features P. At the first
  column block the accumulator is cleared and the block's product added (0 + Σ over the block); at the others the block's
  product is added to what the point before left; at the last one the bias row is then added along the rows, the maximum
  with 0 taken, and the block stored. So after point t the accumulator's entry (p, q) is the sum of the first t % 8 + 1
  blocks of the terms A(row, k) · P(k, q), row = (t / 8) · 1024 + p — by induction on the point, never by listing the
  points — and after the eighth block that is the whole contraction, since a finite sum in the extended reals may be
  regrouped into consecutive blocks. The stored blocks tile the output, which therefore ends holding
  max(Σ_k A(i, k) · P(k, j) + b(j), 0) at every (i, j).
-/
import proofs.«148437_j67826123538777_1_alg».proof.Proof.FrAgg3I
import proofs.«148437_j67826123538777_1_alg».proof.Proof.KPayloads
import proofs.«148437_j67826123538777_1_alg».proof.Proof.LibSumStep
import proofs.«148437_j67826123538777_1_alg».proof.Proof.Spec
import Idealize.ShloMosaic.Lib.Pipeline.Value
import Idealize.ShloMosaic.Lib.Tactic

set_option maxRecDepth 16384

noncomputable section

open scoped BigOperators

namespace Cert.KernelIdeal.KVal

open Cert.KernelIdeal Cert.KernelIdeal.Gen Cert.KernelIdeal.Fr Cert.KernelIdeal.KMath
open Idealize.ShloMosaic Idealize.ShloMosaic.TcCoe Idealize.ShloMosaic.ValueIdx Idealize.ShloMosaic.Tactic Idealize.SL.Sem
open Idealize.ShloMosaic.Pipeline (Dat)
open Cert.Lib.SumBlocks (onNat onNat_of_lt)

theorem hz3 : (![0, 0] : Fin 2 → Nat) = fun _ => 0 := funext fun a => by fin_cases a <;> rfl

/-! ## What each case of the body leaves, as values of its loaded blocks -/

section CaseValues
variable {F : FTy → Type} [FloatOps F]
variable (c : Dev nD) (i : grid3.Coords)
  (arg2 : Memref sig .tc .vmem S1024x1024 .bf16) (harg2 : arg2.IsWhole)
  (arg3 : Memref sig .tc .vmem S1024x512 .bf16) (harg3 : arg3.IsWhole)
  (arg4 : Memref sig .tc .vmem S1x512 .f32) (harg4 : arg4.IsWhole)
  (arg5 : Memref sig .tc .vmem S1024x512 .bf16) (harg5 : arg5.IsWhole)
  (arg6 : Memref sig .tc .vmem S1024x512 .f32) (harg6 : arg6.IsWhole)
  (x0 : Vec F S1024x1024 .bf16) (x1 : Vec F S1024x512 .bf16) (x2 : Vec F S1x512 .f32) (xs0 : Vec F S1024x512 .f32)

/-- A middle column block: the accumulator ends at what it held plus the block's product. -/
theorem sout3_B_val (hc0 : ¬cond3_0 i) (hc1 : ¬cond3_1 i) :
    sout3_B_0 c i arg2 harg2 arg3 harg3 arg4 harg4 arg5 harg5 arg6 harg6 hc0 hc1 x0 x1 x2 xs0 = k3_pay2 xs0 x0 x1 := by
  unfold sout3_B_0
  rw [View.read_writes_eq_canon _ _ _ (scover3_B_0 c i arg2 harg2 arg3 harg3 arg4 harg4 arg5 harg5 arg6 harg6 hc0 hc1 x0 x1 x2 xs0)]
  unfold kernelRun3_B
  dsimp only
  rw [View.canon_unit_zero hz3]
  simp only [View.readAt_eq_ld, harg2.read_unread, harg3.read_unread, harg6.read_unread,
    View.ld_unit_zero (S := S1024x512) hz3, View.ld_unit_zero (S := S1024x1024) hz3]

/-- The first column block: the accumulator is cleared, read back, and ends at the zero block plus the block's product. -/
theorem sout3_A_val (hc0 : cond3_0 i) (hc1 : ¬cond3_1 i) :
    sout3_A_0 c i arg2 harg2 arg3 harg3 arg4 harg4 arg5 harg5 arg6 harg6 hc0 hc1 x0 x1 x2
      = k3_pay2 (k3_pay1 (F := F)) x0 x1 := by
  unfold sout3_A_0
  rw [View.read_writes_eq_canon _ _ _ (scover3_A_0 c i arg2 harg2 arg3 harg3 arg4 harg4 arg5 harg5 arg6 harg6 hc0 hc1 x0 x1 x2)]
  unfold kernelRun3_A
  dsimp only
  sl_unfold_words
  rw [View.canon_cons_unit_zero (S := S1024x512) hz3, View.readCov_unit_zero (S := S1024x512) _ hz3]
  simp only [View.readAt_eq_ld, harg2.read_unread, harg3.read_unread,
    View.ld_unit_zero (S := S1024x512) hz3, View.ld_unit_zero (S := S1024x1024) hz3]

/-- The last column block, the accumulator: as at a middle one. -/
theorem sout3_C_val (hc0 : ¬cond3_0 i) (hc1 : cond3_1 i) :
    sout3_C_0 c i arg2 harg2 arg3 harg3 arg4 harg4 arg5 harg5 arg6 harg6 hc0 hc1 x0 x1 x2 xs0 = k3_pay2 xs0 x0 x1 := by
  unfold sout3_C_0
  rw [View.read_writes_eq_canon _ _ _ (scover3_C_0 c i arg2 harg2 arg3 harg3 arg4 harg4 arg5 harg5 arg6 harg6 hc0 hc1 x0 x1 x2 xs0)]
  unfold kernelRun3_C
  dsimp only
  sl_unfold_words
  rw [View.canon_unit_zero hz3]
  simp only [View.readAt_eq_ld, harg2.read_unread, harg3.read_unread, harg6.read_unread,
    View.ld_unit_zero (S := S1024x512) hz3, View.ld_unit_zero (S := S1024x1024) hz3]

/-- The last column block, the output block: the bias row and the rectifier applied to the accumulator just stored. -/
theorem out3_C_val (hc0 : ¬cond3_0 i) (hc1 : cond3_1 i) :
    out3_C_3 c i arg2 harg2 arg3 harg3 arg4 harg4 arg5 harg5 arg6 harg6 hc0 hc1 x0 x1 x2 xs0
      = k3_pay3 x2 (k3_pay2 xs0 x0 x1) := by
  unfold out3_C_3
  rw [View.read_writes_eq_canon _ _ _ (cover3_C_3 c i arg2 harg2 arg3 harg3 arg4 harg4 arg5 harg5 arg6 harg6 hc0 hc1 x0 x1 x2 xs0)]
  unfold kernelRun3_C
  dsimp only
  sl_unfold_words
  rw [View.canon_unit_zero hz3, View.readCov_unit_zero (S := S1024x512) _ hz3]
  simp only [View.readAt_eq_ld, harg2.read_unread, harg3.read_unread, harg4.read_unread, harg6.read_unread,
    View.ld_unit_zero (S := S1024x512) hz3, View.ld_unit_zero (S := S1024x1024) hz3, View.ld_unit_zero (S := S1x512) hz3]

end CaseValues

/-! ## The region at the ideal values -/

section AtIdeal
variable (V : (c : Dev nD) → (b : Ref sig .tc) → Buf (Elt Ideal) ((c : Thread nD τ).loc b)) (c : Dev nD)

/-- The adjacency as the region finds it. -/
abbrev arrA3 : S8192x8192.Idx → EReal := V c (Pipeline.arrRef spec3 0)
/-- The projected features as the region finds them. -/
abbrev arrP3 : S8192x512.Idx → EReal := V c (Pipeline.arrRef spec3 1)
/-- The bias row as the region finds it. -/
abbrev arrB3 : S1x512.Idx → EReal := V c (Pipeline.arrRef spec3 2)

/-- What the layer's output array ends holding: the rectified aggregation, entry by entry. -/
def R3 (A : S8192x8192.Idx → EReal) (P : S8192x512.Idx → EReal) (B : S1x512.Idx → EReal) : S8192x512.Idx → EReal :=
  fun i => max ((∑ kk : Fin 8192, A (ix2 (i 0) kk) * P (ix2 kk (i 1))) + B (ix2 (0 : Fin 1) (i 1))) 0

/-! ### The accumulator and the stored block at a point, from the cases -/

/-- At a first column block the accumulator ends at the zero block plus the block's product. -/
theorem acc_first3 (t : Fin cfg3.N) (h0 : t.val % 8 = 0) :
    (outsAt3 V c t.val t.isLt).2 = k3_pay2 (F := Ideal) (k3_pay1 (F := Ideal)) (iblk3 V c 0 t) (iblk3 V c 1 t) := by
  have h1 : ¬t.val % 8 = 7 := by omega
  rw [outsAt3_A V c t h0 h1]
  dsimp only
  exact sout3_A_val (F := Ideal) ..

/-- At any other column block it ends at what the point before left plus the block's product. -/
theorem acc_next3 (t : Fin cfg3.N) (h0 : ¬t.val % 8 = 0) :
    (outsAt3 V c t.val t.isLt).2
      = k3_pay2 (F := Ideal) (outsAt3 V c (t.val - 1) (Nat.lt_of_le_of_lt (Nat.sub_le _ _) t.isLt)).2
          (iblk3 V c 0 t) (iblk3 V c 1 t) := by
  by_cases h1 : t.val % 8 = 7
  · rw [outsAt3_C V c t h0 h1]
    dsimp only
    exact sout3_C_val (F := Ideal) ..
  · rw [outsAt3_B V c t h0 h1]
    dsimp only
    exact sout3_B_val (F := Ideal) ..

/-- At a last column block the stored block is the bias row and the rectifier applied to the accumulator. -/
theorem out_last3 (t : Fin cfg3.N) (h1 : t.val % 8 = 7) :
    (outsAt3 V c t.val t.isLt).1 = k3_pay3 (F := Ideal) (iblk3 V c 2 t) (outsAt3 V c t.val t.isLt).2 := by
  have h0 : ¬t.val % 8 = 0 := by omega
  rw [outsAt3_C V c t h0 h1]
  dsimp only
  rw [out3_C_val (F := Ideal), sout3_C_val (F := Ideal)]

/-! ### The blocks the points read, as entries of the whole arrays -/

/-- The printed index maps, decided over the 64 points: point t is at row block t / 8 and column block t % 8. -/
theorem idx_facts3 : ∀ t : Fin cfg3.N,
    win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = 0 ∧ win3_2.index t (1 : Fin 2) = 0
    ∧ win3_3.index t (0 : Fin 2) = t.val / 8 ∧ win3_3.index t (1 : Fin 2) = 0 :=
  (by decide +kernel : ∀ t : Fin grid3.N, _)

/-- Row p of point t's row block, as a row of the whole arrays. -/
def rowOf3 (t : Fin cfg3.N) (p : Fin 1024) : Fin 8192 :=
  ⟨t.val / 8 * 1024 + p.val, by have := lt_of_lt_of_eq t.isLt (show cfg3.N = 64 from N_3); have := p.isLt; omega⟩

/-- Term k of point t's column block, as a term of the whole contraction. -/
def termOf3 (t : Fin cfg3.N) (k : Fin 1024) : Fin 8192 :=
  ⟨t.val % 8 * 1024 + k.val, by have := k.isLt; omega⟩

/-- The block of the adjacency point t reads. -/
theorem iblk3_0_apply (t : Fin cfg3.N) (p k : Fin 1024) :
    iblk3 V c 0 t (ix2 p k) = arrA3 V c (ix2 (rowOf3 t p) (termOf3 t k)) := by
  obtain ⟨e0, e1, -⟩ := idx_facts3 t
  show V c (Pipeline.arrRef spec3 0) (((cfg3.win 0).blk t).view.emb (ix2 p k)) = V c (Pipeline.arrRef spec3 0) _
  congr 1
  funext a
  apply Fin.ext
  match a with
  | ⟨0, _⟩ => show win3_0.index t (0 : Fin 2) * 1024 + 1 * p.val = t.val / 8 * 1024 + p.val; rw [e0]; omega
  | ⟨1, _⟩ => show win3_0.index t (1 : Fin 2) * 1024 + 1 * k.val = t.val % 8 * 1024 + k.val; rw [e1]; omega

/-- The block of the projected features point t reads. -/
theorem iblk3_1_apply (t : Fin cfg3.N) (k : Fin 1024) (q : Fin 512) :
    iblk3 V c 1 t (ix2 k q) = arrP3 V c (ix2 (termOf3 t k) q) := by
  obtain ⟨-, -, e2, e3, -⟩ := idx_facts3 t
  show V c (Pipeline.arrRef spec3 1) (((cfg3.win 1).blk t).view.emb (ix2 k q)) = V c (Pipeline.arrRef spec3 1) _
  congr 1
  funext a
  apply Fin.ext
  match a with
  | ⟨0, _⟩ => show win3_1.index t (0 : Fin 2) * 1024 + 1 * k.val = t.val % 8 * 1024 + k.val; rw [e2]; omega
  | ⟨1, _⟩ => show win3_1.index t (1 : Fin 2) * 512 + 1 * q.val = q.val; rw [e3]; omega

/-- The bias row every point reads. -/
theorem iblk3_2_apply (t : Fin cfg3.N) (q : Fin 512) :
    iblk3 V c 2 t (ix2 (0 : Fin 1) q) = arrB3 V c (ix2 (0 : Fin 1) q) := by
  obtain ⟨-, -, -, -, e4, e5, -⟩ := idx_facts3 t
  show V c (Pipeline.arrRef spec3 2) (((cfg3.win 2).blk t).view.emb (ix2 (0 : Fin 1) q)) = V c (Pipeline.arrRef spec3 2) _
  congr 1
  funext a
  apply Fin.ext
  match a with
  | ⟨0, _⟩ => show win3_2.index t (0 : Fin 2) * 1 + 1 * 0 = 0; rw [e4]
  | ⟨1, _⟩ => show win3_2.index t (1 : Fin 2) * 512 + 1 * q.val = q.val; rw [e5]; omega

/-! ### The invariant: the accumulator is the sum of the blocks met so far -/

/-- The terms of one entry's contraction: A(row, k) · P(k, q), k = 0 … 8191. -/
def terms3 (row : Fin 8192) (q : Fin 512) : Fin 8192 → EReal :=
  fun kk => arrA3 V c (ix2 row kk) * arrP3 V c (ix2 kk q)

/-- The block of the adjacency point t reads, as a vector of the body's type. -/
abbrev blkA3 (t : Fin cfg3.N) : Vec Ideal S1024x1024 .bf16 := iblk3 V c 0 t
/-- The block of the projected features point t reads, as a vector of the body's type. -/
abbrev blkP3 (t : Fin cfg3.N) : Vec Ideal S1024x512 .bf16 := iblk3 V c 1 t

/-- A product of the blocks point t reads is a term of the contraction, named by block number and offset. -/
theorem block_term3 (t : Fin cfg3.N) (p k : Fin 1024) (q : Fin 512) :
    blkA3 V c t (ix2 p k) * blkP3 V c t (ix2 k q)
      = onNat (terms3 V c (rowOf3 t p) q) (t.val % 8 * 1024 + k.val) :=
  (congrArg₂ (fun a b : EReal => a * b) (iblk3_0_apply V c t p k) (iblk3_1_apply V c t k q)).trans
    (onNat_of_lt (terms3 V c (rowOf3 t p) q) _ (termOf3 t k).isLt).symm

/-- A point that is not at a first column block has the row block of the point before. -/
theorem rowOf_pred3 (n : ℕ) (hn : n + 1 < cfg3.N) (h0 : ¬(n + 1) % 8 = 0) (p : Fin 1024) :
    rowOf3 ⟨n, Nat.lt_of_succ_lt hn⟩ p = rowOf3 ⟨n + 1, hn⟩ p :=
  Fin.ext (by show n / 8 * 1024 + p.val = (n + 1) / 8 * 1024 + p.val; omega)

/-- After point n the accumulator's entry (p, q) is the sum of the first n % 8 + 1 blocks of 1024 terms of the
    contraction of row (n / 8) · 1024 + p of A with column q of P: by induction on the point. -/
theorem acc_inv3 : ∀ (n : ℕ) (hn : n < cfg3.N) (p : Fin 1024) (q : Fin 512),
    (outsAt3 V c n hn).2 (ix2 p q)
      = Cert.AggMath.partialBlocks (terms3 V c (rowOf3 ⟨n, hn⟩ p) q) 1024 (n % 8 + 1) := by
  intro n
  induction n with
  | zero =>
    intro hn p q
    refine (congrFun (acc_first3 V c ⟨0, hn⟩ rfl) (ix2 p q)).trans ?_
    refine (k3_pay2_apply _ _ _ p q).trans ?_
    rw [k3_pay1_apply, show 0 % 8 + 1 = 1 from rfl, Cert.AggMath.partialBlocks_one]
    exact congrArg (0 + ·) (Finset.sum_congr rfl fun k _ => block_term3 V c ⟨0, hn⟩ p k q)
  | succ n ih =>
    intro hn p q
    by_cases h0 : (n + 1) % 8 = 0
    · refine (congrFun (acc_first3 V c ⟨n + 1, hn⟩ h0) (ix2 p q)).trans ?_
      refine (k3_pay2_apply _ _ _ p q).trans ?_
      rw [k3_pay1_apply, h0, show 0 + 1 = 1 from rfl, Cert.AggMath.partialBlocks_one]
      refine congrArg (0 + ·) (Finset.sum_congr rfl fun k _ => (block_term3 V c ⟨n + 1, hn⟩ p k q).trans ?_)
      show onNat _ ((n + 1) % 8 * 1024 + k.val) = _
      rw [h0]
    · refine (congrFun (acc_next3 V c ⟨n + 1, hn⟩ h0) (ix2 p q)).trans ?_
      refine (k3_pay2_apply _ _ _ p q).trans ?_
      have hprev : (outsAt3 V c ((⟨n + 1, hn⟩ : Fin cfg3.N).val - 1)
            (Nat.lt_of_le_of_lt (Nat.sub_le _ _) (⟨n + 1, hn⟩ : Fin cfg3.N).isLt)).2 (ix2 p q)
          = Cert.AggMath.partialBlocks (terms3 V c (rowOf3 ⟨n + 1, hn⟩ p) q) 1024 ((n + 1) % 8) := by
        have e := ih (Nat.lt_of_succ_lt hn) p q
        rw [rowOf_pred3 n hn h0 p, show n % 8 + 1 = (n + 1) % 8 by omega] at e
        exact e
      rw [hprev, Cert.AggMath.partialBlocks_succ]
      exact congrArg (_ + ·) (Finset.sum_congr rfl fun k _ => block_term3 V c ⟨n + 1, hn⟩ p k q)

/-! ### What a last column block stores, and the whole output -/

/-- Point t's block of the output, as entries of the whole array. -/
theorem emb_out3 (t : Fin cfg3.N) (p : Fin 1024) (q : Fin 512) :
    ((cfg3.win 3).blk t).view.emb (ix2 p q) = ix2 (rowOf3 t p) q := by
  obtain ⟨-, -, -, -, -, -, e6, e7⟩ := idx_facts3 t
  funext a
  apply Fin.ext
  match a with
  | ⟨0, _⟩ => show win3_3.index t (0 : Fin 2) * 1024 + 1 * p.val = t.val / 8 * 1024 + p.val; rw [e6]; omega
  | ⟨1, _⟩ => show win3_3.index t (1 : Fin 2) * 512 + 1 * q.val = q.val; rw [e7]; omega

/-- What a storing point writes back is its block of the rectified aggregation. -/
theorem flushed3_eq (t : Fin cfg3.N) (hf : (cfg3.win 3).flush t = true) :
    (dat3 V c).flushed 3 t
      = ((cfg3.win 3).blk t).view.read (Elt Ideal) (R3 (arrA3 V c) (arrP3 V c) (arrB3 V c)) := by
  have h7 : t.val % 8 = 7 := (flush3_3 t).mp hf
  show (cfg3.win 3).cut (grid3.coords t) ((dat3 V c).after 3 t) = _
  rw [after3_3, out_last3 V c t h7]
  funext j
  obtain ⟨p, q, rfl⟩ : ∃ (p : Fin 1024) (q : Fin 512), j = ix2 p q := ⟨j 0, j 1, @eq_ix2 1024 512 j⟩
  show k3_pay3 (F := Ideal) (iblk3 V c 2 t) (outsAt3 V c t.val t.isLt).2 (ix2 p q)
    = R3 (arrA3 V c) (arrP3 V c) (arrB3 V c) (((cfg3.win 3).blk t).view.emb (ix2 p q))
  rw [emb_out3]
  refine (k3_pay3_apply _ _ p q).trans ?_
  rw [acc_inv3 V c t.val t.isLt p q, h7, show 7 + 1 = 8 from rfl, Cert.AggMath.partialBlocks_full 8 1024 rfl,
    iblk3_2_apply]
  rfl

/-- An index of the output is in point t's block iff each coordinate is in the block's range. -/
theorem mem_blk3 (t : Fin cfg3.N) (i : S8192x512.Idx) :
    i ∈ ((cfg3.win 3).blk t).view.set ↔ ∀ a : Fin 2, win3_3.index t a * S1024x512.size a ≤ (i a).val
      ∧ (i a).val < win3_3.index t a * S1024x512.size a + S1024x512.size a := by
  show i ∈ ((View.whole main_v67).slice (win3_3.rect t)).set ↔ _
  rw [View.set_slice_whole, Rect.mem_set_unit]
  exact Iff.rfl

/-- THE OUTPUT after the region: the rectified aggregation A · P + b, every entry (the storing points' blocks tile it:
    entry (i, j) is in the block of the last point of row block i / 1024). -/
theorem final3 : (dat3 V c).arrAt 3 cfg3.N = R3 (arrA3 V c) (arrP3 V c) (arrB3 V c) :=
  (dat3 V c).arrAt_eq_of_cover 3 _ (fun t hf => flushed3_eq V c t hf) fun i => by
    have hi0 : (i 0).val < 8192 := (i 0).isLt
    have hi1 : (i 1).val < 512 := (i 1).isLt
    have hN : cfg3.N = 64 := N_3
    obtain ⟨t, ht⟩ : ∃ t : Fin cfg3.N, t.val = (i 0).val / 1024 * 8 + 7 := ⟨⟨(i 0).val / 1024 * 8 + 7, by omega⟩, rfl⟩
    obtain ⟨-, -, -, -, -, -, e6, e7⟩ := idx_facts3 t
    refine ⟨t, (flush3_3 t).mpr (by omega), ?_⟩
    rw [mem_blk3]
    intro a
    match a with
    | ⟨0, _⟩ =>
      show win3_3.index t (0 : Fin 2) * 1024 ≤ (i 0).val ∧ (i 0).val < win3_3.index t (0 : Fin 2) * 1024 + 1024
      rw [e6]; omega
    | ⟨1, _⟩ =>
      show win3_3.index t (1 : Fin 2) * 512 ≤ (i 1).val ∧ (i 1).val < win3_3.index t (1 : Fin 2) * 512 + 512
      rw [e7]; omega

end AtIdeal

end Cert.KernelIdeal.KVal

end
-- ==== Proof.ValAgg5.lean ====
/-
  The aggregation of one layer, block by block, on the extended reals.

  The region walks 8 × 8 points: point t works on rows (t / 8) · 1024 … of the adjacency A and on its column block
  t % 8, that is on the 1024 terms (t % 8) · 1024 … of each row's contraction with the projected features P. At the first
  column block the accumulator is cleared and the block's product added (0 + Σ over the block); at the others the block's
  product is added to what the point before left; at the last one the bias row is then added along the rows and the block
  stored (the last layer has no rectifier). So after point t the accumulator's entry (p, q) is the sum of the first t % 8 + 1
  blocks of the terms A(row, k) · P(k, q), row = (t / 8) · 1024 + p — by induction on the point, never by listing the
  points — and after the eighth block that is the whole contraction, since a finite sum in the extended reals may be
  regrouped into consecutive blocks. The stored blocks tile the output, which therefore ends holding
  Σ_k A(i, k) · P(k, j) + b(j) at every (i, j).
-/
import proofs.«148437_j67826123538777_1_alg».proof.Proof.FrAgg5I
import proofs.«148437_j67826123538777_1_alg».proof.Proof.KPayloads
import proofs.«148437_j67826123538777_1_alg».proof.Proof.LibSumStep
import proofs.«148437_j67826123538777_1_alg».proof.Proof.Spec
import Idealize.ShloMosaic.Lib.Pipeline.Value
import Idealize.ShloMosaic.Lib.Tactic

set_option maxRecDepth 16384

noncomputable section

open scoped BigOperators

namespace Cert.KernelIdeal.KVal

open Cert.KernelIdeal Cert.KernelIdeal.Gen Cert.KernelIdeal.Fr Cert.KernelIdeal.KMath
open Idealize.ShloMosaic Idealize.ShloMosaic.TcCoe Idealize.ShloMosaic.ValueIdx Idealize.ShloMosaic.Tactic Idealize.SL.Sem
open Idealize.ShloMosaic.Pipeline (Dat)
open Cert.Lib.SumBlocks (onNat onNat_of_lt)

theorem hz5 : (![0, 0] : Fin 2 → Nat) = fun _ => 0 := funext fun a => by fin_cases a <;> rfl

/-! ## What each case of the body leaves, as values of its loaded blocks -/

section CaseValues
variable {F : FTy → Type} [FloatOps F]
variable (c : Dev nD) (i : grid5.Coords)
  (arg2 : Memref sig .tc .vmem S1024x1024 .bf16) (harg2 : arg2.IsWhole)
  (arg3 : Memref sig .tc .vmem S1024x256 .bf16) (harg3 : arg3.IsWhole)
  (arg4 : Memref sig .tc .vmem S1x256 .f32) (harg4 : arg4.IsWhole)
  (arg5 : Memref sig .tc .vmem S1024x256 .f32) (harg5 : arg5.IsWhole)
  (arg6 : Memref sig .tc .vmem S1024x256 .f32) (harg6 : arg6.IsWhole)
  (x0 : Vec F S1024x1024 .bf16) (x1 : Vec F S1024x256 .bf16) (x2 : Vec F S1x256 .f32) (xs0 : Vec F S1024x256 .f32)

/-- A middle column block: the accumulator ends at what it held plus the block's product. -/
theorem sout5_B_val (hc0 : ¬cond5_0 i) (hc1 : ¬cond5_1 i) :
    sout5_B_0 c i arg2 harg2 arg3 harg3 arg4 harg4 arg5 harg5 arg6 harg6 hc0 hc1 x0 x1 x2 xs0 = k5_pay2 xs0 x0 x1 := by
  unfold sout5_B_0
  rw [View.read_writes_eq_canon _ _ _ (scover5_B_0 c i arg2 harg2 arg3 harg3 arg4 harg4 arg5 harg5 arg6 harg6 hc0 hc1 x0 x1 x2 xs0)]
  unfold kernelRun5_B
  dsimp only
  rw [View.canon_unit_zero hz5]
  simp only [View.readAt_eq_ld, harg2.read_unread, harg3.read_unread, harg6.read_unread,
    View.ld_unit_zero (S := S1024x256) hz5, View.ld_unit_zero (S := S1024x1024) hz5]

/-- The first column block: the accumulator is cleared, read back, and ends at the zero block plus the block's product. -/
theorem sout5_A_val (hc0 : cond5_0 i) (hc1 : ¬cond5_1 i) :
    sout5_A_0 c i arg2 harg2 arg3 harg3 arg4 harg4 arg5 harg5 arg6 harg6 hc0 hc1 x0 x1 x2
      = k5_pay2 (k5_pay1 (F := F)) x0 x1 := by
  unfold sout5_A_0
  rw [View.read_writes_eq_canon _ _ _ (scover5_A_0 c i arg2 harg2 arg3 harg3 arg4 harg4 arg5 harg5 arg6 harg6 hc0 hc1 x0 x1 x2)]
  unfold kernelRun5_A
  dsimp only
  sl_unfold_words
  rw [View.canon_cons_unit_zero (S := S1024x256) hz5, View.readCov_unit_zero (S := S1024x256) _ hz5]
  simp only [View.readAt_eq_ld, harg2.read_unread, harg3.read_unread,
    View.ld_unit_zero (S := S1024x256) hz5, View.ld_unit_zero (S := S1024x1024) hz5]

/-- The last column block, the accumulator: as at a middle one. -/
theorem sout5_C_val (hc0 : ¬cond5_0 i) (hc1 : cond5_1 i) :
    sout5_C_0 c i arg2 harg2 arg3 harg3 arg4 harg4 arg5 harg5 arg6 harg6 hc0 hc1 x0 x1 x2 xs0 = k5_pay2 xs0 x0 x1 := by
  unfold sout5_C_0
  rw [View.read_writes_eq_canon _ _ _ (scover5_C_0 c i arg2 harg2 arg3 harg3 arg4 harg4 arg5 harg5 arg6 harg6 hc0 hc1 x0 x1 x2 xs0)]
  unfold kernelRun5_C
  dsimp only
  sl_unfold_words
  rw [View.canon_unit_zero hz5]
  simp only [View.readAt_eq_ld, harg2.read_unread, harg3.read_unread, harg6.read_unread,
    View.ld_unit_zero (S := S1024x256) hz5, View.ld_unit_zero (S := S1024x1024) hz5]

/-- The last column block, the output block: the bias row added to the accumulator just stored. -/
theorem out5_C_val (hc0 : ¬cond5_0 i) (hc1 : cond5_1 i) :
    out5_C_3 c i arg2 harg2 arg3 harg3 arg4 harg4 arg5 harg5 arg6 harg6 hc0 hc1 x0 x1 x2 xs0
      = k5_pay3 x2 (k5_pay2 xs0 x0 x1) := by
  unfold out5_C_3
  rw [View.read_writes_eq_canon _ _ _ (cover5_C_3 c i arg2 harg2 arg3 harg3 arg4 harg4 arg5 harg5 arg6 harg6 hc0 hc1 x0 x1 x2 xs0)]
  unfold kernelRun5_C
  dsimp only
  sl_unfold_words
  rw [View.canon_unit_zero hz5, View.readCov_unit_zero (S := S1024x256) _ hz5]
  simp only [View.readAt_eq_ld, harg2.read_unread, harg3.read_unread, harg4.read_unread, harg6.read_unread,
    View.ld_unit_zero (S := S1024x256) hz5, View.ld_unit_zero (S := S1024x1024) hz5, View.ld_unit_zero (S := S1x256) hz5]

end CaseValues

/-! ## The region at the ideal values -/

section AtIdeal
variable (V : (c : Dev nD) → (b : Ref sig .tc) → Buf (Elt Ideal) ((c : Thread nD τ).loc b)) (c : Dev nD)

/-- The adjacency as the region finds it. -/
abbrev arrA5 : S8192x8192.Idx → EReal := V c (Pipeline.arrRef spec5 0)
/-- The projected features as the region finds them. -/
abbrev arrP5 : S8192x256.Idx → EReal := V c (Pipeline.arrRef spec5 1)
/-- The bias row as the region finds it. -/
abbrev arrB5 : S1x256.Idx → EReal := V c (Pipeline.arrRef spec5 2)

/-- What the layer's output array ends holding: the aggregation plus the bias, entry by entry. -/
def R5 (A : S8192x8192.Idx → EReal) (P : S8192x256.Idx → EReal) (B : S1x256.Idx → EReal) : S8192x256.Idx → EReal :=
  fun i => (∑ kk : Fin 8192, A (ix2 (i 0) kk) * P (ix2 kk (i 1))) + B (ix2 (0 : Fin 1) (i 1))

/-! ### The accumulator and the stored block at a point, from the cases -/

/-- At a first column block the accumulator ends at the zero block plus the block's product. -/
theorem acc_first5 (t : Fin cfg5.N) (h0 : t.val % 8 = 0) :
    (outsAt5 V c t.val t.isLt).2 = k5_pay2 (F := Ideal) (k5_pay1 (F := Ideal)) (iblk5 V c 0 t) (iblk5 V c 1 t) := by
  have h1 : ¬t.val % 8 = 7 := by omega
  rw [outsAt5_A V c t h0 h1]
  dsimp only
  exact sout5_A_val (F := Ideal) ..

/-- At any other column block it ends at what the point before left plus the block's product. -/
theorem acc_next5 (t : Fin cfg5.N) (h0 : ¬t.val % 8 = 0) :
    (outsAt5 V c t.val t.isLt).2
      = k5_pay2 (F := Ideal) (outsAt5 V c (t.val - 1) (Nat.lt_of_le_of_lt (Nat.sub_le _ _) t.isLt)).2
          (iblk5 V c 0 t) (iblk5 V c 1 t) := by
  by_cases h1 : t.val % 8 = 7
  · rw [outsAt5_C V c t h0 h1]
    dsimp only
    exact sout5_C_val (F := Ideal) ..
  · rw [outsAt5_B V c t h0 h1]
    dsimp only
    exact sout5_B_val (F := Ideal) ..

/-- At a last column block the stored block is the accumulator plus the bias row. -/
theorem out_last5 (t : Fin cfg5.N) (h1 : t.val % 8 = 7) :
    (outsAt5 V c t.val t.isLt).1 = k5_pay3 (F := Ideal) (iblk5 V c 2 t) (outsAt5 V c t.val t.isLt).2 := by
  have h0 : ¬t.val % 8 = 0 := by omega
  rw [outsAt5_C V c t h0 h1]
  dsimp only
  rw [out5_C_val (F := Ideal), sout5_C_val (F := Ideal)]

/-! ### The blocks the points read, as entries of the whole arrays -/

/-- The printed index maps, decided over the 64 points: point t is at row block t / 8 and column block t % 8. -/
theorem idx_facts5 : ∀ t : Fin cfg5.N,
    win5_0.index t (0 : Fin 2) = t.val / 8 ∧ win5_0.index t (1 : Fin 2) = t.val % 8
    ∧ win5_1.index t (0 : Fin 2) = t.val % 8 ∧ win5_1.index t (1 : Fin 2) = 0
    ∧ win5_2.index t (0 : Fin 2) = 0 ∧ win5_2.index t (1 : Fin 2) = 0
    ∧ win5_3.index t (0 : Fin 2) = t.val / 8 ∧ win5_3.index t (1 : Fin 2) = 0 :=
  (by decide +kernel : ∀ t : Fin grid5.N, _)

/-- Row p of point t's row block, as a row of the whole arrays. -/
def rowOf5 (t : Fin cfg5.N) (p : Fin 1024) : Fin 8192 :=
  ⟨t.val / 8 * 1024 + p.val, by have := lt_of_lt_of_eq t.isLt (show cfg5.N = 64 from N_5); have := p.isLt; omega⟩

/-- Term k of point t's column block, as a term of the whole contraction. -/
def termOf5 (t : Fin cfg5.N) (k : Fin 1024) : Fin 8192 :=
  ⟨t.val % 8 * 1024 + k.val, by have := k.isLt; omega⟩

/-- The block of the adjacency point t reads. -/
theorem iblk5_0_apply (t : Fin cfg5.N) (p k : Fin 1024) :
    iblk5 V c 0 t (ix2 p k) = arrA5 V c (ix2 (rowOf5 t p) (termOf5 t k)) := by
  obtain ⟨e0, e1, -⟩ := idx_facts5 t
  show V c (Pipeline.arrRef spec5 0) (((cfg5.win 0).blk t).view.emb (ix2 p k)) = V c (Pipeline.arrRef spec5 0) _
  congr 1
  funext a
  apply Fin.ext
  match a with
  | ⟨0, _⟩ => show win5_0.index t (0 : Fin 2) * 1024 + 1 * p.val = t.val / 8 * 1024 + p.val; rw [e0]; omega
  | ⟨1, _⟩ => show win5_0.index t (1 : Fin 2) * 1024 + 1 * k.val = t.val % 8 * 1024 + k.val; rw [e1]; omega

/-- The block of the projected features point t reads. -/
theorem iblk5_1_apply (t : Fin cfg5.N) (k : Fin 1024) (q : Fin 256) :
    iblk5 V c 1 t (ix2 k q) = arrP5 V c (ix2 (termOf5 t k) q) := by
  obtain ⟨-, -, e2, e3, -⟩ := idx_facts5 t
  show V c (Pipeline.arrRef spec5 1) (((cfg5.win 1).blk t).view.emb (ix2 k q)) = V c (Pipeline.arrRef spec5 1) _
  congr 1
  funext a
  apply Fin.ext
  match a with
  | ⟨0, _⟩ => show win5_1.index t (0 : Fin 2) * 1024 + 1 * k.val = t.val % 8 * 1024 + k.val; rw [e2]; omega
  | ⟨1, _⟩ => show win5_1.index t (1 : Fin 2) * 256 + 1 * q.val = q.val; rw [e3]; omega

/-- The bias row every point reads. -/
theorem iblk5_2_apply (t : Fin cfg5.N) (q : Fin 256) :
    iblk5 V c 2 t (ix2 (0 : Fin 1) q) = arrB5 V c (ix2 (0 : Fin 1) q) := by
  obtain ⟨-, -, -, -, e4, e5, -⟩ := idx_facts5 t
  show V c (Pipeline.arrRef spec5 2) (((cfg5.win 2).blk t).view.emb (ix2 (0 : Fin 1) q)) = V c (Pipeline.arrRef spec5 2) _
  congr 1
  funext a
  apply Fin.ext
  match a with
  | ⟨0, _⟩ => show win5_2.index t (0 : Fin 2) * 1 + 1 * 0 = 0; rw [e4]
  | ⟨1, _⟩ => show win5_2.index t (1 : Fin 2) * 256 + 1 * q.val = q.val; rw [e5]; omega

/-! ### The invariant: the accumulator is the sum of the blocks met so far -/

/-- The terms of one entry's contraction: A(row, k) · P(k, q), k = 0 … 8191. -/
def terms5 (row : Fin 8192) (q : Fin 256) : Fin 8192 → EReal :=
  fun kk => arrA5 V c (ix2 row kk) * arrP5 V c (ix2 kk q)

/-- The block of the adjacency point t reads, as a vector of the body's type. -/
abbrev blkA5 (t : Fin cfg5.N) : Vec Ideal S1024x1024 .bf16 := iblk5 V c 0 t
/-- The block of the projected features point t reads, as a vector of the body's type. -/
abbrev blkP5 (t : Fin cfg5.N) : Vec Ideal S1024x256 .bf16 := iblk5 V c 1 t

/-- A product of the blocks point t reads is a term of the contraction, named by block number and offset. -/
theorem block_term5 (t : Fin cfg5.N) (p k : Fin 1024) (q : Fin 256) :
    blkA5 V c t (ix2 p k) * blkP5 V c t (ix2 k q)
      = onNat (terms5 V c (rowOf5 t p) q) (t.val % 8 * 1024 + k.val) :=
  (congrArg₂ (fun a b : EReal => a * b) (iblk5_0_apply V c t p k) (iblk5_1_apply V c t k q)).trans
    (onNat_of_lt (terms5 V c (rowOf5 t p) q) _ (termOf5 t k).isLt).symm

/-- A point that is not at a first column block has the row block of the point before. -/
theorem rowOf_pred5 (n : ℕ) (hn : n + 1 < cfg5.N) (h0 : ¬(n + 1) % 8 = 0) (p : Fin 1024) :
    rowOf5 ⟨n, Nat.lt_of_succ_lt hn⟩ p = rowOf5 ⟨n + 1, hn⟩ p :=
  Fin.ext (by show n / 8 * 1024 + p.val = (n + 1) / 8 * 1024 + p.val; omega)

/-- After point n the accumulator's entry (p, q) is the sum of the first n % 8 + 1 blocks of 1024 terms of the
    contraction of row (n / 8) · 1024 + p of A with column q of P: by induction on the point. -/
theorem acc_inv5 : ∀ (n : ℕ) (hn : n < cfg5.N) (p : Fin 1024) (q : Fin 256),
    (outsAt5 V c n hn).2 (ix2 p q)
      = Cert.AggMath.partialBlocks (terms5 V c (rowOf5 ⟨n, hn⟩ p) q) 1024 (n % 8 + 1) := by
  intro n
  induction n with
  | zero =>
    intro hn p q
    refine (congrFun (acc_first5 V c ⟨0, hn⟩ rfl) (ix2 p q)).trans ?_
    refine (k5_pay2_apply _ _ _ p q).trans ?_
    rw [k5_pay1_apply, show 0 % 8 + 1 = 1 from rfl, Cert.AggMath.partialBlocks_one]
    exact congrArg (0 + ·) (Finset.sum_congr rfl fun k _ => block_term5 V c ⟨0, hn⟩ p k q)
  | succ n ih =>
    intro hn p q
    by_cases h0 : (n + 1) % 8 = 0
    · refine (congrFun (acc_first5 V c ⟨n + 1, hn⟩ h0) (ix2 p q)).trans ?_
      refine (k5_pay2_apply _ _ _ p q).trans ?_
      rw [k5_pay1_apply, h0, show 0 + 1 = 1 from rfl, Cert.AggMath.partialBlocks_one]
      refine congrArg (0 + ·) (Finset.sum_congr rfl fun k _ => (block_term5 V c ⟨n + 1, hn⟩ p k q).trans ?_)
      show onNat _ ((n + 1) % 8 * 1024 + k.val) = _
      rw [h0]
    · refine (congrFun (acc_next5 V c ⟨n + 1, hn⟩ h0) (ix2 p q)).trans ?_
      refine (k5_pay2_apply _ _ _ p q).trans ?_
      have hprev : (outsAt5 V c ((⟨n + 1, hn⟩ : Fin cfg5.N).val - 1)
            (Nat.lt_of_le_of_lt (Nat.sub_le _ _) (⟨n + 1, hn⟩ : Fin cfg5.N).isLt)).2 (ix2 p q)
          = Cert.AggMath.partialBlocks (terms5 V c (rowOf5 ⟨n + 1, hn⟩ p) q) 1024 ((n + 1) % 8) := by
        have e := ih (Nat.lt_of_succ_lt hn) p q
        rw [rowOf_pred5 n hn h0 p, show n % 8 + 1 = (n + 1) % 8 by omega] at e
        exact e
      rw [hprev, Cert.AggMath.partialBlocks_succ]
      exact congrArg (_ + ·) (Finset.sum_congr rfl fun k _ => block_term5 V c ⟨n + 1, hn⟩ p k q)

/-! ### What a last column block stores, and the whole output -/

/-- Point t's block of the output, as entries of the whole array. -/
theorem emb_out5 (t : Fin cfg5.N) (p : Fin 1024) (q : Fin 256) :
    ((cfg5.win 3).blk t).view.emb (ix2 p q) = ix2 (rowOf5 t p) q := by
  obtain ⟨-, -, -, -, -, -, e6, e7⟩ := idx_facts5 t
  funext a
  apply Fin.ext
  match a with
  | ⟨0, _⟩ => show win5_3.index t (0 : Fin 2) * 1024 + 1 * p.val = t.val / 8 * 1024 + p.val; rw [e6]; omega
  | ⟨1, _⟩ => show win5_3.index t (1 : Fin 2) * 256 + 1 * q.val = q.val; rw [e7]; omega

/-- What a storing point writes back is its block of the aggregation plus the bias. -/
theorem flushed5_eq (t : Fin cfg5.N) (hf : (cfg5.win 3).flush t = true) :
    (dat5 V c).flushed 3 t
      = ((cfg5.win 3).blk t).view.read (Elt Ideal) (R5 (arrA5 V c) (arrP5 V c) (arrB5 V c)) := by
  have h7 : t.val % 8 = 7 := (flush5_3 t).mp hf
  show (cfg5.win 3).cut (grid5.coords t) ((dat5 V c).after 3 t) = _
  rw [after5_3, out_last5 V c t h7]
  funext j
  obtain ⟨p, q, rfl⟩ : ∃ (p : Fin 1024) (q : Fin 256), j = ix2 p q := ⟨j 0, j 1, @eq_ix2 1024 256 j⟩
  show k5_pay3 (F := Ideal) (iblk5 V c 2 t) (outsAt5 V c t.val t.isLt).2 (ix2 p q)
    = R5 (arrA5 V c) (arrP5 V c) (arrB5 V c) (((cfg5.win 3).blk t).view.emb (ix2 p q))
  rw [emb_out5]
  refine (k5_pay3_apply _ _ p q).trans ?_
  rw [acc_inv5 V c t.val t.isLt p q, h7, show 7 + 1 = 8 from rfl, Cert.AggMath.partialBlocks_full 8 1024 rfl,
    iblk5_2_apply]
  rfl

/-- An index of the output is in point t's block iff each coordinate is in the block's range. -/
theorem mem_blk5 (t : Fin cfg5.N) (i : S8192x256.Idx) :
    i ∈ ((cfg5.win 3).blk t).view.set ↔ ∀ a : Fin 2, win5_3.index t a * S1024x256.size a ≤ (i a).val
      ∧ (i a).val < win5_3.index t a * S1024x256.size a + S1024x256.size a := by
  show i ∈ ((View.whole main_v70).slice (win5_3.rect t)).set ↔ _
  rw [View.set_slice_whole, Rect.mem_set_unit]
  exact Iff.rfl

/-- THE OUTPUT after the region: the aggregation A · P + b, every entry (the storing points' blocks tile it:
    entry (i, j) is in the block of the last point of row block i / 1024). -/
theorem final5 : (dat5 V c).arrAt 3 cfg5.N = R5 (arrA5 V c) (arrP5 V c) (arrB5 V c) :=
  (dat5 V c).arrAt_eq_of_cover 3 _ (fun t hf => flushed5_eq V c t hf) fun i => by
    have hi0 : (i 0).val < 8192 := (i 0).isLt
    have hi1 : (i 1).val < 256 := (i 1).isLt
    have hN : cfg5.N = 64 := N_5
    obtain ⟨t, ht⟩ : ∃ t : Fin cfg5.N, t.val = (i 0).val / 1024 * 8 + 7 := ⟨⟨(i 0).val / 1024 * 8 + 7, by omega⟩, rfl⟩
    obtain ⟨-, -, -, -, -, -, e6, e7⟩ := idx_facts5 t
    refine ⟨t, (flush5_3 t).mpr (by omega), ?_⟩
    rw [mem_blk5]
    intro a
    match a with
    | ⟨0, _⟩ =>
      show win5_3.index t (0 : Fin 2) * 1024 ≤ (i 0).val ∧ (i 0).val < win5_3.index t (0 : Fin 2) * 1024 + 1024
      rw [e6]; omega
    | ⟨1, _⟩ =>
      show win5_3.index t (1 : Fin 2) * 256 ≤ (i 1).val ∧ (i 1).val < win5_3.index t (1 : Fin 2) * 256 + 256
      rw [e7]; omega

end AtIdeal

end Cert.KernelIdeal.KVal

end
-- ==== Proof.LibRowVector.lean ====
/-
  A vector as a one-row matrix.

  A host program hands a bias vector [b] to a kernel as the matrix [1, b] (a reshape: the row-major position is kept), so
  entry (0, q) of the matrix is entry q of the vector.  Nothing here mentions a program.
-/
import Idealize.ShloMosaic.Lib.Pipeline.Value
import Idealize.ShloMosaic.Lib.ValueIdx

noncomputable section

namespace Cert.RowVector

open Idealize.ShloMosaic Idealize.ShloMosaic.ValueIdx

/-- A `[b]` vector reshaped to `[1, b]` reads, at `(0, q)`, the vector's entry `q`. -/
theorem shapeCast_b_1b_apply {α : Type} {b : ℕ} (v : (⟨1, ![b]⟩ : Shape).Idx → α)
    (h : (⟨1, ![b]⟩ : Shape).ShapeCasts ⟨2, ![1, b]⟩) (u : Fin 1) (q : Fin b) :
    shapeCast ⟨2, ![1, b]⟩ v h (ix2 u q) = v (ix1 q) :=
  shapeCast_apply v h _ _ (by
    have hu : u.val = 0 := by omega
    rw [Shape.rowMajor_val_one, Shape.rowMajor_val_two]
    show q.val = u.val * b + q.val
    rw [hu, Nat.zero_mul, Nat.zero_add])

end Cert.RowVector

end
-- ==== Proof.KCompose.lean ====
import proofs.«148437_j67826123538777_1_alg».proof.Proof.FrArgsI
import proofs.«148437_j67826123538777_1_alg».proof.Proof.KBound
import proofs.«148437_j67826123538777_1_alg».proof.Proof.ValProj
import proofs.«148437_j67826123538777_1_alg».proof.Proof.ValAgg1
import proofs.«148437_j67826123538777_1_alg».proof.Proof.ValAgg3
import proofs.«148437_j67826123538777_1_alg».proof.Proof.ValAgg5
import proofs.«148437_j67826123538777_1_alg».proof.Proof.Spec
import proofs.«148437_j67826123538777_1_alg».proof.Proof.LibRowVector
import Idealize.ShloMosaic.Lib.Pipeline.Value
import Idealize.ShloMosaic.Lib.ValueIdx

/-
  The network's result array as ONE function of the argument arrays, at the ideal values.

  A projection region leaves h · W of what it finds; an aggregation region leaves A · P + b (rectified in the first two
  layers) of the adjacency, the projection before it and the bias row. Read layer by layer at the boundaries of @main, the
  last region's output array is the three-layer network of the specification over the kernel's adjacency.
-/
set_option maxRecDepth 16384

noncomputable section

namespace Cert.KernelIdeal.KVal

open Cert.KernelIdeal Cert.KernelIdeal.Gen Cert.KernelIdeal.Fr Cert.KernelIdeal.KMath
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- A bias vector handed over as a one-row matrix: entry (0, q) of the row is entry q of the vector. -/
theorem row512 (x : (⟨S512, .f32⟩ : BufTy).Contents (Elt Ideal)) (q : Fin 512) :
    shapeCast S1x512 x shapeCasts_S512_S1x512 (ix2 (0 : Fin 1) q) = x (ix1 q) :=
  Cert.RowVector.shapeCast_b_1b_apply x shapeCasts_S512_S1x512 0 q
theorem row256 (x : (⟨S256, .f32⟩ : BufTy).Contents (Elt Ideal)) (q : Fin 256) :
    shapeCast S1x256 x shapeCasts_S256_S1x256 (ix2 (0 : Fin 1) q) = x (ix1 q) :=
  Cert.RowVector.shapeCast_b_1b_apply x shapeCasts_S256_S1x256 0 q

/-! ## Layer 1 -/

theorem v62_eq (c : Dev nD) : W3 m ρ c (Proc.devRef .tc main_v62) = Cert.GcnSpec.prod (m ((c : Thread nD τ).loc main_arg0)) (m ((c : Thread nD τ).loc main_arg2)) :=
  calc W3 m ρ c (Proc.devRef .tc main_v62)
    _ = W2 m ρ c (Proc.devRef .tc main_v62) := v62_at3 m ρ c
    _ = (dat0 (V1 m ρ) c).arrAt 2 cfg0.N := W2_arr m ρ c 2
    _ = Cert.GcnSpec.prod (V1 m ρ c (Pipeline.arrRef spec0 0)) (V1 m ρ c (Pipeline.arrRef spec0 1)) := final0 (V1 m ρ) c
    _ = Cert.GcnSpec.prod (m ((c : Thread nD τ).loc main_arg0)) (m ((c : Thread nD τ).loc main_arg2)) := by
        show Cert.GcnSpec.prod (W1 m ρ c (Proc.devRef .tc main_arg0)) (W1 m ρ c (Proc.devRef .tc main_arg2)) = _
        rw [W1_arg0 m ρ c, W1_arg2 m ρ c]

theorem v64_eq (c : Dev nD) : W4 m ρ c (Proc.devRef .tc main_v64) = Cert.GcnSpec.relu (Cert.GcnSpec.layer (kAdj (m ((c : Thread nD τ).loc main_arg1))) (m ((c : Thread nD τ).loc main_arg0)) (m ((c : Thread nD τ).loc main_arg2)) (fun q => m ((c : Thread nD τ).loc main_arg3) (ix1 q))) :=
  calc W4 m ρ c (Proc.devRef .tc main_v64)
    _ = (dat1 (V3 m ρ) c).arrAt 3 cfg1.N := W4_arr m ρ c 3
    _ = R1 (V3 m ρ c (Pipeline.arrRef spec1 0)) (V3 m ρ c (Pipeline.arrRef spec1 1)) (V3 m ρ c (Pipeline.arrRef spec1 2)) := final1 (V3 m ρ) c
    _ = Cert.GcnSpec.relu (Cert.GcnSpec.layer (kAdj (m ((c : Thread nD τ).loc main_arg1))) (m ((c : Thread nD τ).loc main_arg0)) (m ((c : Thread nD τ).loc main_arg2)) (fun q => m ((c : Thread nD τ).loc main_arg3) (ix1 q))) := by
        show R1 (W3 m ρ c (Proc.devRef .tc main_v61)) (W3 m ρ c (Proc.devRef .tc main_v62)) (W3 m ρ c (Proc.devRef .tc main_v63)) = _
        rw [adj3 m ρ c, v62_eq m ρ c, v63_eq m ρ c]
        funext i
        exact congrArg (fun z => max (_ + z) 0) (row512 _ (i 1))

/-! ## Layer 2 -/

theorem v65_eq (c : Dev nD) : W5 m ρ c (Proc.devRef .tc main_v65) = Cert.GcnSpec.prod (Cert.GcnSpec.relu (Cert.GcnSpec.layer (kAdj (m ((c : Thread nD τ).loc main_arg1))) (m ((c : Thread nD τ).loc main_arg0)) (m ((c : Thread nD τ).loc main_arg2)) (fun q => m ((c : Thread nD τ).loc main_arg3) (ix1 q)))) (m ((c : Thread nD τ).loc main_arg4)) :=
  calc W5 m ρ c (Proc.devRef .tc main_v65)
    _ = (dat2 (V4 m ρ) c).arrAt 2 cfg2.N := W5_arr m ρ c 2
    _ = Cert.GcnSpec.prod (V4 m ρ c (Pipeline.arrRef spec2 0)) (V4 m ρ c (Pipeline.arrRef spec2 1)) := final2 (V4 m ρ) c
    _ = Cert.GcnSpec.prod (Cert.GcnSpec.relu (Cert.GcnSpec.layer (kAdj (m ((c : Thread nD τ).loc main_arg1))) (m ((c : Thread nD τ).loc main_arg0)) (m ((c : Thread nD τ).loc main_arg2)) (fun q => m ((c : Thread nD τ).loc main_arg3) (ix1 q)))) (m ((c : Thread nD τ).loc main_arg4)) := by
        show Cert.GcnSpec.prod (W4 m ρ c (Proc.devRef .tc main_v64)) (W4 m ρ c (Proc.devRef .tc main_arg4)) = _
        rw [v64_eq m ρ c, W4_arg4 m ρ c]

theorem v67_eq (c : Dev nD) : W7 m ρ c (Proc.devRef .tc main_v67) = Cert.GcnSpec.relu (Cert.GcnSpec.layer (kAdj (m ((c : Thread nD τ).loc main_arg1))) (Cert.GcnSpec.relu (Cert.GcnSpec.layer (kAdj (m ((c : Thread nD τ).loc main_arg1))) (m ((c : Thread nD τ).loc main_arg0)) (m ((c : Thread nD τ).loc main_arg2)) (fun q => m ((c : Thread nD τ).loc main_arg3) (ix1 q)))) (m ((c : Thread nD τ).loc main_arg4)) (fun q => m ((c : Thread nD τ).loc main_arg5) (ix1 q))) :=
  calc W7 m ρ c (Proc.devRef .tc main_v67)
    _ = (dat3 (V6 m ρ) c).arrAt 3 cfg3.N := W7_arr m ρ c 3
    _ = R3 (V6 m ρ c (Pipeline.arrRef spec3 0)) (V6 m ρ c (Pipeline.arrRef spec3 1)) (V6 m ρ c (Pipeline.arrRef spec3 2)) := final3 (V6 m ρ) c
    _ = Cert.GcnSpec.relu (Cert.GcnSpec.layer (kAdj (m ((c : Thread nD τ).loc main_arg1))) (Cert.GcnSpec.relu (Cert.GcnSpec.layer (kAdj (m ((c : Thread nD τ).loc main_arg1))) (m ((c : Thread nD τ).loc main_arg0)) (m ((c : Thread nD τ).loc main_arg2)) (fun q => m ((c : Thread nD τ).loc main_arg3) (ix1 q)))) (m ((c : Thread nD τ).loc main_arg4)) (fun q => m ((c : Thread nD τ).loc main_arg5) (ix1 q))) := by
        show R3 (W6 m ρ c (Proc.devRef .tc main_v61)) (W6 m ρ c (Proc.devRef .tc main_v65)) (W6 m ρ c (Proc.devRef .tc main_v66)) = _
        rw [adj6 m ρ c, v65_at6 m ρ c, v65_eq m ρ c, v66_eq m ρ c]
        funext i
        exact congrArg (fun z => max (_ + z) 0) (row512 _ (i 1))

/-! ## Layer 3 -/

theorem v68_eq (c : Dev nD) : W8 m ρ c (Proc.devRef .tc main_v68) = Cert.GcnSpec.prod (Cert.GcnSpec.relu (Cert.GcnSpec.layer (kAdj (m ((c : Thread nD τ).loc main_arg1))) (Cert.GcnSpec.relu (Cert.GcnSpec.layer (kAdj (m ((c : Thread nD τ).loc main_arg1))) (m ((c : Thread nD τ).loc main_arg0)) (m ((c : Thread nD τ).loc main_arg2)) (fun q => m ((c : Thread nD τ).loc main_arg3) (ix1 q)))) (m ((c : Thread nD τ).loc main_arg4)) (fun q => m ((c : Thread nD τ).loc main_arg5) (ix1 q)))) (m ((c : Thread nD τ).loc main_arg6)) :=
  calc W8 m ρ c (Proc.devRef .tc main_v68)
    _ = (dat4 (V7 m ρ) c).arrAt 2 cfg4.N := W8_arr m ρ c 2
    _ = Cert.GcnSpec.prod (V7 m ρ c (Pipeline.arrRef spec4 0)) (V7 m ρ c (Pipeline.arrRef spec4 1)) := final4 (V7 m ρ) c
    _ = Cert.GcnSpec.prod (Cert.GcnSpec.relu (Cert.GcnSpec.layer (kAdj (m ((c : Thread nD τ).loc main_arg1))) (Cert.GcnSpec.relu (Cert.GcnSpec.layer (kAdj (m ((c : Thread nD τ).loc main_arg1))) (m ((c : Thread nD τ).loc main_arg0)) (m ((c : Thread nD τ).loc main_arg2)) (fun q => m ((c : Thread nD τ).loc main_arg3) (ix1 q)))) (m ((c : Thread nD τ).loc main_arg4)) (fun q => m ((c : Thread nD τ).loc main_arg5) (ix1 q)))) (m ((c : Thread nD τ).loc main_arg6)) := by
        show Cert.GcnSpec.prod (W7 m ρ c (Proc.devRef .tc main_v67)) (W7 m ρ c (Proc.devRef .tc main_arg6)) = _
        rw [v67_eq m ρ c, W7_arg6 m ρ c]

/-- THE RESULT ARRAY: the three-layer network of the specification over the kernel's adjacency. -/
theorem v70_eq (c : Dev nD) : (dat5 (V9 m ρ) c).arrAt 3 cfg5.N
    = Cert.GcnSpec.G (kAdj (m ((c : Thread nD τ).loc main_arg1))) (m ((c : Thread nD τ).loc main_arg0)) (m ((c : Thread nD τ).loc main_arg2)) (fun q => m ((c : Thread nD τ).loc main_arg3) (ix1 q)) (m ((c : Thread nD τ).loc main_arg4)) (fun q => m ((c : Thread nD τ).loc main_arg5) (ix1 q)) (m ((c : Thread nD τ).loc main_arg6)) (fun q => m ((c : Thread nD τ).loc main_arg7) (ix1 q)) :=
  calc (dat5 (V9 m ρ) c).arrAt 3 cfg5.N
    _ = R5 (V9 m ρ c (Pipeline.arrRef spec5 0)) (V9 m ρ c (Pipeline.arrRef spec5 1)) (V9 m ρ c (Pipeline.arrRef spec5 2)) := final5 (V9 m ρ) c
    _ = Cert.GcnSpec.layer (kAdj (m ((c : Thread nD τ).loc main_arg1))) (Cert.GcnSpec.relu (Cert.GcnSpec.layer (kAdj (m ((c : Thread nD τ).loc main_arg1))) (Cert.GcnSpec.relu (Cert.GcnSpec.layer (kAdj (m ((c : Thread nD τ).loc main_arg1))) (m ((c : Thread nD τ).loc main_arg0)) (m ((c : Thread nD τ).loc main_arg2)) (fun q => m ((c : Thread nD τ).loc main_arg3) (ix1 q)))) (m ((c : Thread nD τ).loc main_arg4)) (fun q => m ((c : Thread nD τ).loc main_arg5) (ix1 q)))) (m ((c : Thread nD τ).loc main_arg6)) (fun q => m ((c : Thread nD τ).loc main_arg7) (ix1 q)) := by
        show R5 (W9 m ρ c (Proc.devRef .tc main_v61)) (W9 m ρ c (Proc.devRef .tc main_v68)) (W9 m ρ c (Proc.devRef .tc main_v69)) = _
        rw [adj9 m ρ c, v68_at9 m ρ c, v68_eq m ρ c, v69_eq m ρ c]
        funext i
        exact congrArg (fun z => _ + z) (row256 _ (i 1))
    _ = _ := rfl

/-- THE KERNEL'S RUN, READ: every weakly fair execution terminates, the result buffer at the network of the arguments, the
    arguments as launched. -/
theorem kernel_run : θ_run defs (onTc (τ := τ) (main (F := Ideal))) ⟨m, fun _ => 0, ρ⟩ (fun r => ∀ c : Dev nD,
      r.2.mem ((c.tc : Thread nD τ).loc main_v70)
        = Cert.GcnSpec.G (kAdj (m ((c.tc : Thread nD τ).loc main_arg1))) (m ((c.tc : Thread nD τ).loc main_arg0)) (m ((c.tc : Thread nD τ).loc main_arg2)) (fun q => m ((c.tc : Thread nD τ).loc main_arg3) (ix1 q)) (m ((c.tc : Thread nD τ).loc main_arg4)) (fun q => m ((c.tc : Thread nD τ).loc main_arg5) (ix1 q)) (m ((c.tc : Thread nD τ).loc main_arg6)) (fun q => m ((c.tc : Thread nD τ).loc main_arg7) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (v70_eq m ρ c), (h c).2⟩) (run_val m ρ)

end Cert.KernelIdeal.KVal

end
-- ==== Proof.LibVecBcast.lean ====
/-
  A vector laid along the rows or down the columns of a matrix by two host broadcasts.

  jnp adds a bias vector [d] to an [n, d] matrix by sending it to [1, d] and then to [n, d] (two broadcast_in_dim, the
  first naming axis 1, the second both axes); a per-row vector [n] written v[:, None] goes to [n, 1] (naming axis 0) and
  then to [n, d].  Read at (p, q) the first is the vector's entry q, the second its entry p.
-/
import Idealize.ShloMosaic.Lib.ValueIdx
import Idealize.ShloMosaic.Lib.Pipeline.Value

noncomputable section

namespace Cert.VecBcast

open Idealize.ShloMosaic Idealize.ShloMosaic.ValueIdx

variable {α : Type} {n d : ℕ}

/-- A vector [d] sent to [1, d] and then to [n, d] reads, at (p, q), its entry q. -/
theorem rowVec_bcast_apply (h1 : (⟨1, ![d]⟩ : Shape).BroadcastsInDim ⟨2, ![1, d]⟩ ![1])
    (h2 : (⟨2, ![1, d]⟩ : Shape).BroadcastsInDim ⟨2, ![n, d]⟩ ![0, 1]) (b : (⟨1, ![d]⟩ : Shape).Idx → α) (p : Fin n) (q : Fin d) :
    broadcastInDim ⟨2, ![n, d]⟩ ![0, 1] h2 (broadcastInDim ⟨2, ![1, d]⟩ ![1] h1 b) (ix2 p q) = b (ix1 q) := by
  have hq : q.val = if d = 1 then 0 else q.val := by
    split
    · have := q.isLt; omega
    · rfl
  rw [broadcastInDim_apply ![0, 1] h2 _ (ix2 p q) (ix2 (0 : Fin 1) q) (fun a => by
    match a with
    | ⟨0, _⟩ => rfl
    | ⟨1, _⟩ => exact hq)]
  exact broadcastInDim_apply ![1] h1 b (ix2 (0 : Fin 1) q) (ix1 q) (fun a => by
    match a with
    | ⟨0, _⟩ => exact hq)

/-- A per-row vector [n] sent to [n, 1] and then to [n, d] reads, at (p, q), its entry p. -/
theorem colVec_bcast_apply (h1 : (⟨1, ![n]⟩ : Shape).BroadcastsInDim ⟨2, ![n, 1]⟩ ![0])
    (h2 : (⟨2, ![n, 1]⟩ : Shape).BroadcastsInDim ⟨2, ![n, d]⟩ ![0, 1]) (v : (⟨1, ![n]⟩ : Shape).Idx → α) (p : Fin n) (q : Fin d) :
    broadcastInDim ⟨2, ![n, d]⟩ ![0, 1] h2 (broadcastInDim ⟨2, ![n, 1]⟩ ![0] h1 v) (ix2 p q) = v (ix1 p) := by
  have hp : p.val = if n = 1 then 0 else p.val := by
    split
    · have := p.isLt; omega
    · rfl
  rw [broadcastInDim_apply ![0, 1] h2 _ (ix2 p q) (ix2 p (0 : Fin 1)) (fun a => by
    match a with
    | ⟨0, _⟩ => exact hp
    | ⟨1, _⟩ => rfl)]
  exact broadcastInDim_apply ![0] h1 v (ix2 p (0 : Fin 1)) (ix1 p) (fun a => by
    match a with
    | ⟨0, _⟩ => exact hp)

end Cert.VecBcast

end
-- ==== Proof.LibHostAffine.lean ====
/-
  A host affine layer and a host relu on the extended reals, read at an entry.

  jnp writes  y @ W + b  as a `dot_general` of an [n, K] by a [K, N] matrix plus the bias vector [N] laid along the rows by
  two broadcasts ([N] to [1, N] to [n, N]); read at (p, q) that is  Σ_k y(p, k) · W(k, q) + b(q).  And  maximum(y, 0.0)  is a
  `maximum` against the scalar zero broadcast to y's shape; read at an index it is  max (y i) 0.  Nothing here mentions a
  program: the product's record is taken in its literal plain form.
-/
import proofs.«148437_j67826123538777_1_alg».proof.Proof.LibPlainMatmul
import proofs.«148437_j67826123538777_1_alg».proof.Proof.LibVecBcast

noncomputable section

namespace Cert.HostAffine

open Idealize.ShloMosaic Idealize.ShloMosaic.ValueIdx

/-- Entry (p, q) of  y @ W + b  on the host:  Σ_k y(p, k) · W(k, q) + b(q). -/
theorem affine_apply {n K N : ℕ} {φ₁ φ₂ : FTy}
    (wf : DotDims.WF (⟨2, ![n, K]⟩ : Shape) (⟨2, ![K, N]⟩ : Shape) (⟨2, ![n, N]⟩ : Shape) [1] [0] [0] [1] [] [])
    (h1 : (⟨1, ![N]⟩ : Shape).BroadcastsInDim ⟨2, ![1, N]⟩ ![1])
    (h2 : (⟨2, ![1, N]⟩ : Shape).BroadcastsInDim ⟨2, ![n, N]⟩ ![0, 1])
    (y : FVec Ideal (⟨2, ![n, K]⟩ : Shape) φ₁) (W : FVec Ideal (⟨2, ![K, N]⟩ : Shape) φ₂)
    (b : FVec Ideal (⟨1, ![N]⟩ : Shape) .f32) (p : Fin n) (q : Fin N) :
    addf (Host.dotGeneral (Cert.PlainMatmul.plain wf) none y W)
        (broadcastInDim ⟨2, ![n, N]⟩ ![0, 1] h2 (broadcastInDim ⟨2, ![1, N]⟩ ![1] h1 b)) (ix2 p q)
      = (∑ k : Fin K, y (ix2 p k) * W (ix2 k q)) + b (ix1 q) := by
  rw [addf_apply, Cert.VecBcast.rowVec_bcast_apply]
  exact congrArg (· + b (ix1 q)) (Cert.PlainMatmul.dotGeneral_apply wf none .single y W p q)

/-- maximum(y, 0.0) on the host at an index:  max (y i) 0. -/
theorem relu_apply {s : Shape} (h : (⟨0, ![]⟩ : Shape).BroadcastsInDim s ![]) (y : FVec Ideal s .f32) (i : s.Idx) :
    maximumf y (broadcastInDim s ![] h (constant (F := Ideal) ⟨0, ![]⟩ .f32 0x00000000#32)) i = max (y i) 0 := by
  rw [maximumf_apply, broadcastInDim_apply ![] h _ i ix0 (fun a => a.elim0), constant_apply, Ideal.ofBits_zero_f32]

end Cert.HostAffine

end
-- ==== Proof.RefValue.lean ====
/-
  The reference network, read as the three-layer graph convolution of the specification.

  The reference builds the normalised adjacency A from the edge array three times, once before each layer, each time by the
  same composition of the same operations of the edge array: the three arrays are one and the same function of it.  With
  A named, one layer of the reference is  A · (h · W) + b  with the bias laid along the rows (two matrix products, two
  broadcasts of the bias, one sum), the first two layers are followed by the entrywise maximum with the zero broadcast to
  the layer's shape, and the result is the third layer: that is the specification's network over A.  The adjacency itself
  is never read here: only that the same array stands before all three layers.
-/
import proofs.«148437_j67826123538777_1_alg».proof.Proof.ReadP
import proofs.«148437_j67826123538777_1_alg».proof.Proof.Spec
import proofs.«148437_j67826123538777_1_alg».proof.Proof.LibHostAffine

noncomputable section

open scoped BigOperators

namespace Cert.ReferenceIdeal.RefValue

open Cert.ReferenceIdeal Cert.ReferenceIdeal.Gen Cert.ReferenceIdeal.ReadP Idealize.ShloMosaic Idealize.ShloMosaic.ValueIdx

/-! ## The three adjacencies are one array -/

section Adjacency
variable {F : FTy → Type} [FloatOps F]

/-- The adjacency built before the second layer is the one built before the first: the same operations of the same
    edge array, in the same order. -/
theorem adj2_eq (x1 : (⟨S2x262144, .i32⟩ : BufTy).Contents (Elt F)) :
    val_main_v105 (F := F) x1 = val_main_v51 (F := F) x1 := by
  unfold val_main_v105 val_main_v104 val_main_v103 val_main_v102 val_main_v101 val_main_v100 val_main_v99 val_main_v98 val_main_cst_25 val_main_v97 val_main_v96 val_main_cst_24 val_main_v95 val_main_v94 val_main_v93 val_main_v92 val_main_v91 val_main_c_23 val_main_v90 val_main_v89 val_main_v88 val_main_v87 val_main_cst_22 val_main_v86 val_main_v85 val_main_v84 val_main_v83 val_main_v82 val_main_v81 val_main_c_21 val_main_v80 val_main_v79 val_main_c_20 val_main_v78 val_main_v77 val_main_v76 val_main_c_19 val_main_v75 val_main_v74 val_main_c_18 val_main_v73 val_main_v72 val_main_cst_17 val_main_v71 val_main_v70 val_main_v69 val_main_v68 val_main_v67 val_main_v66 val_main_c_16 val_main_v65 val_main_v64 val_main_c_15 val_main_v63 val_main_v62 val_main_v61 val_main_c_14 val_main_v60 val_main_v59 val_main_c_13 val_main_v58 val_main_cst_12
  unfold val_main_v51 val_main_v50 val_main_v49 val_main_v48 val_main_v47 val_main_v46 val_main_v45 val_main_v44 val_main_cst_11 val_main_v43 val_main_v42 val_main_cst_10 val_main_v41 val_main_v40 val_main_v39 val_main_v38 val_main_v37 val_main_c_9 val_main_v36 val_main_v35 val_main_v34 val_main_v33 val_main_cst_8 val_main_v32 val_main_v31 val_main_v30 val_main_v29 val_main_v28 val_main_v27 val_main_c_7 val_main_v26 val_main_v25 val_main_c_6 val_main_v24 val_main_v23 val_main_v22 val_main_c_5 val_main_v21 val_main_v20 val_main_c_4 val_main_v19 val_main_v18 val_main_cst_3 val_main_v17 val_main_v16 val_main_v15 val_main_v14 val_main_v13 val_main_v12 val_main_c_2 val_main_v11 val_main_v10 val_main_c_1 val_main_v9 val_main_v8 val_main_v7 val_main_c_0 val_main_v6 val_main_v5 val_main_c val_main_v4 val_main_cst
  rfl

/-- So is the adjacency built before the third layer. -/
theorem adj3_eq (x1 : (⟨S2x262144, .i32⟩ : BufTy).Contents (Elt F)) :
    val_main_v159 (F := F) x1 = val_main_v51 (F := F) x1 := by
  unfold val_main_v159 val_main_v158 val_main_v157 val_main_v156 val_main_v155 val_main_v154 val_main_v153 val_main_v152 val_main_cst_39 val_main_v151 val_main_v150 val_main_cst_38 val_main_v149 val_main_v148 val_main_v147 val_main_v146 val_main_v145 val_main_c_37 val_main_v144 val_main_v143 val_main_v142 val_main_v141 val_main_cst_36 val_main_v140 val_main_v139 val_main_v138 val_main_v137 val_main_v136 val_main_v135 val_main_c_35 val_main_v134 val_main_v133 val_main_c_34 val_main_v132 val_main_v131 val_main_v130 val_main_c_33 val_main_v129 val_main_v128 val_main_c_32 val_main_v127 val_main_v126 val_main_cst_31 val_main_v125 val_main_v124 val_main_v123 val_main_v122 val_main_v121 val_main_v120 val_main_c_30 val_main_v119 val_main_v118 val_main_c_29 val_main_v117 val_main_v116 val_main_v115 val_main_c_28 val_main_v114 val_main_v113 val_main_c_27 val_main_v112 val_main_cst_26
  unfold val_main_v51 val_main_v50 val_main_v49 val_main_v48 val_main_v47 val_main_v46 val_main_v45 val_main_v44 val_main_cst_11 val_main_v43 val_main_v42 val_main_cst_10 val_main_v41 val_main_v40 val_main_v39 val_main_v38 val_main_v37 val_main_c_9 val_main_v36 val_main_v35 val_main_v34 val_main_v33 val_main_cst_8 val_main_v32 val_main_v31 val_main_v30 val_main_v29 val_main_v28 val_main_v27 val_main_c_7 val_main_v26 val_main_v25 val_main_c_6 val_main_v24 val_main_v23 val_main_v22 val_main_c_5 val_main_v21 val_main_v20 val_main_c_4 val_main_v19 val_main_v18 val_main_cst_3 val_main_v17 val_main_v16 val_main_v15 val_main_v14 val_main_v13 val_main_v12 val_main_c_2 val_main_v11 val_main_v10 val_main_c_1 val_main_v9 val_main_v8 val_main_v7 val_main_c_0 val_main_v6 val_main_v5 val_main_c val_main_v4 val_main_cst
  rfl

end Adjacency

/-! ## One layer on the host, as a whole array -/

/-- A · (h · W) + b  on the host — the product h · W, the product of A with it, and the bias vector sent to [1, N] and
    then to [n, N] — is the specification's layer: at (p, q) the outer product is  Σ_j A(p, j) · (h · W)(j, q),  each
    inner entry is  Σ_k h(j, k) · W(k, q),  and the twice-broadcast bias reads b(q). -/
theorem host_layer {n K N : ℕ}
    (wfW : DotDims.WF (⟨2, ![n, K]⟩ : Shape) (⟨2, ![K, N]⟩ : Shape) (⟨2, ![n, N]⟩ : Shape) [1] [0] [0] [1] [] [])
    (wfA : DotDims.WF (⟨2, ![n, n]⟩ : Shape) (⟨2, ![n, N]⟩ : Shape) (⟨2, ![n, N]⟩ : Shape) [1] [0] [0] [1] [] [])
    (h1 : (⟨1, ![N]⟩ : Shape).BroadcastsInDim ⟨2, ![1, N]⟩ ![1])
    (h2 : (⟨2, ![1, N]⟩ : Shape).BroadcastsInDim ⟨2, ![n, N]⟩ ![0, 1])
    (A : FVec Ideal (⟨2, ![n, n]⟩ : Shape) .f32) (h : FVec Ideal (⟨2, ![n, K]⟩ : Shape) .f32)
    (W : FVec Ideal (⟨2, ![K, N]⟩ : Shape) .f32) (b : FVec Ideal (⟨1, ![N]⟩ : Shape) .f32) :
    addf (Host.dotGeneral (Cert.PlainMatmul.plain wfA) none A (Host.dotGeneral (Cert.PlainMatmul.plain wfW) none h W))
        (broadcastInDim ⟨2, ![n, N]⟩ ![0, 1] h2 (broadcastInDim ⟨2, ![1, N]⟩ ![1] h1 b))
      = Cert.GcnSpec.layer A h W (fun q => b (ix1 q)) := by
  funext i
  obtain ⟨p, q, rfl⟩ : ∃ (p : Fin n) (q : Fin N), i = ix2 p q := ⟨i 0, i 1, eq_ix2 i⟩
  rw [Cert.HostAffine.affine_apply, Cert.GcnSpec.layer_apply]
  refine congrArg (· + b (ix1 q)) (Finset.sum_congr rfl fun j _ => ?_)
  rw [Cert.GcnSpec.prod_apply]
  exact congrArg (A (ix2 p j) * ·) (Cert.PlainMatmul.dotGeneral_apply wfW none .single h W j q)

/-- The maximum with the zero broadcast to the array's shape is the specification's rectifier. -/
theorem host_relu {a b : ℕ} (h0 : (⟨0, ![]⟩ : Shape).BroadcastsInDim ⟨2, ![a, b]⟩ ![])
    (y : FVec Ideal (⟨2, ![a, b]⟩ : Shape) .f32) :
    maximumf y (broadcastInDim ⟨2, ![a, b]⟩ ![] h0 (constant (F := Ideal) ⟨0, ![]⟩ .f32 0x00000000#32))
      = Cert.GcnSpec.relu y :=
  funext fun i => Cert.HostAffine.relu_apply h0 y i

/-! ## The reference's layers -/

/-- The first layer before its rectifier:  A · (x · W₁) + b₁. -/
theorem pre1_eq (x0 : (⟨S8192x512, .f32⟩ : BufTy).Contents (Elt Ideal)) (x1 : (⟨S2x262144, .i32⟩ : BufTy).Contents (Elt Ideal)) (x2 : (⟨S512x512, .f32⟩ : BufTy).Contents (Elt Ideal)) (x3 : (⟨S512, .f32⟩ : BufTy).Contents (Elt Ideal)) :
    val_main_v56 (F := Ideal) x0 x1 x2 x3
      = Cert.GcnSpec.layer (val_main_v51 (F := Ideal) x1) x0 x2 (fun q => x3 (ix1 q)) := by
  unfold val_main_v56 val_main_v55 val_main_v54 val_main_v53 val_main_v52
  exact host_layer dot_S8192x512_S512x512_S8192x512_1_0_0_1_n_n_wf dot_S8192x8192_S8192x512_S8192x512_1_0_0_1_n_n_wf
    bcast_S512_S1x512_1 bcast_S1x512_S8192x512_0_1 (val_main_v51 (F := Ideal) x1) x0 x2 x3

/-- The first layer:  relu (A · (x · W₁) + b₁). -/
theorem layer1_eq (x0 : (⟨S8192x512, .f32⟩ : BufTy).Contents (Elt Ideal)) (x1 : (⟨S2x262144, .i32⟩ : BufTy).Contents (Elt Ideal)) (x2 : (⟨S512x512, .f32⟩ : BufTy).Contents (Elt Ideal)) (x3 : (⟨S512, .f32⟩ : BufTy).Contents (Elt Ideal)) :
    val_main_v57 (F := Ideal) x0 x1 x2 x3
      = Cert.GcnSpec.relu (Cert.GcnSpec.layer (val_main_v51 (F := Ideal) x1) x0 x2 (fun q => x3 (ix1 q))) := by
  rw [← pre1_eq x0 x1 x2 x3]
  unfold val_main_v57 val_main_call0_v0 val_main_call0_cst
  exact host_relu bcast_S_S8192x512 (val_main_v56 (F := Ideal) x0 x1 x2 x3)

/-- The second layer before its rectifier, over the first layer's result h₁:  A₂ · (h₁ · W₂) + b₂,  A₂ the adjacency built
    before it. -/
theorem pre2_eq (x0 : (⟨S8192x512, .f32⟩ : BufTy).Contents (Elt Ideal)) (x1 : (⟨S2x262144, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) :
    val_main_v110 (F := Ideal) x0 x1 x2 x3 x4 x5
      = Cert.GcnSpec.layer (val_main_v105 (F := Ideal) x1) (val_main_v57 (F := Ideal) x0 x1 x2 x3) x4 (fun q => x5 (ix1 q)) := by
  unfold val_main_v110 val_main_v109 val_main_v108 val_main_v107 val_main_v106
  exact host_layer dot_S8192x512_S512x512_S8192x512_1_0_0_1_n_n_wf dot_S8192x8192_S8192x512_S8192x512_1_0_0_1_n_n_wf
    bcast_S512_S1x512_1 bcast_S1x512_S8192x512_0_1 (val_main_v105 (F := Ideal) x1) (val_main_v57 (F := Ideal) x0 x1 x2 x3) x4 x5

/-- The second layer:  relu (A₂ · (h₁ · W₂) + b₂). -/
theorem layer2_eq (x0 : (⟨S8192x512, .f32⟩ : BufTy).Contents (Elt Ideal)) (x1 : (⟨S2x262144, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) :
    val_main_v111 (F := Ideal) x0 x1 x2 x3 x4 x5
      = Cert.GcnSpec.relu (Cert.GcnSpec.layer (val_main_v105 (F := Ideal) x1) (val_main_v57 (F := Ideal) x0 x1 x2 x3) x4
          (fun q => x5 (ix1 q))) := by
  rw [← pre2_eq x0 x1 x2 x3 x4 x5]
  unfold val_main_v111 val_main_call1_v0 val_main_call1_cst
  exact host_relu bcast_S_S8192x512 (val_main_v110 (F := Ideal) x0 x1 x2 x3 x4 x5)

/-- The third layer, which has no rectifier, over the second layer's result h₂:  A₃ · (h₂ · W₃) + b₃. -/
theorem layer3_eq (x0 : (⟨S8192x512, .f32⟩ : BufTy).Contents (Elt Ideal)) (x1 : (⟨S2x262144, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x256, .f32⟩ : BufTy).Contents (Elt Ideal)) (x7 : (⟨S256, .f32⟩ : BufTy).Contents (Elt Ideal)) :
    val_main_v164 (F := Ideal) x0 x1 x2 x3 x4 x5 x6 x7
      = Cert.GcnSpec.layer (val_main_v159 (F := Ideal) x1) (val_main_v111 (F := Ideal) x0 x1 x2 x3 x4 x5) x6
          (fun q => x7 (ix1 q)) := by
  unfold val_main_v164 val_main_v163 val_main_v162 val_main_v161 val_main_v160
  exact host_layer dot_S8192x512_S512x256_S8192x256_1_0_0_1_n_n_wf dot_S8192x8192_S8192x256_S8192x256_1_0_0_1_n_n_wf
    bcast_S256_S1x256_1 bcast_S1x256_S8192x256_0_1 (val_main_v159 (F := Ideal) x1) (val_main_v111 (F := Ideal) x0 x1 x2 x3 x4 x5) x6 x7

/-! ## The reference is the network -/

/-- The reference's result is the specification's network over the adjacency built before the first layer, the features,
    and the three weight matrices and bias vectors. -/
theorem ref_eq (x0 : (⟨S8192x512, .f32⟩ : BufTy).Contents (Elt Ideal)) (x1 : (⟨S2x262144, .i32⟩ : BufTy).Contents (Elt Ideal)) (x2 : (⟨S512x512, .f32⟩ : BufTy).Contents (Elt Ideal)) (x3 : (⟨S512, .f32⟩ : BufTy).Contents (Elt Ideal)) (x4 : (⟨S512x512, .f32⟩ : BufTy).Contents (Elt Ideal)) (x5 : (⟨S512, .f32⟩ : BufTy).Contents (Elt Ideal)) (x6 : (⟨S512x256, .f32⟩ : BufTy).Contents (Elt Ideal)) (x7 : (⟨S256, .f32⟩ : BufTy).Contents (Elt Ideal)) :
    val_main_v164 (F := Ideal) x0 x1 x2 x3 x4 x5 x6 x7
      = Cert.GcnSpec.G (val_main_v51 (F := Ideal) x1) x0 x2 (fun q => x3 (ix1 q)) x4 (fun q => x5 (ix1 q)) x6
          (fun q => x7 (ix1 q)) := by
  unfold Cert.GcnSpec.G
  rw [layer3_eq, layer2_eq, layer1_eq, adj3_eq, adj2_eq]

end Cert.ReferenceIdeal.RefValue

end
-- ==== Proof.RefLink.lean ====
/-
  The reference's result over the adjacency in closed form.

  The adjacency the reference builds from the edge array is, operation for operation, the closed form  normalise (S + I):
  S the symmetric 0/1 matrix of the edges, I the identity matrix, and  normalise  the scaling of entry (p, q) by
  1 / √deg(p) and 1 / √deg(q),  deg the row sums.  With that, the reference's result from its launch memory is the
  specification's three-layer network over that matrix, the features, the weights and the biases.
-/
import proofs.«148437_j67826123538777_1_alg».proof.Proof.RefValue
import proofs.«148437_j67826123538777_1_alg».proof.Proof.KAdjacency

noncomputable section

namespace Cert.ReferenceIdeal.RefValue

open Cert.ReferenceIdeal Cert.ReferenceIdeal.Gen Idealize.ShloMosaic Idealize.ShloMosaic.ValueIdx Idealize.ShloMosaic.TcCoe
  Idealize.SL.Sem

set_option maxRecDepth 8192 in
/-- The adjacency the reference builds before its first layer is the closed form: the symmetric 0/1 matrix of the edges
    plus the identity, normalised — the two are the same composition of the same operations of the edge array. -/
theorem adj_eq_refAdj (x1 : (⟨S2x262144, .i32⟩ : BufTy).Contents (Elt Ideal)) :
    Cert.ReferenceIdeal.ReadP.val_main_v51 (F := Ideal) x1 = Cert.KernelIdeal.KMath.refAdj x1 := rfl

/-- The reference's result, from the memory it is launched on: the network over the closed-form adjacency of the edge
    array, the features, and the three weight matrices and bias vectors. -/
theorem ref_result (m : (ℓ : Loc nD τ sig) → Buf (Elt Ideal) ℓ) (c : Dev nD) :
    Cert.ReferenceIdeal.ValueP.res_main_v164 (F := Ideal) m c
      = Cert.GcnSpec.G (Cert.KernelIdeal.KMath.refAdj (m ((c.tc : Thread nD τ).loc main_arg1)))
          (m ((c.tc : Thread nD τ).loc main_arg0)) (m ((c.tc : Thread nD τ).loc main_arg2))
          (fun q : Fin 512 => ((m ((c.tc : Thread nD τ).loc main_arg3)) : (⟨S512, .f32⟩ : BufTy).Contents (Elt Ideal)) (ix1 q))
          (m ((c.tc : Thread nD τ).loc main_arg4))
          (fun q : Fin 512 => ((m ((c.tc : Thread nD τ).loc main_arg5)) : (⟨S512, .f32⟩ : BufTy).Contents (Elt Ideal)) (ix1 q))
          (m ((c.tc : Thread nD τ).loc main_arg6))
          (fun q : Fin 256 => ((m ((c.tc : Thread nD τ).loc main_arg7)) : (⟨S256, .f32⟩ : BufTy).Contents (Elt Ideal)) (ix1 q)) := by
  rw [Cert.ReferenceIdeal.ReadP.val_main_v164_eq, ref_eq, adj_eq_refAdj]

end Cert.ReferenceIdeal.RefValue

end
-- ==== Proof.lean ====
/- The proof of `Cert.Claim`: a three-layer graph convolution computed by six kernel regions against its plain reference.

   Both programs build the same symmetric 0/1 adjacency from the edge list by two set-scatters and normalise it by the
   inverse square roots of its row sums; they differ only in how the self loops enter (a scatter-add of ones on the
   diagonal against the addition of the identity matrix), which is the same matrix entry by entry. Per layer the kernel
   computes h · W on row blocks of 1024 and then A · (h · W) + b accumulated over eight column blocks of A from a zero
   accumulator, where the reference takes both products whole: over the extended reals a finite sum may be regrouped
   freely (addition is commutative and associative at the infinities too), changes of float format are the identity, and
   the rectifier is the maximum with 0 on both sides. So both results are the network `Cert.GcnSpec.G` of the arguments,
   and no finiteness of the inputs is used.
   The frames: each kernel region is run at the buffer contents of its entry boundary (a projection region has one
   control case; an aggregation region three — first, middle and last column block — with the accumulator carried in the
   region's invariant), and @main is the chain of its host stretches and regions; the same text proves the word-level
   program's frame. The reference's run and its read-at-an-index lemmas are generated text. -/
import proofs.«148437_j67826123538777_1_alg».proof.Defs
import proofs.«148437_j67826123538777_1_alg».proof.Proof.Gen.Kernel
import proofs.«148437_j67826123538777_1_alg».proof.Proof.Gen.KernelIdeal
import proofs.«148437_j67826123538777_1_alg».proof.Proof.Gen.ReferenceIdeal
import proofs.«148437_j67826123538777_1_alg».proof.Proof.Gen.Pre_finite_inputs
import proofs.«148437_j67826123538777_1_alg».proof.Proof.FrArgsB
import proofs.«148437_j67826123538777_1_alg».proof.Proof.FrArgsI
import proofs.«148437_j67826123538777_1_alg».proof.Proof.KCompose
import proofs.«148437_j67826123538777_1_alg».proof.Proof.RefLink
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The two idealized programs, from memories agreeing on the arguments, end with the same result array: the network of
    the specification over one adjacency. -/
theorem algebraic : Cert.algebraic_KernelIdeal_ReferenceIdeal := by
  intro m ρ m' ρ' _ hagree
  refine ⟨_, Cert.KernelIdeal.KVal.kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  rw [Cert.ReferenceIdeal.RefValue.ref_result, h0, h1, h2, h3, h4, h5, h6, h7, ← Cert.KernelIdeal.KMath.kAdj_eq_ref]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
